-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v11)) (v6 : (c : Dev Cert.KernelIdeal.nD) → Buf (Elt Ideal) ((c.tc : Thread Cert.KernelIdeal.nD Cert.KernelIdeal.τ).loc Cert.KernelIdeal.main_v41)) (v7 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_v41) = v6 c
          ∧ r.2.mem ((c.tc : Thread Cert.KernelIdeal.nD Cert.KernelIdeal.τ).loc Cert.KernelIdeal.main_v42) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_v41) = v4 c
          ∧ r.2.mem ((c.tc : Thread Cert.ReferenceIdeal.nD Cert.ReferenceIdeal.τ).loc Cert.ReferenceIdeal.main_v42) = v5 c
          ∧ r.2.mem ((c.tc : Thread Cert.ReferenceIdeal.nD Cert.ReferenceIdeal.τ).loc Cert.ReferenceIdeal.main_v43) = v6 c
          ∧ r.2.mem ((c.tc : Thread Cert.ReferenceIdeal.nD Cert.ReferenceIdeal.τ).loc Cert.ReferenceIdeal.main_v44) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x256 : Shape := ⟨3, ![16, 900, 256]⟩
abbrev S16x6x256 : Shape := ⟨3, ![16, 6, 256]⟩
abbrev S16x256 : Shape := ⟨2, ![16, 256]⟩
abbrev S16x4x900x256 : Shape := ⟨4, ![16, 4, 900, 256]⟩
abbrev S16x4x6x256 : Shape := ⟨4, ![16, 4, 6, 256]⟩
abbrev S16x4x256 : Shape := ⟨3, ![16, 4, 256]⟩
abbrev S16x4 : Shape := ⟨2, ![16, 4]⟩
abbrev S16 : Shape := ⟨1, ![16]⟩
abbrev S16x900x4x256 : Shape := ⟨4, ![16, 900, 4, 256]⟩
abbrev S16x900x4 : Shape := ⟨3, ![16, 900, 4]⟩
abbrev S16x1x4x256 : Shape := ⟨4, ![16, 1, 4, 256]⟩
abbrev S16x1x4 : Shape := ⟨3, ![16, 1, 4]⟩
abbrev S_ : Shape := ⟨0, ![]⟩

class Facts : Prop where
  bcast_S_S16x900x256 : S_.BroadcastsInDim S16x900x256 (![] : Fin 0 → Fin S16x900x256.rank)
  reducesTo_S16x900x256_S_d0_1_2 : S16x900x256.ReducesTo [0, 1, 2] S_
  h_S_ : 0 < S_.numel
  bcast_S_S16x6x256 : S_.BroadcastsInDim S16x6x256 (![] : Fin 0 → Fin S16x6x256.rank)
  reducesTo_S16x6x256_S_d0_1_2 : S16x6x256.ReducesTo [0, 1, 2] S_
  bcast_S_S16x256 : S_.BroadcastsInDim S16x256 (![] : Fin 0 → Fin S16x256.rank)
  reducesTo_S16x256_S_d0_1 : S16x256.ReducesTo [0, 1] S_
  bcast_S_S16x4x900x256 : S_.BroadcastsInDim S16x4x900x256 (![] : Fin 0 → Fin S16x4x900x256.rank)
  reducesTo_S16x4x900x256_S_d0_1_2_3 : S16x4x900x256.ReducesTo [0, 1, 2, 3] S_
  bcast_S_S16x4x6x256 : S_.BroadcastsInDim S16x4x6x256 (![] : Fin 0 → Fin S16x4x6x256.rank)
  reducesTo_S16x4x6x256_S_d0_1_2_3 : S16x4x6x256.ReducesTo [0, 1, 2, 3] S_
  bcast_S_S16x4x256 : S_.BroadcastsInDim S16x4x256 (![] : Fin 0 → Fin S16x4x256.rank)
  reducesTo_S16x4x256_S_d0_1_2 : S16x4x256.ReducesTo [0, 1, 2] S_
  bcast_S_S16x900x4x256 : S_.BroadcastsInDim S16x900x4x256 (![] : Fin 0 → Fin S16x900x4x256.rank)
  reducesTo_S16x900x4x256_S_d0_1_2_3 : S16x900x4x256.ReducesTo [0, 1, 2, 3] S_
  bcast_S_S16x1x4x256 : S_.BroadcastsInDim S16x1x4x256 (![] : Fin 0 → Fin S16x1x4x256.rank)
  reducesTo_S16x1x4x256_S_d0_1_2_3 : S16x1x4x256.ReducesTo [0, 1, 2, 3] S_

variable [Facts]

def fn_part2 {F : FTy → Type} [FloatOps F] (main_arg10 : FVec F S16x1x4x256 .f32) (main_v33 : IVec S_ 1) : IVec S_ 1 :=
  let main_v34 : FVec F S16x1x4x256 .f32 := Host.absf main_arg10
  let main_cst_12 : FVec F S_ .f32 := constant S_ .f32 0x7F800000#32
  let main_v35 : FVec F S16x1x4x256 .f32 := broadcastInDim S16x1x4x256 ![] bcast_S_S16x1x4x256 main_cst_12
  let main_v36 : IVec S16x1x4x256 1 := cmpf .olt main_v34 main_v35
  let main_c_13 : IVec S_ 1 := constantI S_ 1 1#1
  let main_v37 : IVec S_ 1 := (fun x v => Host.reduce IntOp.andi x v reducesTo_S16x1x4x256_S_d0_1_2_3 h_S_) main_v36 main_c_13
  let main_v38 : IVec S_ 1 := andi main_v33 main_v37
  main_v38

def fn_part1 {F : FTy → Type} [FloatOps F] (main_arg4 : FVec F S16x4x6x256 .f32) (main_arg5 : FVec F S16x4x256 .f32) (main_arg8 : FVec F S16x900x4x256 .f32) (main_arg10 : FVec F S16x1x4x256 .f32) (main_v13 : IVec S_ 1) (main_v16 : IVec S16x4x900x256 1) : IVec S_ 1 :=
  let main_c_5 : IVec S_ 1 := constantI S_ 1 1#1
  let main_v17 : IVec S_ 1 := (fun x v => Host.reduce IntOp.andi x v reducesTo_S16x4x900x256_S_d0_1_2_3 h_S_) main_v16 main_c_5
  let main_v18 : IVec S_ 1 := andi main_v13 main_v17
  let main_v19 : FVec F S16x4x6x256 .f32 := Host.absf main_arg4
  let main_cst_6 : FVec F S_ .f32 := constant S_ .f32 0x7F800000#32
  let main_v20 : FVec F S16x4x6x256 .f32 := broadcastInDim S16x4x6x256 ![] bcast_S_S16x4x6x256 main_cst_6
  let main_v21 : IVec S16x4x6x256 1 := cmpf .olt main_v19 main_v20
  let main_c_7 : IVec S_ 1 := constantI S_ 1 1#1
  let main_v22 : IVec S_ 1 := (fun x v => Host.reduce IntOp.andi x v reducesTo_S16x4x6x256_S_d0_1_2_3 h_S_) main_v21 main_c_7
  let main_v23 : IVec S_ 1 := andi main_v18 main_v22
  let main_v24 : FVec F S16x4x256 .f32 := Host.absf main_arg5
  let main_cst_8 : FVec F S_ .f32 := constant S_ .f32 0x7F800000#32
  let main_v25 : FVec F S16x4x256 .f32 := broadcastInDim S16x4x256 ![] bcast_S_S16x4x256 main_cst_8
  let main_v26 : IVec S16x4x256 1 := cmpf .olt main_v24 main_v25
  let main_c_9 : IVec S_ 1 := constantI S_ 1 1#1
  let main_v27 : IVec S_ 1 := (fun x v => Host.reduce IntOp.andi x v reducesTo_S16x4x256_S_d0_1_2 h_S_) main_v26 main_c_9
  let main_v28 : IVec S_ 1 := andi main_v23 main_v27
  let main_v29 : FVec F S16x900x4x256 .f32 := Host.absf main_arg8
  let main_cst_10 : FVec F S_ .f32 := constant S_ .f32 0x7F800000#32
  let main_v30 : FVec F S16x900x4x256 .f32 := broadcastInDim S16x900x4x256 ![] bcast_S_S16x900x4x256 main_cst_10
  let main_v31 : IVec S16x900x4x256 1 := cmpf .olt main_v29 main_v30
  let main_c_11 : IVec S_ 1 := constantI S_ 1 1#1
  let main_v32 : IVec S_ 1 := (fun x v => Host.reduce IntOp.andi x v reducesTo_S16x900x4x256_S_d0_1_2_3 h_S_) main_v31 main_c_11
  let main_v33 : IVec S_ 1 := andi main_v28 main_v32
  fn_part2 (F := F) main_arg10 main_v33

def fn {F : FTy → Type} [FloatOps F] (main_arg0 : FVec F S16x900x256 .f32) (main_arg1 : FVec F S16x6x256 .f32) (main_arg2 : FVec F S16x256 .f32) (main_arg3 : FVec F S16x4x900x256 .f32) (main_arg4 : FVec F S16x4x6x256 .f32) (main_arg5 : FVec F S16x4x256 .f32) (main_arg6 : IVec S16x4 32) (main_arg7 : IVec S16 1) (main_arg8 : FVec F S16x900x4x256 .f32) (main_arg9 : IVec S16x900x4 1) (main_arg10 : FVec F S16x1x4x256 .f32) (main_arg11 : IVec S16x1x4 1) : IVec S_ 1 :=
  let main_v0 : FVec F S16x900x256 .f32 := Host.absf main_arg0
  let main_cst : FVec F S_ .f32 := constant S_ .f32 0x7F800000#32
  let main_v1 : FVec F S16x900x256 .f32 := broadcastInDim S16x900x256 ![] bcast_S_S16x900x256 main_cst
  let main_v2 : IVec S16x900x256 1 := cmpf .olt main_v0 main_v1
  let main_c : IVec S_ 1 := constantI S_ 1 1#1
  let main_v3 : IVec S_ 1 := (fun x v => Host.reduce IntOp.andi x v reducesTo_S16x900x256_S_d0_1_2 h_S_) main_v2 main_c
  let main_v4 : FVec F S16x6x256 .f32 := Host.absf main_arg1
  let main_cst_0 : FVec F S_ .f32 := constant S_ .f32 0x7F800000#32
  let main_v5 : FVec F S16x6x256 .f32 := broadcastInDim S16x6x256 ![] bcast_S_S16x6x256 main_cst_0
  let main_v6 : IVec S16x6x256 1 := cmpf .olt main_v4 main_v5
  let main_c_1 : IVec S_ 1 := constantI S_ 1 1#1
  let main_v7 : IVec S_ 1 := (fun x v => Host.reduce IntOp.andi x v reducesTo_S16x6x256_S_d0_1_2 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S16x4x900x256 .f32 := Host.absf main_arg3
  let main_cst_4 : FVec F S_ .f32 := constant S_ .f32 0x7F800000#32
  let main_v15 : FVec F S16x4x900x256 .f32 := broadcastInDim S16x4x900x256 ![] bcast_S_S16x4x900x256 main_cst_4
  let main_v16 : IVec S16x4x900x256 1 := cmpf .olt main_v14 main_v15
  fn_part1 (F := F) main_arg4 main_arg5 main_arg8 main_arg10 main_v13 main_v16
-- ==== Kernel.lean ====
abbrev S16x900x256 : Shape := ⟨3, ![16, 900, 256]⟩
abbrev S16x6x256 : Shape := ⟨3, ![16, 6, 256]⟩
abbrev S16x256 : Shape := ⟨2, ![16, 256]⟩
abbrev S16x4x900x256 : Shape := ⟨4, ![16, 4, 900, 256]⟩
abbrev S16x4x6x256 : Shape := ⟨4, ![16, 4, 6, 256]⟩
abbrev S16x4x256 : Shape := ⟨3, ![16, 4, 256]⟩
abbrev S16x4 : Shape := ⟨2, ![16, 4]⟩
abbrev S16 : Shape := ⟨1, ![16]⟩
abbrev S16x900x4x256 : Shape := ⟨4, ![16, 900, 4, 256]⟩
abbrev S16x900x4 : Shape := ⟨3, ![16, 900, 4]⟩
abbrev S16x1x4x256 : Shape := ⟨4, ![16, 1, 4, 256]⟩
abbrev S16x1x4 : Shape := ⟨3, ![16, 1, 4]⟩
abbrev S1x900x256 : Shape := ⟨3, ![1, 900, 256]⟩
abbrev S1x4x900x256 : Shape := ⟨4, ![1, 4, 900, 256]⟩
abbrev S1 : Shape := ⟨1, ![1]⟩
abbrev S900x256 : Shape := ⟨2, ![900, 256]⟩
abbrev S4x900x256 : Shape := ⟨3, ![4, 900, 256]⟩
abbrev S16x1x1x1 : Shape := ⟨4, ![16, 1, 1, 1]⟩
abbrev S16x1x6x256 : Shape := ⟨4, ![16, 1, 6, 256]⟩
abbrev S16x1x1 : Shape := ⟨3, ![16, 1, 1]⟩
abbrev S16x1x256 : Shape := ⟨3, ![16, 1, 256]⟩
abbrev S16x1 : Shape := ⟨2, ![16, 1]⟩
abbrev S_ : Shape := ⟨0, ![]⟩
abbrev S16x3x900x256 : Shape := ⟨4, ![16, 3, 900, 256]⟩
abbrev S1x900x4x256 : Shape := ⟨4, ![1, 900, 4, 256]⟩
abbrev S1x3x900x256 : Shape := ⟨4, ![1, 3, 900, 256]⟩
abbrev S1x900x1x256 : Shape := ⟨4, ![1, 900, 1, 256]⟩
abbrev S1x1x900x256 : Shape := ⟨4, ![1, 1, 900, 256]⟩
abbrev S16x900x3 : Shape := ⟨3, ![16, 900, 3]⟩
abbrev S16x3x900 : Shape := ⟨3, ![16, 3, 900]⟩
abbrev S16x1x3 : Shape := ⟨3, ![16, 1, 3]⟩
abbrev S16x1x3x256 : Shape := ⟨4, ![16, 1, 3, 256]⟩
abbrev S16x3 : Shape := ⟨2, ![16, 3]⟩
abbrev S1x1x1 : Shape := ⟨3, ![1, 1, 1]⟩
abbrev S16x1x1x256 : Shape := ⟨4, ![16, 1, 1, 256]⟩
abbrev S3 : Shape := ⟨1, ![3]⟩
abbrev S1x3 : Shape := ⟨2, ![1, 3]⟩
abbrev S16x1x3x1 : Shape := ⟨4, ![16, 1, 3, 1]⟩
abbrev S16x3x1 : Shape := ⟨3, ![16, 3, 1]⟩
abbrev S16x3x1x256 : Shape := ⟨4, ![16, 3, 1, 256]⟩

abbrev nBuf : Space → Nat
  | .hbm => 93
  | .vmem => 10
  | .smem => 1
  | _ => 0

abbrev bufTy : (tb : Table) → Fin (tcTables nBuf tb) → BufTy
  | .hbm, ⟨0, _⟩ => ⟨S16x900x256, .f32⟩
  | .hbm, ⟨1, _⟩ => ⟨S16x6x256, .f32⟩
  | .hbm, ⟨2, _⟩ => ⟨S16x256, .f32⟩
  | .hbm, ⟨3, _⟩ => ⟨S16x4x900x256, .f32⟩
  | .hbm, ⟨4, _⟩ => ⟨S16x4x6x256, .f32⟩
  | .hbm, ⟨5, _⟩ => ⟨S16x4x256, .f32⟩
  | .hbm, ⟨6, _⟩ => ⟨S16x4, .i32⟩
  | .hbm, ⟨7, _⟩ => ⟨S16, .i1⟩
  | .hbm, ⟨8, _⟩ => ⟨S16x900x4x256, .f32⟩
  | .hbm, ⟨9, _⟩ => ⟨S16x900x4, .i1⟩
  | .hbm, ⟨10, _⟩ => ⟨S16x1x4x256, .f32⟩
  | .hbm, ⟨11, _⟩ => ⟨S16x1x4, .i1⟩
  | .hbm, ⟨12, _⟩ => ⟨S16, .i1⟩
  | .hbm, ⟨13, _⟩ => ⟨S16x4x900x256, .f32⟩
  | .hbm, ⟨14, _⟩ => ⟨S16x1x1x1, .i1⟩
  | .hbm, ⟨15, _⟩ => ⟨S16x1x6x256, .f32⟩
  | .hbm, ⟨16, _⟩ => ⟨S16x4x6x256, .i1⟩
  | .hbm, ⟨17, _⟩ => ⟨S16x4x6x256, .f32⟩
  | .hbm, ⟨18, _⟩ => ⟨S16x4x6x256, .f32⟩
  | .hbm, ⟨19, _⟩ => ⟨S16x1x1, .i1⟩
  | .hbm, ⟨20, _⟩ => ⟨S16x1x256, .f32⟩
  | .hbm, ⟨21, _⟩ => ⟨S16x4x256, .i1⟩
  | .hbm, ⟨22, _⟩ => ⟨S16x4x256, .f32⟩
  | .hbm, ⟨23, _⟩ => ⟨S16x4x256, .f32⟩
  | .hbm, ⟨24, _⟩ => ⟨S16x1, .i1⟩
  | .hbm, ⟨25, _⟩ => ⟨S_, .i32⟩
  | .hbm, ⟨26, _⟩ => ⟨S_, .i32⟩
  | .hbm, ⟨27, _⟩ => ⟨S16x4, .i1⟩
  | .hbm, ⟨28, _⟩ => ⟨S16x4, .i32⟩
  | .hbm, ⟨29, _⟩ => ⟨S16x4, .i32⟩
  | .hbm, ⟨30, _⟩ => ⟨S16x3x900x256, .f32⟩
  | .hbm, ⟨31, _⟩ => ⟨S16x900x3, .i1⟩
  | .hbm, ⟨32, _⟩ => ⟨S16x3x900, .i1⟩
  | .hbm, ⟨33, _⟩ => ⟨S16x1x3, .i1⟩
  | .hbm, ⟨34, _⟩ => ⟨S16x1x3x256, .f32⟩
  | .hbm, ⟨35, _⟩ => ⟨S_, .i1⟩
  | .hbm, ⟨36, _⟩ => ⟨S_, .i1⟩
  | .hbm, ⟨37, _⟩ => ⟨S_, .i1⟩
  | .hbm, ⟨38, _⟩ => ⟨S16, .i1⟩
  | .hbm, ⟨39, _⟩ => ⟨S16x3, .i1⟩
  | .hbm, ⟨40, _⟩ => ⟨S16x3, .i32⟩
  | .hbm, ⟨41, _⟩ => ⟨S_, .i1⟩
  | .hbm, ⟨42, _⟩ => ⟨S_, .i32⟩
  | .hbm, ⟨43, _⟩ => ⟨S16, .i1⟩
  | .hbm, ⟨44, _⟩ => ⟨S16, .i32⟩
  | .hbm, ⟨45, _⟩ => ⟨S16x1x1x1, .i32⟩
  | .hbm, ⟨46, _⟩ => ⟨S_, .i32⟩
  | .hbm, ⟨47, _⟩ => ⟨S16x1x1x1, .i32⟩
  | .hbm, ⟨48, _⟩ => ⟨S16x1x1x1, .i1⟩
  | .hbm, ⟨49, _⟩ => ⟨S_, .i32⟩
  | .hbm, ⟨50, _⟩ => ⟨S16x1x1x1, .i32⟩
  | .hbm, ⟨51, _⟩ => ⟨S16x1x1x1, .i32⟩
  | .hbm, ⟨52, _⟩ => ⟨S16x1x1x1, .i32⟩
  | .hbm, ⟨53, _⟩ => ⟨S16x1x1, .i32⟩
  | .hbm, ⟨54, _⟩ => ⟨S1, .i32⟩
  | .hbm, ⟨55, _⟩ => ⟨S_, .i32⟩
  | .hbm, ⟨56, _⟩ => ⟨S16x1x1, .i32⟩
  | .hbm, ⟨57, _⟩ => ⟨S16x1x1, .i1⟩
  | .hbm, ⟨58, _⟩ => ⟨S1x1x1, .i32⟩
  | .hbm, ⟨59, _⟩ => ⟨S16x1x1, .i32⟩
  | .hbm, ⟨60, _⟩ => ⟨S16x1x1, .i1⟩
  | .hbm, ⟨61, _⟩ => ⟨S16x1x1, .i1⟩
  | .hbm, ⟨62, _⟩ => ⟨S_, .i1⟩
  | .hbm, ⟨63, _⟩ => ⟨S16x1, .i1⟩
  | .hbm, ⟨64, _⟩ => ⟨S16x1x1x256, .f32⟩
  | .hbm, ⟨65, _⟩ => ⟨S16x1x1x256, .i1⟩
  | .hbm, ⟨66, _⟩ => ⟨S_, .f32⟩
  | .hbm, ⟨67, _⟩ => ⟨S16x1x1x256, .f32⟩
  | .hbm, ⟨68, _⟩ => ⟨S16x1x1x256, .f32⟩
  | .hbm, ⟨69, _⟩ => ⟨S16x1x256, .f32⟩
  | .hbm, ⟨70, _⟩ => ⟨S16x1x1x256, .f32⟩
  | .hbm, ⟨71, _⟩ => ⟨S16x1x256, .f32⟩
  | .hbm, ⟨72, _⟩ => ⟨S16x1x1, .i1⟩
  | .hbm, ⟨73, _⟩ => ⟨S16x1x256, .i1⟩
  | .hbm, ⟨74, _⟩ => ⟨S16x1x256, .f32⟩
  | .hbm, ⟨75, _⟩ => ⟨S3, .i32⟩
  | .hbm, ⟨76, _⟩ => ⟨S16x1, .i1⟩
  | .hbm, ⟨77, _⟩ => ⟨S1x3, .i32⟩
  | .hbm, ⟨78, _⟩ => ⟨S16x1, .i32⟩
  | .hbm, ⟨79, _⟩ => ⟨S16x3, .i32⟩
  | .hbm, ⟨80, _⟩ => ⟨S16x3, .i32⟩
  | .hbm, ⟨81, _⟩ => ⟨S16x3, .i1⟩
  | .hbm, ⟨82, _⟩ => ⟨S16x3, .i1⟩
  | .hbm, ⟨83, _⟩ => ⟨S16x3, .i1⟩
  | .hbm, ⟨84, _⟩ => ⟨S16x1x3x1, .i1⟩
  | .hbm, ⟨85, _⟩ => ⟨S16x1x3x1, .i1⟩
  | .hbm, ⟨86, _⟩ => ⟨S16x1x3x1, .i1⟩
  | .hbm, ⟨87, _⟩ => ⟨S16x1x1x256, .f32⟩
  | .hbm, ⟨88, _⟩ => ⟨S16x1x3x256, .i1⟩
  | .hbm, ⟨89, _⟩ => ⟨S16x1x3x256, .f32⟩
  | .hbm, ⟨90, _⟩ => ⟨S16x1x3x256, .f32⟩
  | .hbm, ⟨91, _⟩ => ⟨S16x3x1, .i1⟩
  | .hbm, ⟨92, _⟩ => ⟨S16x3x1x256, .f32⟩
  | .local _ .vmem, ⟨0, _⟩ => ⟨S1x900x256, .f32⟩
  | .local _ .vmem, ⟨1, _⟩ => ⟨S1x900x256, .f32⟩
  | .local _ .vmem, ⟨2, _⟩ => ⟨S1x4x900x256, .f32⟩
  | .local _ .vmem, ⟨3, _⟩ => ⟨S1x4x900x256, .f32⟩
  | .local _ .vmem, ⟨4, _⟩ => ⟨S1x4x900x256, .f32⟩
  | .local _ .vmem, ⟨5, _⟩ => ⟨S1x4x900x256, .f32⟩
  | .local _ .vmem, ⟨6, _⟩ => ⟨S1x900x4x256, .f32⟩
  | .local _ .vmem, ⟨7, _⟩ => ⟨S1x900x4x256, .f32⟩
  | .local _ .vmem, ⟨8, _⟩ => ⟨S1x3x900x256, .f32⟩
  | .local _ .vmem, ⟨9, _⟩ => ⟨S1x3x900x256, .f32⟩
  | .local _ .smem, ⟨0, _⟩ => ⟨S16, .i32⟩
  | _, _ => ⟨S16x900x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_call0_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_0 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_call3_v0 : Ref sig .tc := ⟨.hbm, 40, rfl⟩
abbrev main_call3_c : Ref sig .tc := ⟨.hbm, 41, rfl⟩
abbrev main_call3_c_0 : Ref sig .tc := ⟨.hbm, 42, rfl⟩
abbrev main_call3_v1_0 : Ref sig .tc := ⟨.hbm, 43, rfl⟩
abbrev main_v19 : Ref sig .tc := ⟨.hbm, 44, rfl⟩
abbrev main_v20 : Ref sig .tc := ⟨.hbm, 45, rfl⟩
abbrev main_call4_c : Ref sig .tc := ⟨.hbm, 46, rfl⟩
abbrev main_call4_v0 : Ref sig .tc := ⟨.hbm, 47, rfl⟩
abbrev main_call4_v1 : Ref sig .tc := ⟨.hbm, 48, rfl⟩
abbrev main_call4_c_0 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_v5 : Ref sig .tc := ⟨.hbm, 53, rfl⟩
abbrev main_call4_c_1 : Ref sig .tc := ⟨.hbm, 54, rfl⟩
abbrev main_call4_c_2 : Ref sig .tc := ⟨.hbm, 55, rfl⟩
abbrev main_call4_v6 : Ref sig .tc := ⟨.hbm, 56, rfl⟩
abbrev main_call4_v7 : Ref sig .tc := ⟨.hbm, 57, rfl⟩
abbrev main_call4_v8 : Ref sig .tc := ⟨.hbm, 58, rfl⟩
abbrev main_call4_v9 : Ref sig .tc := ⟨.hbm, 59, rfl⟩
abbrev main_call4_v10 : Ref sig .tc := ⟨.hbm, 60, rfl⟩
abbrev main_call4_v11 : Ref sig .tc := ⟨.hbm, 61, rfl⟩
abbrev main_call4_c_3 : Ref sig .tc := ⟨.hbm, 62, rfl⟩
abbrev main_call4_v12 : Ref sig .tc := ⟨.hbm, 63, rfl⟩
abbrev main_call4_v13 : Ref sig .tc := ⟨.hbm, 64, rfl⟩
abbrev main_call4_v14 : Ref sig .tc := ⟨.hbm, 65, rfl⟩
abbrev main_call4_cst : Ref sig .tc := ⟨.hbm, 66, rfl⟩
abbrev main_call4_v15 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_call5_v0 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_call6_v0 : Ref sig .tc := ⟨.hbm, 88, rfl⟩
abbrev main_call6_v1 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x900x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x900x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x900x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x900x4x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x900x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  natLt_1_32 : 1 < 32
  numel1_S1 : S1.numel = 1
  inb_S1x900x256_S1x900x256_0_0_0 : ∀ a, (![0, 0, 0] : Fin 3 → Nat) a + S1x900x256.size a ≤ S1x900x256.size a
  h_S1x900x256 : 0 < S1x900x256.numel
  shapeCasts_S1x900x256_S900x256 : S1x900x256.ShapeCasts S900x256
  shapeCasts_S900x256_S1x900x256 : S900x256.ShapeCasts S1x900x256
  shapeCasts_S1x900x256_S1x900x256 : S1x900x256.ShapeCasts S1x900x256
  broadcasts_S1x900x256_S4x900x256 : S1x900x256.Broadcasts S4x900x256
  inb_S1x4x900x256_S1x4x900x256_0_0_0_0 : ∀ a, (![0, 0, 0, 0] : Fin 4 → Nat) a + S1x4x900x256.size a ≤ S1x4x900x256.size a
  h_S1x4x900x256 : 0 < S1x4x900x256.numel
  shapeCasts_S1x4x900x256_S4x900x256 : S1x4x900x256.ShapeCasts S4x900x256
  shapeCasts_S4x900x256_S1x4x900x256 : S4x900x256.ShapeCasts S1x4x900x256
  bcast_S16_S16x1x1x1_0 : S16.BroadcastsInDim S16x1x1x1 (![0] : Fin 1 → Fin S16x1x1x1.rank)
  bcast_S16x6x256_S16x1x6x256_0_2_3 : S16x6x256.BroadcastsInDim S16x1x6x256 (![0, 2, 3] : Fin 3 → Fin S16x1x6x256.rank)
  bcast_S16x1x1x1_S16x4x6x256_0_1_2_3 : S16x1x1x1.BroadcastsInDim S16x4x6x256 (![0, 1, 2, 3] : Fin 4 → Fin S16x4x6x256.rank)
  bcast_S16x1x6x256_S16x4x6x256_0_1_2_3 : S16x1x6x256.BroadcastsInDim S16x4x6x256 (![0, 1, 2, 3] : Fin 4 → Fin S16x4x6x256.rank)
  bcast_S16_S16x1x1_0 : S16.BroadcastsInDim S16x1x1 (![0] : Fin 1 → Fin S16x1x1.rank)
  bcast_S16x256_S16x1x256_0_2 : S16x256.BroadcastsInDim S16x1x256 (![0, 2] : Fin 2 → Fin S16x1x256.rank)
  bcast_S16x1x1_S16x4x256_0_1_2 : S16x1x1.BroadcastsInDim S16x4x256 (![0, 1, 2] : Fin 3 → Fin S16x4x256.rank)
  bcast_S16x1x256_S16x4x256_0_1_2 : S16x1x256.BroadcastsInDim S16x4x256 (![0, 1, 2] : Fin 3 → Fin S16x4x256.rank)
  bcast_S16_S16x1_0 : S16.BroadcastsInDim S16x1 (![0] : Fin 1 → Fin S16x1.rank)
  bcast_S16x1_S16x4_0_1 : S16x1.BroadcastsInDim S16x4 (![0, 1] : Fin 2 → Fin S16x4.rank)
  bcast_S_S16x4 : S_.BroadcastsInDim S16x4 (![] : Fin 0 → Fin S16x4.rank)
  inb_S1x900x4x256_S1x900x1x256_0_0_0_0 : ∀ a, (![0, 0, 0, 0] : Fin 4 → Nat) a + S1x900x1x256.size a ≤ S1x900x4x256.size a
  h_S1x900x1x256 : 0 < S1x900x1x256.numel
  shapeCasts_S1x900x1x256_S900x256 : S1x900x1x256.ShapeCasts S900x256
  inb_S1x3x900x256_S1x1x900x256_0_0_0_0 : ∀ a, (![0, 0, 0, 0] : Fin 4 → Nat) a + S1x1x900x256.size a ≤ S1x3x900x256.size a
  h_S1x1x900x256 : 0 < S1x1x900x256.numel
  shapeCasts_S1x1x900x256_S900x256 : S1x1x900x256.ShapeCasts S900x256
  shapeCasts_S900x256_S1x1x900x256 : S900x256.ShapeCasts S1x1x900x256
  inb_S1x900x4x256_S1x900x1x256_0_0_1_0 : ∀ a, (![0, 0, 1, 0] : Fin 4 → Nat) a + S1x900x1x256.size a ≤ S1x900x4x256.size a
  inb_S1x3x900x256_S1x1x900x256_0_1_0_0 : ∀ a, (![0, 1, 0, 0] : Fin 4 → Nat) a + S1x1x900x256.size a ≤ S1x3x900x256.size a
  inb_S1x900x4x256_S1x900x1x256_0_0_2_0 : ∀ a, (![0, 0, 2, 0] : Fin 4 → Nat) a + S1x900x1x256.size a ≤ S1x900x4x256.size a
  inb_S1x3x900x256_S1x1x900x256_0_2_0_0 : ∀ a, (![0, 2, 0, 0] : Fin 4 → Nat) a + S1x1x900x256.size a ≤ S1x3x900x256.size a
  slices_S16x900x4_S16x900x3_0_0_0 : S16x900x4.Slices ![0, 0, 0] S16x900x3
  transposes_S16x900x3_S16x3x900_0_2_1 : S16x900x3.Transposes [0, 2, 1] S16x3x900
  slices_S16x1x4_S16x1x3_0_0_0 : S16x1x4.Slices ![0, 0, 0] S16x1x3
  slices_S16x1x4x256_S16x1x3x256_0_0_0_0 : S16x1x4x256.Slices ![0, 0, 0, 0] S16x1x3x256
  reducesTo_S16x1x3_S_d0_1_2 : S16x1x3.ReducesTo [0, 1, 2] S_
  h_S_ : 0 < S_.numel
  reducesTo_S16x1x3_S16_d1_2 : S16x1x3.ReducesTo [1, 2] S16
  shapeCasts_S16x1x3_S16x3 : S16x1x3.ShapeCasts S16x3
  reducesTo_S16x3_S16_d1 : S16x3.ReducesTo [1] S16
  bcast_S_S16x1x1x1 : S_.BroadcastsInDim S16x1x1x1 (![] : Fin 0 → Fin S16x1x1x1.rank)
  shapeCasts_S16x1x1x1_S16x1x1 : S16x1x1x1.ShapeCasts S16x1x1
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  bcast_S16x1_S16x1x1x256_0_2 : S16x1.BroadcastsInDim S16x1x1x256 (![0, 2] : Fin 2 → Fin S16x1x1x256.rank)
  bcast_S_S16x1x1x256 : S_.BroadcastsInDim S16x1x1x256 (![] : Fin 0 → Fin S16x1x1x256.rank)
  shapeCasts_S16x1x1x256_S16x1x256 : S16x1x1x256.ShapeCasts S16x1x256
  slices_S16x1x4x256_S16x1x1x256_0_0_3_0 : S16x1x4x256.Slices ![0, 0, 3, 0] S16x1x1x256
  bcast_S16x1x1_S16x1x256_0_1_2 : S16x1x1.BroadcastsInDim S16x1x256 (![0, 1, 2] : Fin 3 → Fin S16x1x256.rank)
  bcast_S3_S1x3_1 : S3.BroadcastsInDim S1x3 (![1] : Fin 1 → Fin S1x3.rank)
  bcast_S1x3_S16x3_0_1 : S1x3.BroadcastsInDim S16x3 (![0, 1] : Fin 2 → Fin S16x3.rank)
  bcast_S16x1_S16x3_0_1 : S16x1.BroadcastsInDim S16x3 (![0, 1] : Fin 2 → Fin S16x3.rank)
  bcast_S16x3_S16x1x3x1_0_2 : S16x3.BroadcastsInDim S16x1x3x1 (![0, 2] : Fin 2 → Fin S16x1x3x1.rank)
  bcast_S_S16x1x3x1 : S_.BroadcastsInDim S16x1x3x1 (![] : Fin 0 → Fin S16x1x3x1.rank)
  bcast_S16x1x256_S16x1x1x256_0_1_3 : S16x1x256.BroadcastsInDim S16x1x1x256 (![0, 1, 3] : Fin 3 → Fin S16x1x1x256.rank)
  bcast_S16x1x3x1_S16x1x3x256_0_1_2_3 : S16x1x3x1.BroadcastsInDim S16x1x3x256 (![0, 1, 2, 3] : Fin 4 → Fin S16x1x3x256.rank)
  bcast_S16x1x1x256_S16x1x3x256_0_1_2_3 : S16x1x1x256.BroadcastsInDim S16x1x3x256 (![0, 1, 2, 3] : Fin 4 → Fin S16x1x3x256.rank)
  transposes_S16x1x3_S16x3x1_0_2_1 : S16x1x3.Transposes [0, 2, 1] S16x3x1
  transposes_S16x1x3x256_S16x3x1x256_0_2_1_3 : S16x1x3x256.Transposes [0, 2, 1, 3] S16x3x1x256
  gather_S16x1x3x256_S16x1x1_S16x1x1x256_13_2_0_0_2_2_111256_wf : GatherDims.WF S16x1x3x256 S16x1x1 S16x1x1x256 [1, 3] [2] [0] [2] [0] 2 ![1, 1, 1, 256]
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x900x256.size a ≤ S16x900x256.size a
  hwx0_0 : ∀ i : grid0.Coords, EltTy.bits .f32 = 32 ∨ (Rect.block (s := S16x900x256) S1x900x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x900x256.size a ≤ S16x4x900x256.size a
  hwx0_1 : ∀ i : grid0.Coords, EltTy.bits .f32 = 32 ∨ (Rect.block (s := S16x4x900x256) S1x4x900x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x900x256.size a ≤ S16x4x900x256.size a
  hwx0_2 : ∀ i : grid0.Coords, EltTy.bits .f32 = 32 ∨ (Rect.block (s := S16x4x900x256) S1x4x900x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x900x4x256.size a ≤ S16x900x4x256.size a
  hwx1_0 : ∀ i : grid1.Coords, EltTy.bits .f32 = 32 ∨ (Rect.block (s := S16x900x4x256) S1x900x4x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x900x256.size a ≤ S16x3x900x256.size a
  hwx1_1 : ∀ i : grid1.Coords, EltTy.bits .f32 = 32 ∨ (Rect.block (s := S16x3x900x256) S1x3x900x256.size (cc1_transform_1 i) (hinb1_1 i)).WholeWords (EltTy.packing .f32)

variable [Facts₀]

def reducer_argmin_i1_i32 : BitVec 1 × BitVec 32 → BitVec 1 × BitVec 32 → BitVec 1 × BitVec 32 :=
  fun a b =>
    let v2 := IntOp.cmpi .ult a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S16x1x3x256_S16x1x1_S16x1x1x256_13_2_0_0_2_2_111256 : GatherDims S16x1x3x256 S16x1x1 S16x1x1x256 where
  offsetDims := [1, 3]
  collapsedSliceDims := [2]
  operandBatchingDims := [0]
  startIndicesBatchingDims := [0]
  startIndexMap := [2]
  indexVectorDim := 2
  sliceSizes := ![1, 1, 1, 256]
  wf := gather_S16x1x3x256_S16x1x1_S16x1x1x256_13_2_0_0_2_2_111256_wf

abbrev spec0_0 : Pipeline.WinSpec sig grid0.rank :=
  Pipeline.WinSpec.ofSpec (Memref.whole main_arg0) S1x900x256.size reads0_0 false false 2 stage0_0 sem0_0 nbuf0_0 hstage0_0

abbrev spec0_1 : Pipeline.WinSpec sig grid0.rank :=
  Pipeline.WinSpec.ofSpec (Memref.whole main_arg3) S1x4x900x256.size reads0_1 false false 2 stage0_1 sem0_1 nbuf0_1 hstage0_1

abbrev spec0_2 : Pipeline.WinSpec sig grid0.rank :=
  Pipeline.WinSpec.ofSpec (Memref.whole main_v2) S1x4x900x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev win1_0 : Pipeline.Window sig grid1 :=
  Pipeline.Window.ofSpec (Memref.whole main_arg8) S1x900x4x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x3x900x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where
  harr0 : ∀ w, (spec0 w).arr.IsWhole

variable [Facts]
-- ==== ReferenceIdeal.lean ====
abbrev S16x900x256 : Shape := ⟨3, ![16, 900, 256]⟩
abbrev S16x6x256 : Shape := ⟨3, ![16, 6, 256]⟩
abbrev S16x256 : Shape := ⟨2, ![16, 256]⟩
abbrev S16x4x900x256 : Shape := ⟨4, ![16, 4, 900, 256]⟩
abbrev S16x4x6x256 : Shape := ⟨4, ![16, 4, 6, 256]⟩
abbrev S16x4x256 : Shape := ⟨3, ![16, 4, 256]⟩
abbrev S16x4 : Shape := ⟨2, ![16, 4]⟩
abbrev S16 : Shape := ⟨1, ![16]⟩
abbrev S16x900x4x256 : Shape := ⟨4, ![16, 900, 4, 256]⟩
abbrev S16x900x4 : Shape := ⟨3, ![16, 900, 4]⟩
abbrev S16x1x4x256 : Shape := ⟨4, ![16, 1, 4, 256]⟩
abbrev S16x1x4 : Shape := ⟨3, ![16, 1, 4]⟩
abbrev S16x1x1x1 : Shape := ⟨4, ![16, 1, 1, 1]⟩
abbrev S16x1x900x256 : Shape := ⟨4, ![16, 1, 900, 256]⟩
abbrev S16x1x6x256 : Shape := ⟨4, ![16, 1, 6, 256]⟩
abbrev S16x1x1 : Shape := ⟨3, ![16, 1, 1]⟩
abbrev S16x1x256 : Shape := ⟨3, ![16, 1, 256]⟩
abbrev S16x1 : Shape := ⟨2, ![16, 1]⟩
abbrev S_ : Shape := ⟨0, ![]⟩
abbrev S16x900x3 : Shape := ⟨3, ![16, 900, 3]⟩
abbrev S16x900x3x256 : Shape := ⟨4, ![16, 900, 3, 256]⟩
abbrev S16x1x3 : Shape := ⟨3, ![16, 1, 3]⟩
abbrev S16x1x3x256 : Shape := ⟨4, ![16, 1, 3, 256]⟩
abbrev S16x3 : Shape := ⟨2, ![16, 3]⟩
abbrev S1 : Shape := ⟨1, ![1]⟩
abbrev S1x1x1 : Shape := ⟨3, ![1, 1, 1]⟩
abbrev S16x1x1x256 : Shape := ⟨4, ![16, 1, 1, 256]⟩
abbrev S3 : Shape := ⟨1, ![3]⟩
abbrev S1x3 : Shape := ⟨2, ![1, 3]⟩
abbrev S16x1x3x1 : Shape := ⟨4, ![16, 1, 3, 1]⟩
abbrev S16x3x900 : Shape := ⟨3, ![16, 3, 900]⟩
abbrev S16x3x900x256 : Shape := ⟨4, ![16, 3, 900, 256]⟩
abbrev S16x3x1 : Shape := ⟨3, ![16, 3, 1]⟩
abbrev S16x3x1x256 : Shape := ⟨4, ![16, 3, 1, 256]⟩

abbrev nBuf : Space → Nat
  | .hbm => 98
  | .vmem => 0
  | .smem => 0
  | _ => 0

abbrev bufTy : (tb : Table) → Fin (tcTables nBuf tb) → BufTy
  | .hbm, ⟨0, _⟩ => ⟨S16x900x256, .f32⟩
  | .hbm, ⟨1, _⟩ => ⟨S16x6x256, .f32⟩
  | .hbm, ⟨2, _⟩ => ⟨S16x256, .f32⟩
  | .hbm, ⟨3, _⟩ => ⟨S16x4x900x256, .f32⟩
  | .hbm, ⟨4, _⟩ => ⟨S16x4x6x256, .f32⟩
  | .hbm, ⟨5, _⟩ => ⟨S16x4x256, .f32⟩
  | .hbm, ⟨6, _⟩ => ⟨S16x4, .i32⟩
  | .hbm, ⟨7, _⟩ => ⟨S16, .i1⟩
  | .hbm, ⟨8, _⟩ => ⟨S16x900x4x256, .f32⟩
  | .hbm, ⟨9, _⟩ => ⟨S16x900x4, .i1⟩
  | .hbm, ⟨10, _⟩ => ⟨S16x1x4x256, .f32⟩
  | .hbm, ⟨11, _⟩ => ⟨S16x1x4, .i1⟩
  | .hbm, ⟨12, _⟩ => ⟨S16, .i1⟩
  | .hbm, ⟨13, _⟩ => ⟨S16x1x1x1, .i1⟩
  | .hbm, ⟨14, _⟩ => ⟨S16x1x900x256, .f32⟩
  | .hbm, ⟨15, _⟩ => ⟨S16x4x900x256, .i1⟩
  | .hbm, ⟨16, _⟩ => ⟨S16x4x900x256, .f32⟩
  | .hbm, ⟨17, _⟩ => ⟨S16x4x900x256, .f32⟩
  | .hbm, ⟨18, _⟩ => ⟨S16x1x1x1, .i1⟩
  | .hbm, ⟨19, _⟩ => ⟨S16x1x6x256, .f32⟩
  | .hbm, ⟨20, _⟩ => ⟨S16x4x6x256, .i1⟩
  | .hbm, ⟨21, _⟩ => ⟨S16x4x6x256, .f32⟩
  | .hbm, ⟨22, _⟩ => ⟨S16x4x6x256, .f32⟩
  | .hbm, ⟨23, _⟩ => ⟨S16x1x1, .i1⟩
  | .hbm, ⟨24, _⟩ => ⟨S16x1x256, .f32⟩
  | .hbm, ⟨25, _⟩ => ⟨S16x4x256, .i1⟩
  | .hbm, ⟨26, _⟩ => ⟨S16x4x256, .f32⟩
  | .hbm, ⟨27, _⟩ => ⟨S16x4x256, .f32⟩
  | .hbm, ⟨28, _⟩ => ⟨S16x1, .i1⟩
  | .hbm, ⟨29, _⟩ => ⟨S_, .i32⟩
  | .hbm, ⟨30, _⟩ => ⟨S_, .i32⟩
  | .hbm, ⟨31, _⟩ => ⟨S16x4, .i1⟩
  | .hbm, ⟨32, _⟩ => ⟨S16x4, .i32⟩
  | .hbm, ⟨33, _⟩ => ⟨S16x4, .i32⟩
  | .hbm, ⟨34, _⟩ => ⟨S16x900x3, .i1⟩
  | .hbm, ⟨35, _⟩ => ⟨S16x900x3x256, .f32⟩
  | .hbm, ⟨36, _⟩ => ⟨S16x1x3, .i1⟩
  | .hbm, ⟨37, _⟩ => ⟨S16x1x3x256, .f32⟩
  | .hbm, ⟨38, _⟩ => ⟨S_, .i1⟩
  | .hbm, ⟨39, _⟩ => ⟨S_, .i1⟩
  | .hbm, ⟨40, _⟩ => ⟨S_, .i1⟩
  | .hbm, ⟨41, _⟩ => ⟨S16, .i1⟩
  | .hbm, ⟨42, _⟩ => ⟨S16x3, .i1⟩
  | .hbm, ⟨43, _⟩ => ⟨S16x3, .i32⟩
  | .hbm, ⟨44, _⟩ => ⟨S_, .i1⟩
  | .hbm, ⟨45, _⟩ => ⟨S_, .i32⟩
  | .hbm, ⟨46, _⟩ => ⟨S16, .i1⟩
  | .hbm, ⟨47, _⟩ => ⟨S16, .i32⟩
  | .hbm, ⟨48, _⟩ => ⟨S16x1x1x1, .i32⟩
  | .hbm, ⟨49, _⟩ => ⟨S_, .i32⟩
  | .hbm, ⟨50, _⟩ => ⟨S16x1x1x1, .i32⟩
  | .hbm, ⟨51, _⟩ => ⟨S16x1x1x1, .i1⟩
  | .hbm, ⟨52, _⟩ => ⟨S_, .i32⟩
  | .hbm, ⟨53, _⟩ => ⟨S16x1x1x1, .i32⟩
  | .hbm, ⟨54, _⟩ => ⟨S16x1x1x1, .i32⟩
  | .hbm, ⟨55, _⟩ => ⟨S16x1x1x1, .i32⟩
  | .hbm, ⟨56, _⟩ => ⟨S16x1x1, .i32⟩
  | .hbm, ⟨57, _⟩ => ⟨S1, .i32⟩
  | .hbm, ⟨58, _⟩ => ⟨S_, .i32⟩
  | .hbm, ⟨59, _⟩ => ⟨S16x1x1, .i32⟩
  | .hbm, ⟨60, _⟩ => ⟨S16x1x1, .i1⟩
  | .hbm, ⟨61, _⟩ => ⟨S1x1x1, .i32⟩
  | .hbm, ⟨62, _⟩ => ⟨S16x1x1, .i32⟩
  | .hbm, ⟨63, _⟩ => ⟨S16x1x1, .i1⟩
  | .hbm, ⟨64, _⟩ => ⟨S16x1x1, .i1⟩
  | .hbm, ⟨65, _⟩ => ⟨S_, .i1⟩
  | .hbm, ⟨66, _⟩ => ⟨S16x1, .i1⟩
  | .hbm, ⟨67, _⟩ => ⟨S16x1x1x256, .f32⟩
  | .hbm, ⟨68, _⟩ => ⟨S16x1x1x256, .i1⟩
  | .hbm, ⟨69, _⟩ => ⟨S_, .f32⟩
  | .hbm, ⟨70, _⟩ => ⟨S16x1x1x256, .f32⟩
  | .hbm, ⟨71, _⟩ => ⟨S16x1x1x256, .f32⟩
  | .hbm, ⟨72, _⟩ => ⟨S16x1x256, .f32⟩
  | .hbm, ⟨73, _⟩ => ⟨S16x1x1x256, .f32⟩
  | .hbm, ⟨74, _⟩ => ⟨S16x1x256, .f32⟩
  | .hbm, ⟨75, _⟩ => ⟨S16x1x1, .i1⟩
  | .hbm, ⟨76, _⟩ => ⟨S16x1x256, .i1⟩
  | .hbm, ⟨77, _⟩ => ⟨S16x1x256, .f32⟩
  | .hbm, ⟨78, _⟩ => ⟨S3, .i32⟩
  | .hbm, ⟨79, _⟩ => ⟨S16x1, .i1⟩
  | .hbm, ⟨80, _⟩ => ⟨S1x3, .i32⟩
  | .hbm, ⟨81, _⟩ => ⟨S16x1, .i32⟩
  | .hbm, ⟨82, _⟩ => ⟨S16x3, .i32⟩
  | .hbm, ⟨83, _⟩ => ⟨S16x3, .i32⟩
  | .hbm, ⟨84, _⟩ => ⟨S16x3, .i1⟩
  | .hbm, ⟨85, _⟩ => ⟨S16x3, .i1⟩
  | .hbm, ⟨86, _⟩ => ⟨S16x3, .i1⟩
  | .hbm, ⟨87, _⟩ => ⟨S16x1x3x1, .i1⟩
  | .hbm, ⟨88, _⟩ => ⟨S16x1x3x1, .i1⟩
  | .hbm, ⟨89, _⟩ => ⟨S16x1x3x1, .i1⟩
  | .hbm, ⟨90, _⟩ => ⟨S16x1x1x256, .f32⟩
  | .hbm, ⟨91, _⟩ => ⟨S16x1x3x256, .i1⟩
  | .hbm, ⟨92, _⟩ => ⟨S16x1x3x256, .f32⟩
  | .hbm, ⟨93, _⟩ => ⟨S16x1x3x256, .f32⟩
  | .hbm, ⟨94, _⟩ => ⟨S16x3x900, .i1⟩
  | .hbm, ⟨95, _⟩ => ⟨S16x3x900x256, .f32⟩
  | .hbm, ⟨96, _⟩ => ⟨S16x3x1, .i1⟩
  | .hbm, ⟨97, _⟩ => ⟨S16x3x1x256, .f32⟩
  | _, _ => ⟨S16x900x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call2_v0 : Ref sig .tc := ⟨.hbm, 25, rfl⟩
abbrev main_call2_v1 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_0 : Ref sig .tc := ⟨.hbm, 38, rfl⟩
abbrev main_v16 : Ref sig .tc := ⟨.hbm, 39, rfl⟩
abbrev main_c_1 : Ref sig .tc := ⟨.hbm, 40, rfl⟩
abbrev main_v17 : Ref sig .tc := ⟨.hbm, 41, rfl⟩
abbrev main_v18 : Ref sig .tc := ⟨.hbm, 42, rfl⟩
abbrev main_call4_v0 : Ref sig .tc := ⟨.hbm, 43, rfl⟩
abbrev main_call4_c : Ref sig .tc := ⟨.hbm, 44, rfl⟩
abbrev main_call4_c_0 : Ref sig .tc := ⟨.hbm, 45, rfl⟩
abbrev main_call4_v1_0 : Ref sig .tc := ⟨.hbm, 46, rfl⟩
abbrev main_v19 : Ref sig .tc := ⟨.hbm, 47, rfl⟩
abbrev main_v20 : Ref sig .tc := ⟨.hbm, 48, rfl⟩
abbrev main_call5_c : Ref sig .tc := ⟨.hbm, 49, rfl⟩
abbrev main_call5_v0 : Ref sig .tc := ⟨.hbm, 50, rfl⟩
abbrev main_call5_v1 : Ref sig .tc := ⟨.hbm, 51, rfl⟩
abbrev main_call5_c_0 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_call5_v5 : Ref sig .tc := ⟨.hbm, 56, rfl⟩
abbrev main_call5_c_1 : Ref sig .tc := ⟨.hbm, 57, rfl⟩
abbrev main_call5_c_2 : Ref sig .tc := ⟨.hbm, 58, rfl⟩
abbrev main_call5_v6 : Ref sig .tc := ⟨.hbm, 59, rfl⟩
abbrev main_call5_v7 : Ref sig .tc := ⟨.hbm, 60, rfl⟩
abbrev main_call5_v8 : Ref sig .tc := ⟨.hbm, 61, rfl⟩
abbrev main_call5_v9 : Ref sig .tc := ⟨.hbm, 62, rfl⟩
abbrev main_call5_v10 : Ref sig .tc := ⟨.hbm, 63, rfl⟩
abbrev main_call5_v11 : Ref sig .tc := ⟨.hbm, 64, rfl⟩
abbrev main_call5_c_3 : Ref sig .tc := ⟨.hbm, 65, rfl⟩
abbrev main_call5_v12 : Ref sig .tc := ⟨.hbm, 66, rfl⟩
abbrev main_call5_v13 : Ref sig .tc := ⟨.hbm, 67, rfl⟩
abbrev main_call5_v14 : Ref sig .tc := ⟨.hbm, 68, rfl⟩
abbrev main_call5_cst : Ref sig .tc := ⟨.hbm, 69, rfl⟩
abbrev main_call5_v15 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_call6_v0 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_call7_v0 : Ref sig .tc := ⟨.hbm, 91, rfl⟩
abbrev main_call7_v1 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩

abbrev nD : Nat := 1
abbrev τ : Topo := Topo.v7x

variable {F : FTy → Type} [FloatOps F]

class Facts₀ : Prop where
  bcast_S16_S16x1x1x1_0 : S16.BroadcastsInDim S16x1x1x1 (![0] : Fin 1 → Fin S16x1x1x1.rank)
  bcast_S16x900x256_S16x1x900x256_0_2_3 : S16x900x256.BroadcastsInDim S16x1x900x256 (![0, 2, 3] : Fin 3 → Fin S16x1x900x256.rank)
  bcast_S16x1x1x1_S16x4x900x256_0_1_2_3 : S16x1x1x1.BroadcastsInDim S16x4x900x256 (![0, 1, 2, 3] : Fin 4 → Fin S16x4x900x256.rank)
  bcast_S16x1x900x256_S16x4x900x256_0_1_2_3 : S16x1x900x256.BroadcastsInDim S16x4x900x256 (![0, 1, 2, 3] : Fin 4 → Fin S16x4x900x256.rank)
  bcast_S16x6x256_S16x1x6x256_0_2_3 : S16x6x256.BroadcastsInDim S16x1x6x256 (![0, 2, 3] : Fin 3 → Fin S16x1x6x256.rank)
  bcast_S16x1x1x1_S16x4x6x256_0_1_2_3 : S16x1x1x1.BroadcastsInDim S16x4x6x256 (![0, 1, 2, 3] : Fin 4 → Fin S16x4x6x256.rank)
  bcast_S16x1x6x256_S16x4x6x256_0_1_2_3 : S16x1x6x256.BroadcastsInDim S16x4x6x256 (![0, 1, 2, 3] : Fin 4 → Fin S16x4x6x256.rank)
  bcast_S16_S16x1x1_0 : S16.BroadcastsInDim S16x1x1 (![0] : Fin 1 → Fin S16x1x1.rank)
  bcast_S16x256_S16x1x256_0_2 : S16x256.BroadcastsInDim S16x1x256 (![0, 2] : Fin 2 → Fin S16x1x256.rank)
  bcast_S16x1x1_S16x4x256_0_1_2 : S16x1x1.BroadcastsInDim S16x4x256 (![0, 1, 2] : Fin 3 → Fin S16x4x256.rank)
  bcast_S16x1x256_S16x4x256_0_1_2 : S16x1x256.BroadcastsInDim S16x4x256 (![0, 1, 2] : Fin 3 → Fin S16x4x256.rank)
  bcast_S16_S16x1_0 : S16.BroadcastsInDim S16x1 (![0] : Fin 1 → Fin S16x1.rank)
  bcast_S16x1_S16x4_0_1 : S16x1.BroadcastsInDim S16x4 (![0, 1] : Fin 2 → Fin S16x4.rank)
  bcast_S_S16x4 : S_.BroadcastsInDim S16x4 (![] : Fin 0 → Fin S16x4.rank)
  slices_S16x900x4_S16x900x3_0_0_0 : S16x900x4.Slices ![0, 0, 0] S16x900x3
  slices_S16x900x4x256_S16x900x3x256_0_0_0_0 : S16x900x4x256.Slices ![0, 0, 0, 0] S16x900x3x256
  slices_S16x1x4_S16x1x3_0_0_0 : S16x1x4.Slices ![0, 0, 0] S16x1x3
  slices_S16x1x4x256_S16x1x3x256_0_0_0_0 : S16x1x4x256.Slices ![0, 0, 0, 0] S16x1x3x256
  reducesTo_S16x1x3_S_d0_1_2 : S16x1x3.ReducesTo [0, 1, 2] S_
  h_S_ : 0 < S_.numel
  reducesTo_S16x1x3_S16_d1_2 : S16x1x3.ReducesTo [1, 2] S16
  shapeCasts_S16x1x3_S16x3 : S16x1x3.ShapeCasts S16x3
  reducesTo_S16x3_S16_d1 : S16x3.ReducesTo [1] S16
  bcast_S_S16x1x1x1 : S_.BroadcastsInDim S16x1x1x1 (![] : Fin 0 → Fin S16x1x1x1.rank)
  shapeCasts_S16x1x1x1_S16x1x1 : S16x1x1x1.ShapeCasts S16x1x1
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  bcast_S16x1_S16x1x1x256_0_2 : S16x1.BroadcastsInDim S16x1x1x256 (![0, 2] : Fin 2 → Fin S16x1x1x256.rank)
  bcast_S_S16x1x1x256 : S_.BroadcastsInDim S16x1x1x256 (![] : Fin 0 → Fin S16x1x1x256.rank)
  shapeCasts_S16x1x1x256_S16x1x256 : S16x1x1x256.ShapeCasts S16x1x256
  slices_S16x1x4x256_S16x1x1x256_0_0_3_0 : S16x1x4x256.Slices ![0, 0, 3, 0] S16x1x1x256
  bcast_S16x1x1_S16x1x256_0_1_2 : S16x1x1.BroadcastsInDim S16x1x256 (![0, 1, 2] : Fin 3 → Fin S16x1x256.rank)
  bcast_S3_S1x3_1 : S3.BroadcastsInDim S1x3 (![1] : Fin 1 → Fin S1x3.rank)
  bcast_S1x3_S16x3_0_1 : S1x3.BroadcastsInDim S16x3 (![0, 1] : Fin 2 → Fin S16x3.rank)
  bcast_S16x1_S16x3_0_1 : S16x1.BroadcastsInDim S16x3 (![0, 1] : Fin 2 → Fin S16x3.rank)
  bcast_S16x3_S16x1x3x1_0_2 : S16x3.BroadcastsInDim S16x1x3x1 (![0, 2] : Fin 2 → Fin S16x1x3x1.rank)
  bcast_S_S16x1x3x1 : S_.BroadcastsInDim S16x1x3x1 (![] : Fin 0 → Fin S16x1x3x1.rank)
  bcast_S16x1x256_S16x1x1x256_0_1_3 : S16x1x256.BroadcastsInDim S16x1x1x256 (![0, 1, 3] : Fin 3 → Fin S16x1x1x256.rank)
  bcast_S16x1x3x1_S16x1x3x256_0_1_2_3 : S16x1x3x1.BroadcastsInDim S16x1x3x256 (![0, 1, 2, 3] : Fin 4 → Fin S16x1x3x256.rank)
  bcast_S16x1x1x256_S16x1x3x256_0_1_2_3 : S16x1x1x256.BroadcastsInDim S16x1x3x256 (![0, 1, 2, 3] : Fin 4 → Fin S16x1x3x256.rank)
  transposes_S16x900x3_S16x3x900_0_2_1 : S16x900x3.Transposes [0, 2, 1] S16x3x900
  transposes_S16x900x3x256_S16x3x900x256_0_2_1_3 : S16x900x3x256.Transposes [0, 2, 1, 3] S16x3x900x256
  transposes_S16x1x3_S16x3x1_0_2_1 : S16x1x3.Transposes [0, 2, 1] S16x3x1
  transposes_S16x1x3x256_S16x3x1x256_0_2_1_3 : S16x1x3x256.Transposes [0, 2, 1, 3] S16x3x1x256
  gather_S16x1x3x256_S16x1x1_S16x1x1x256_13_2_0_0_2_2_111256_wf : GatherDims.WF S16x1x3x256 S16x1x1 S16x1x1x256 [1, 3] [2] [0] [2] [0] 2 ![1, 1, 1, 256]

variable [Facts₀]

def reducer_argmin_i1_i32 : BitVec 1 × BitVec 32 → BitVec 1 × BitVec 32 → BitVec 1 × BitVec 32 :=
  fun a b =>
    let v2 := IntOp.cmpi .ult a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S16x1x3x256_S16x1x1_S16x1x1x256_13_2_0_0_2_2_111256 : GatherDims S16x1x3x256 S16x1x1 S16x1x1x256 where
  offsetDims := [1, 3]
  collapsedSliceDims := [2]
  operandBatchingDims := [0]
  startIndicesBatchingDims := [0]
  startIndexMap := [2]
  indexVectorDim := 2
  sliceSizes := ![1, 1, 1, 256]
  wf := gather_S16x1x3x256_S16x1x1_S16x1x1x256_13_2_0_0_2_2_111256_wf

class Facts : Prop extends Facts₀ where

variable [Facts]
-- ==== Proof.KRegion0.lean ====
import proofs.«134566_j28123445854543_1_alg».proof.Proof.Gen.Kernel.Launch
import proofs.«134566_j28123445854543_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # Pallas call 0: the masked reset of the motion queue

One grid point per batch row `b`. The body reads word `b` of the reset table (the mask's negation as 32-bit
words, held whole in scalar memory), the row's query block and the row's queue block, and stores into the output
block the query repeated over the four queue slots where the word is nonzero, the queue block where it is zero. -/

section Region0

variable (V : (c : Dev nD) → (b : Ref sig .tc) → Buf (Elt F) ((c : Thread nD τ).loc b))
variable (a : (pcfg0 (F := F)).Adm)

/-- Window `w`'s block at point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- An input window's current staging buffer holds its block at every point, fetched there or not. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole query block and the whole queue (and output) block, as the body's rectangles. -/
abbrev rq : Rect S1x900x256 := Rect.unit (s := S1x900x256) ![0, 0, 0] S1x900x256.size inb_S1x900x256_S1x900x256_0_0_0
abbrev rk : Rect S1x4x900x256 := Rect.unit (s := S1x4x900x256) ![0, 0, 0, 0] S1x4x900x256.size inb_S1x4x900x256_S1x4x900x256_0_0_0_0

/-- The table's word the body reads at grid coordinates `i`: entry `i 0` of the sixteen. -/
def word0 (i : grid0.Coords) (xt : Vec F S16 .i32) : Elt F .i32 :=
  View.ld xt (Rect.unit (s := S16) (k0_off1 i) S1.size (k0_off1_inb i)) (Shape.Idx.first (numel1_S1.symm ▸ Nat.one_pos))

/-- The output block after the body: its one store, of the select between the repeated query block and the queue block. -/
def out0_2 (i : grid0.Coords) (xt : Vec F S16 .i32) (x0 : Vec F S1x900x256 .f32) (x1 : Vec F S1x4x900x256 .f32) : Vec F S1x4x900x256 .f32 :=
  View.canon [⟨rk, k0_pay1 (word0 i xt) (View.ld x0 rq) (View.ld x1 rk)⟩]

/-- The one store covers the block. -/
theorem cover0_2 (p0 : Vec F S1x4x900x256 .f32) (y : S1x4x900x256.Idx) :
    ∃ pc ∈ ([⟨rk, p0⟩] : List (View.Piece (Elt F) S1x4x900x256 .f32)), y ∈ pc.1.set :=
  View.cover_of_tiled [⟨rk, p0⟩] S1x4x900x256.size (by rfl) y

set_option maxHeartbeats 1000000 in
/-- The body's triple: holding the table, the two input blocks and the output buffer at anything, it runs to the
    continuation holding the table and the inputs as they were and the output at `out0_2`. -/
theorem sound_kernel0 (c : Dev nD) (E : Set ℕ) (i : grid0.Coords)
    (arg1 : Memref sig .tc .smem S16 .i32) (harg1 : arg1.IsWhole)
    (arg2 : Memref sig .tc .vmem S1x900x256 .f32) (harg2 : arg2.IsWhole)
    (arg3 : Memref sig .tc .vmem S1x4x900x256 .f32) (harg3 : arg3.IsWhole)
    (arg4 : Memref sig .tc .vmem S1x4x900x256 .f32) (harg4 : arg4.IsWhole)
    (xt : Vec F S16 .i32) (x0 : Vec F S1x900x256 .f32) (x1 : Vec F S1x4x900x256 .f32) (K : PUnit → sProp 𝕄) :
    iprop(owns (c : Thread nD τ) arg1 fullShare xt ∗ owns (c : Thread nD τ) arg2 fullShare x0 ∗ owns (c : Thread nD τ) arg3 fullShare x1
        ∗ (∃ d, owns (c : Thread nD τ) arg4 fullShare d)
        ∗ (iprop(owns (c : Thread nD τ) arg1 fullShare xt ∗ owns (c : Thread nD τ) arg2 fullShare x0 ∗ owns (c : Thread nD τ) arg3 fullShare x1
            ∗ owns (c : Thread nD τ) arg4 fullShare (out0_2 i xt x0 x1)) -∗ K ⟨⟩))
      ⊢ wp frame (wpE (defs₀ (F := F)) Variants.none c none) E (cc0__mq_kernel i arg1 harg1 arg2 harg2 arg3 harg3 arg4 harg4) K := by
  simp only [cc0__mq_kernel_eq_skeleton]; unfold cc0__mq_kernel_skel
  unfold owns
  iintro ⟨⟨%ft, %hft, Ht⟩, ⟨%f0, %hf0, H0⟩, ⟨%f1, %hf1, H1⟩, ⟨%d2, %f2, -, H2⟩, Hk⟩
  subst hft; subst hf0; subst hf1
  sl_exec
  sl_step
  iapply Hk
  isplitl [Ht]
  · iexists ft; isplitr; · ipureintro; rfl
    iexact Ht
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of pipeline 0 -/

/-- The reset table as the body's memref holds it. -/
abbrev tblRef : Memref sig .tc .smem S16 .i32 := Memref.whole main_v1

/-- On core `c`: the arrays as the region finds them; after the body at point `t` each input's buffer at its
    block and the output's at `out0_2` of the table and the two input blocks; the invariant is the scoped rest, the
    generator register and the table, whole, at its contents; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => out0_2 (grid0.coords t) (a.1 0) (iblk0 V a c 0 t) (iblk0 V a c 1 t)
  Φ _ := iprop(Pipeline.ΦA spec0 c ∗ owns (c : Thread nD τ) tblRef fullShare (a.1 0))
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; rfl
theorem after0_1 (c : Dev nD) (t : Fin (cfg0 a).N) : (dat0 V a c).after 1 t = iblk0 V a c 1 t := by dsimp only [dat0]; rfl
theorem after0_2 (c : Dev nD) (t : Fin (cfg0 a).N) :
    (dat0 V a c).after 2 t = out0_2 (grid0.coords t) (a.1 0) (iblk0 V a c 0 t) (iblk0 V a c 1 t) := by dsimp only [dat0]; rfl

theorem before0_0 (c : Dev nD) (t : Fin (cfg0 a).N) (d) : (dat0 V a c).before 0 t d = iblk0 V a c 0 t :=
  before0_0_of V a (dat0 V a c) (A_eq0 V a c 0) (after0_0 V a c) t d
theorem before0_1 (c : Dev nD) (t : Fin (cfg0 a).N) (d) : (dat0 V a c).before 1 t d = iblk0 V a c 1 t :=
  before0_1_of V a (dat0 V a c) (A_eq0 V a c 1) (after0_1 V a c) t d

/-! ## The body obligation -/

/-- The current staging memref of each window at point `t`. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)

/-- The body as the pipeline calls it at point `t`. -/
abbrev bodyAt0 (t : Fin (cfg0 a).N) : Prog (TpuEff nD τ sig (Elt F) Λ₀ .tc) PUnit :=
  cc0__mq_kernel (grid0.coords t) (Memref.whole main_v1) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t))

/-- The body at any point: the inputs' memrefs hold their blocks, the invariant lends the table and takes it back. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1]
  rw [show (dat0 V a c).Φ t.succ = (dat0 V a c).Φ t.castSucc from rfl,
    show (dat0 V a c).owesAt () t.succ = (dat0 V a c).owesAt () t.castSucc from rfl,
    after0_0, after0_1, after0_2,
    show (dat0 V a c).Φ t.castSucc = iprop(Pipeline.ΦA spec0 c ∗ owns (c : Thread nD τ) tblRef fullShare (a.1 0)) from rfl]
  iintro ⟨⟨HΦ, Ht⟩, Ho, ⟨%d0, H0⟩, ⟨%d1, H1⟩, ⟨%d2, H2⟩⟩
  iapply (sound_kernel0 c Set.univ (grid0.coords t) _ _ _ _ _ _ _ _ (a.1 0) (iblk0 V a c 0 t) (iblk0 V a c 1 t) _)
  isplitl [Ht]; · iexact Ht
  isplitl [H0]; · iexact H0
  isplitl [H1]; · iexact H1
  isplitl [H2]; · iexists _; iexact H2
  iintro ⟨Ht, H0, H1, H2⟩
  isplitl [HΦ Ht]
  · isplitl [HΦ]; · iexact HΦ
    iexact Ht
  isplitl [Ho]; · iexact Ho
  isplitl [H0]; · iexact H0
  isplitl [H1]; · iexact H1
  iexact H2

/-- The library's body obligation, at every point. -/
theorem body_obligation0 (c : Dev nD) : BodyObligation (dat0 (F := F) V a c) (defs₀ (F := F)) Variants.none () Set.univ := fun t => by
  rw [bigSep_W0, bigSep_W0]
  exact sound_body0 V a c t

end Region0

end Cert.Kernel.Hand
end
-- ==== Proof.KRegion1.lean ====
/- Region 1 of @main (the second pallas_call, `cc1__te_kernel`), at the buffer contents `V` the region is entered with.

   The body copies, for t = 0, 1, 2, the plane `x[0, :, t, :]` of its input block (shape 1×900×4×256) into the plane
   `out[0, t, :, :]` of its output block (shape 1×3×900×256): three loads through literal rectangles of the input's
   staging buffer, each re-laid 1×900×1×256 → 900×256 → 1×1×900×256, and three stores through the three planes of the
   output's staging buffer, which together tile it. Before each store the body also loads the plane it is about to
   overwrite; that value is never used, so the output's staging buffer may hold anything when the body starts.

   This module states, per grid point, what the body leaves in the output's staging buffer as a function of the
   input block (`out1_1`), proves the body's triple, and packages the pipeline's proof data (`dat1`) and the body
   obligation (`body_obligation1`) for the region's segment record. -/
import proofs.«134566_j28123445854543_1_alg».proof.Proof.Gen.Kernel.Launch
import proofs.«134566_j28123445854543_1_alg».proof.Proof.Gen.Kernel.Skeleton
import proofs.«134566_j28123445854543_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is fetched at every point and never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The three planes `[0, :, t, :]` of the input block the body loads, t = 0, 1, 2. -/
abbrev l1_0 : Rect S1x900x4x256 := Rect.unit (s := S1x900x4x256) ![0, 0, 0, 0] S1x900x1x256.size inb_S1x900x4x256_S1x900x1x256_0_0_0_0
abbrev l1_1 : Rect S1x900x4x256 := Rect.unit (s := S1x900x4x256) ![0, 0, 1, 0] S1x900x1x256.size inb_S1x900x4x256_S1x900x1x256_0_0_1_0
abbrev l1_2 : Rect S1x900x4x256 := Rect.unit (s := S1x900x4x256) ![0, 0, 2, 0] S1x900x1x256.size inb_S1x900x4x256_S1x900x1x256_0_0_2_0
/-- The three planes `[0, t, :, :]` of the output block the body stores, t = 0, 1, 2. -/
abbrev s1_0 : Rect S1x3x900x256 := Rect.unit (s := S1x3x900x256) ![0, 0, 0, 0] S1x1x900x256.size inb_S1x3x900x256_S1x1x900x256_0_0_0_0
abbrev s1_1 : Rect S1x3x900x256 := Rect.unit (s := S1x3x900x256) ![0, 1, 0, 0] S1x1x900x256.size inb_S1x3x900x256_S1x1x900x256_0_1_0_0
abbrev s1_2 : Rect S1x3x900x256 := Rect.unit (s := S1x3x900x256) ![0, 2, 0, 0] S1x1x900x256.size inb_S1x3x900x256_S1x1x900x256_0_2_0_0

/-! ## What the body leaves in the output window's buffer -/

/-- The output's staging buffer after the body, from the input block: its three stores as pieces, last first;
    plane t of the output holds plane t of the input, re-laid. -/
def out1_1 (x0 : Vec F S1x900x4x256 .f32) : Vec F S1x3x900x256 .f32 :=
  View.canon [⟨s1_2, k1_pay3 (View.ld x0 l1_2)⟩, ⟨s1_1, k1_pay2 (View.ld x0 l1_1)⟩, ⟨s1_0, k1_pay1 (View.ld x0 l1_0)⟩]

/-- The three stored planes tile the output block, so they cover it. -/
theorem cover1_1 (p2 p1 p0 : Vec F S1x1x900x256 .f32) (y : S1x3x900x256.Idx) :
    ∃ pc ∈ ([⟨s1_2, p2⟩, ⟨s1_1, p1⟩, ⟨s1_0, p0⟩] : List (View.Piece (Elt F) S1x3x900x256 .f32)), y ∈ pc.1.set :=
  View.cover_of_tiled [⟨s1_2, p2⟩, ⟨s1_1, p1⟩, ⟨s1_0, p0⟩] S1x1x900x256.size (by rfl) y

/-! ## The body's triple -/

set_option maxHeartbeats 1000000 in
/-- The body on whole staging memrefs, the input's at read contents `x0` and the output's at anything (the planes it
    loads from the output are never used), runs to the continuation holding the input's as it was and the output's at
    `out1_1 x0`. -/
theorem sound_kernel1 (c : Dev nD) (E : Set ℕ) (i : grid1.Coords) (arg1 : Memref sig .tc .vmem S1x900x4x256 .f32) (harg1 : arg1.IsWhole) (arg2 : Memref sig .tc .vmem S1x3x900x256 .f32) (harg2 : arg2.IsWhole)
    (x0 : Vec F S1x900x4x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__te_kernel i arg1 harg1 arg2 harg2) K := by
  simp only [cc1__te_kernel_eq_skeleton]; unfold cc1__te_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _ _ _)

/-! ## The pipeline's proof data -/

/-- The proof data of pipeline 1 on core `c`: the arrays as the region finds them (`V`); after the body at point `t`
    the input's buffer at its block and the output's at `out1_1` of the input block; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
import proofs.«134566_j28123445854543_1_alg».proof.Proof.Gen.Kernel.Launch
import proofs.«134566_j28123445854543_1_alg».proof.Proof.Gen.Kernel.Skeleton
import proofs.«134566_j28123445854543_1_alg».proof.Proof.Gen.Kernel.Regions
import proofs.«134566_j28123445854543_1_alg».proof.Proof.KRegion0
import proofs.«134566_j28123445854543_1_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen

variable {F : FTy → Type} [FloatOps F]

local notation "𝕄" => MT nD τ sig Unit (Elt F) ℕ (UR sig nD τ) ℕ

/-! # The run of @main: host stretches, the queue reset, host stretches, the slice-and-transpose, host stretches

Between two items every unscoped buffer of the one TensorCore is held whole at the generated valuations
`V0 … V18` (the launch contents, then each host stretch folded in, then what a region leaves in its result array);
the two regions' results are the arrays their pipelines leave. -/

variable (m : (ℓ : Loc nD τ sig) → Buf (Elt F) ℓ) (ρ : Dev nD → PrngReg)

/-- The one TensorCore of the compiled mesh. -/
def c₀ : Dev nD := ⟨0, by decide⟩
theorem dev_eq (c : Dev nD) : c = c₀ := Subsingleton.elim _ _

/-- The buffers as region 0 finds them, read at the TensorCore's references. -/
abbrev Vr1 : (c : Dev nD) → (b : Ref sig .tc) → Buf (Elt F) ((c : Thread nD τ).loc b) := fun c b => V1 m c b

/-- The reset table's contents when region 0 is entered. -/
def tbl : pre0.Contents (Elt F) := fun k => Vr1 m c₀ (pre0.ref k)
def adm0 : (pcfg0 (F := F)).Adm := ⟨tbl m, trivial⟩
/-- The pipelines' tables: region 0's at `tbl`, region 1 has none. -/
def adm : (p : Fin 2) → (pcfgs (F := F) p).Adm
  | ⟨0, _⟩ => adm0 m
  | ⟨1, _⟩ => cfg1.toPCfg_adm

/-- What region 0 leaves in its result array. -/
def out2 (c : Dev nD) : Buf (Elt F) ((c : Thread nD τ).loc main_v2) := (dat0 (Vr1 m) (adm0 m) c).arrAt 2 (cfg0 (adm0 m)).N

/-- The two regions' results as the valuations' unknowns. -/
def outsOf (o2 : (c : Dev nD) → Buf (Elt F) ((c : Thread nD τ).loc main_v2)) (o9 : (c : Dev nD) → Buf (Elt F) ((c : Thread nD τ).loc main_v11)) : Outs (F := F) :=
  fun _ r c => if h : r = main_v2 then h ▸ o2 c else if h' : r = main_v11 then h' ▸ o9 c else m ((c : Thread nD τ).loc r)
theorem outsOf_2 (o2 o9) (j : ℕ) (c : Dev nD) : outsOf m o2 o9 j main_v2 c = o2 c := by unfold outsOf; rw [dif_pos rfl]
theorem outsOf_9 (o2 o9) (j : ℕ) (c : Dev nD) : outsOf m o2 o9 j main_v11 c = o9 c := by
  unfold outsOf; rw [dif_neg (by decide), dif_pos rfl]

def outs1 : Outs (F := F) := outsOf m (out2 m) (fun c => m ((c : Thread nD τ).loc main_v11))
/-- The buffers as region 1 finds them. -/
abbrev Vr8 : (c : Dev nD) → (b : Ref sig .tc) → Buf (Elt F) ((c : Thread nD τ).loc b) := fun c b => V8 m (outs1 m) c b
/-- What region 1 leaves in its result array. -/
def out9 (c : Dev nD) : Buf (Elt F) ((c : Thread nD τ).loc main_v11) := (dat1 (Vr8 m) c).arrAt 1 cfg1.N
def outs : Outs (F := F) := outsOf m (out2 m) (out9 m)

theorem outs_2 (c : Dev nD) : outs m 2 main_v2 c = out2 m c := outsOf_2 m _ _ 2 c
theorem outs_9 (c : Dev nD) : outs m 9 main_v11 c = out9 m c := outsOf_9 m _ _ 9 c
theorem V8_outs (c : Dev nD) : V8 m (outs m) c = V8 m (outs1 m) c := by
  dsimp only [V8, V7, V6, V5, V4, V3, V2]
  rw [outs_2, show outs1 m 2 main_v2 c = out2 m c from outsOf_2 m _ _ 2 c]

/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (Vr1 m) (adm0 m) c
  | ⟨1, _⟩ => fun c => dat1 (Vr8 m) c

abbrev LL : GSem nD τ sig → Finset Unit := fun _ => ∅
abbrev lvv : GSem nD τ sig → Unit → ℕ := fun _ _ => 0
/-- What rides beside the buffers through every item: the generator register at some state and the core's `owes`, at nothing. -/
abbrev Rr (c : Dev nD) : sProp 𝕄 := iprop((∃ r, prngReg c r) ∗ ∃ W, owes (c : Thread nD τ) (0 : CellTallies nD τ sig Unit) W)

/-- The table held whole is the body's memref owned at the table's contents, and back. -/
theorem tbl_owns_mp (c : Dev nD) (tb : pre0.Contents (Elt F)) :
    (Pipeline.prefHeld (Ix := Unit) (Name := ℕ) (U := UR sig nD τ) (Lvl := ℕ) pre0 c (fun _ => fullShare) tb : sProp 𝕄)
      ⊢ owns (c : Thread nD τ) (Memref.whole main_v1) fullShare (tb 0) := by
  unfold Pipeline.prefHeld
  rw [bigSep_univ_eq_bigSepL [(0 : Fin 1)] (by decide) (by decide)]
  refine .trans ?_ (Entails.of_eq (owns_whole_eq (c : Thread nD τ) main_v1 fullShare (tb 0)).symm)
  show (iprop(((c : Thread nD τ).loc (pre0.ref 0)) ↦{fullShare} tb 0) : sProp 𝕄) ⊢ _
  iintro H; iexists _; isplitr; · ipureintro; rfl
  iexact H
theorem tbl_owns_mpr (c : Dev nD) (tb : pre0.Contents (Elt F)) :
    (owns (c : Thread nD τ) (Memref.whole main_v1) fullShare (tb 0) : sProp 𝕄)
      ⊢ Pipeline.prefHeld (Ix := Unit) (Name := ℕ) (U := UR sig nD τ) (Lvl := ℕ) pre0 c (fun _ => fullShare) tb := by
  unfold Pipeline.prefHeld
  rw [bigSep_univ_eq_bigSepL [(0 : Fin 1)] (by decide) (by decide)]
  refine .trans (Entails.of_eq (owns_whole_eq (c : Thread nD τ) main_v1 fullShare (tb 0))) ?_
  show _ ⊢ (iprop(((c : Thread nD τ).loc (pre0.ref 0)) ↦{fullShare} tb 0) : sProp 𝕄)
  iintro ⟨%f, %hf, H⟩; subst hf
  iexact H

theorem hF0 (c : Dev nD) : ∀ w : Fin (cfg0 (adm0 m)).W, (pdats m 0 c).arrAt w (cfg0 (adm0 m)).N = V2 m (outs m) c (Proc.devRef .tc (Pipeline.arrRef spec0 w))
  | ⟨0, _⟩ => (((dat0 (Vr1 m) (adm0 m) c).arrAt_in 0 rfl _).trans (A_eq0 (Vr1 m) (adm0 m) c 0)).trans (V2_of m (outs m) c main_arg0 (by decide)).symm
  | ⟨1, _⟩ => (((dat0 (Vr1 m) (adm0 m) c).arrAt_in 1 rfl _).trans (A_eq0 (Vr1 m) (adm0 m) c 1)).trans (V2_of m (outs m) c main_arg3 (by decide)).symm
  | ⟨2, _⟩ => by
    show out2 m c = Function.update (V1 m c) (Proc.devRef .tc main_v2) (outs m 2 main_v2 c) (Proc.devRef .tc main_v2)
    rw [Function.update_self, outs_2]
/-- The buffers as region 0 leaves them, and as region 1 leaves them, read at the TensorCore's references. -/
abbrev Vr2 : (c : Dev nD) → (b : Ref sig .tc) → Buf (Elt F) ((c : Thread nD τ).loc b) := fun c b => V2 m (outs m) c b
abbrev Vr9 : (c : Dev nD) → (b : Ref sig .tc) → Buf (Elt F) ((c : Thread nD τ).loc b) := fun c b => V9 m (outs m) c b
theorem hrest0 (c : Dev nD) : ∀ b, b ∉ Finset.univ.image (Pipeline.arrRef spec0) → Vr2 m c b = Vr1 m c b :=
  fun b hb => V2_of m (outs m) c b (by
    intro h; rw [List.mem_singleton] at h
    exact hb (Finset.mem_image.mpr ⟨2, Finset.mem_univ _, h.symm ▸ rfl⟩))

/-! ## The two regions as segments -/

set_option backward.isDefEq.respectTransparency.types false in
/-- Region 0 over the thread state: entered from every unscoped buffer at `V1`, left at `V2`. Its arrays are
    split out of the unscoped buffers and put back with the result at what the pipeline leaves; the table goes into
    the body's invariant whole and comes back; the generator register likewise; nothing owed. -/
def reg0 : Pipeline.RegionSeg (pcfgs (F := F)) (adm m) (pdats m) () defs₀ Variants.none LL lvv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vr1 m) (adm0 m) c).loose
  hwaits := Pipeline.hwaits_of_owed_zero _ _ _ _ LL lvv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop((∃ r, prngReg c r) ∗ Pipeline.prefHeld pre0 c (fun _ => fullShare) (tbl m))
  Z c := Pipeline.unscopedRestP (Ix := Unit) (Name := ℕ) (U := UR sig nD τ) (Lvl := ℕ) pre0 spec0 c (Vr1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Vr1 m c) fun _ => rfl
    rw [Pipeline.unscopedBufs_held, Pipeline.unscopedRest_split (pre := pre0) (launch0 (F := F)).pre c (Vr1 m c)] at hsplit
    have hc := dev_eq c; subst hc
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ owns (c : Thread nD τ) tblRef fullShare ((adm0 m).1 0)) from rfl]
    unfold Pipeline.ΦA
    iintro ⟨Hp, Ht, Hr⟩
    isplitl [Hr Hp]
    · isplitl [Hr]; · iexact Hr
      iexact Hp
    iapply (tbl_owns_mp c (adm0 m).1); iexact Ht
  hout c := by
    rw [Pipeline.ownSems0_none, show (pdats m 0 c).Φ (Fin.last _) = iprop(Pipeline.ΦA spec0 c ∗ owns (c : Thread nD τ) tblRef fullShare ((adm0 m).1 0)) from rfl]
    unfold Pipeline.ΦA
    iintro ⟨⟨Hr, Hp⟩, Ht⟩
    isplitl [Hp Ht]
    · isplitl [Hp]; · iexact Hp
      iapply (tbl_owns_mpr c (tbl m)); iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (Vr1 m c) (Vr2 m c) ((pdats m 0 c).arrAt · (cfg0 (adm0 m)).N) (hF0 m c) (hrest0 m c)
    rw [Pipeline.unscopedBufs_held, Pipeline.unscopedRest_split (pre := pre0) (launch0 (F := F)).pre c (Vr1 m c)] at hjoin
    have hc := dev_eq c; subst hc
    iintro ⟨Ha, HO, ⟨Hp, Ht⟩, Hrest⟩
    imodintro
    isplitl [Ha Hrest Ht]
    · iapply hjoin; isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

theorem hF1 (c : Dev nD) : ∀ w : Fin cfg1.W, (pdats m 1 c).arrAt w cfg1.N = V9 m (outs m) c (Proc.devRef .tc (Pipeline.arrRef spec1 w))
  | ⟨0, _⟩ => (((dat1 (Vr8 m) c).arrAt_in 0 rfl _).trans (A_eq1 (Vr8 m) c 0)).trans
      ((congrFun (V8_outs m c) (Proc.devRef .tc main_arg8)).symm.trans (V9_of m (outs m) c main_arg8 (by decide)).symm)
  | ⟨1, _⟩ => by
    show out9 m c = Function.update (V8 m (outs m) c) (Proc.devRef .tc main_v11) (outs m 9 main_v11 c) (Proc.devRef .tc main_v11)
    rw [Function.update_self, outs_9]
theorem hrest1 (c : Dev nD) : ∀ b, b ∉ Finset.univ.image (Pipeline.arrRef spec1) → Vr9 m c b = Vr8 m c b :=
  fun b hb => (V9_of m (outs m) c b (by
    intro h; rw [List.mem_singleton] at h
    exact hb (Finset.mem_image.mpr ⟨1, Finset.mem_univ _, h.symm ▸ rfl⟩))).trans (congrFun (V8_outs m c) (Proc.devRef .tc b))

set_option backward.isDefEq.respectTransparency.types false in
/-- Region 1 over the thread state: entered from every unscoped buffer at `V8`, left at `V9`. -/
def reg1 : Pipeline.RegionSeg (pcfgs (F := F)) (adm m) (pdats m) () defs₀ Variants.none LL lvv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (Vr8 m) c).loose
  hwaits := Pipeline.hwaits_of_owed_zero _ _ _ _ LL lvv 1 fun _ _ => rfl
  pre c := iprop(StableHlo.held (c : Thread nD τ) (Pipeline.ucRefs τ sig) (V8 m (outs m) c) ∗ Rr c)
  post c := iprop(StableHlo.held (c : Thread nD τ) (Pipeline.ucRefs τ sig) (V9 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Vr8 m c)
  hentry c := by
    rw [Pipeline.ownSems0_none, V8_outs]
    have hsplit := Pipeline.arrays_of_unscopedBufs (p := 1) (pcfgs (F := F)) (adm m) (pdats m) (launch1 (F := F)).win (launch1 (F := F)).arr_whole c
      ((pdats m 1 c).share_full fun _ => rfl) (Vr8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (Vr8 m c) (Vr9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's eighteen items as segments: the generated host segments, the two regions' records. -/
abbrev allSegs (c : Dev nD) : List (Seg (pcfgs (F := F)) (adm m) (pdats m) () defs₀ Variants.none LL lvv) :=
  segs m (outs m) Variants.none LL lvv (fun _ c => Rr c) () (adm m) (pdats m) (reg0 m) (reg1 m) c

set_option backward.isDefEq.respectTransparency.types false in
/-- From any memory with zero counters every weakly fair execution of @main terminates, nothing faulting, and every
    unscoped buffer of the TensorCore ends at the last valuation `V18`. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = V18 m (outs m) c b) := by
  refine Pipeline.θ_run_regions_kit_dev (pcfgs (F := F)) (adm m) (pdats m) () (cellOf_inj (adm m)) emb₁ defs₀ Variants.none LL lvv m ρ main
    (allSegs m)
    (fun c Q => by
      rewrite [main_chain c, Seg.run_eq_chain,
        show (allSegs m c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [allSegs, segs, Seg.pipes_host, Seg.pipes_region, Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V18 m (outs m) c))
    (hch := fun c => ⟨.rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach LL lvv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V18 m (outs m) c b)
    (hfin := fun c s' => by
      unfold StableHlo.held
      iintro ⟨Hh, HSI⟩
      imodintro
      iapply (pointsTo_read_all (Pipeline.ucRefs τ sig) (fun b => (((c : Thread nD τ)).1, b)) (V18 m (outs m) c) s')
      isplitl [Hh] <;> iassumption)
    (hQ := fun _ h => h)

end Cert.Kernel.Hand
end
-- ==== Proof.KIRegion0.lean ====
import proofs.«134566_j28123445854543_1_alg».proof.Proof.Gen.KernelIdeal.Launch
import proofs.«134566_j28123445854543_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # Pallas call 0: the masked reset of the motion queue

One grid point per batch row `b`. The body reads word `b` of the reset table (the mask's negation as 32-bit
words, held whole in scalar memory), the row's query block and the row's queue block, and stores into the output
block the query repeated over the four queue slots where the word is nonzero, the queue block where it is zero. -/

section Region0

variable (V : (c : Dev nD) → (b : Ref sig .tc) → Buf (Elt F) ((c : Thread nD τ).loc b))
variable (a : (pcfg0 (F := F)).Adm)

/-- Window `w`'s block at point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- An input window's current staging buffer holds its block at every point, fetched there or not. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole query block and the whole queue (and output) block, as the body's rectangles. -/
abbrev rq : Rect S1x900x256 := Rect.unit (s := S1x900x256) ![0, 0, 0] S1x900x256.size inb_S1x900x256_S1x900x256_0_0_0
abbrev rk : Rect S1x4x900x256 := Rect.unit (s := S1x4x900x256) ![0, 0, 0, 0] S1x4x900x256.size inb_S1x4x900x256_S1x4x900x256_0_0_0_0

/-- The table's word the body reads at grid coordinates `i`: entry `i 0` of the sixteen. -/
def word0 (i : grid0.Coords) (xt : Vec F S16 .i32) : Elt F .i32 :=
  View.ld xt (Rect.unit (s := S16) (k0_off1 i) S1.size (k0_off1_inb i)) (Shape.Idx.first (numel1_S1.symm ▸ Nat.one_pos))

/-- The output block after the body: its one store, of the select between the repeated query block and the queue block. -/
def out0_2 (i : grid0.Coords) (xt : Vec F S16 .i32) (x0 : Vec F S1x900x256 .f32) (x1 : Vec F S1x4x900x256 .f32) : Vec F S1x4x900x256 .f32 :=
  View.canon [⟨rk, k0_pay1 (word0 i xt) (View.ld x0 rq) (View.ld x1 rk)⟩]

/-- The one store covers the block. -/
theorem cover0_2 (p0 : Vec F S1x4x900x256 .f32) (y : S1x4x900x256.Idx) :
    ∃ pc ∈ ([⟨rk, p0⟩] : List (View.Piece (Elt F) S1x4x900x256 .f32)), y ∈ pc.1.set :=
  View.cover_of_tiled [⟨rk, p0⟩] S1x4x900x256.size (by rfl) y

set_option maxHeartbeats 1000000 in
/-- The body's triple: holding the table, the two input blocks and the output buffer at anything, it runs to the
    continuation holding the table and the inputs as they were and the output at `out0_2`. -/
theorem sound_kernel0 (c : Dev nD) (E : Set ℕ) (i : grid0.Coords)
    (arg1 : Memref sig .tc .smem S16 .i32) (harg1 : arg1.IsWhole)
    (arg2 : Memref sig .tc .vmem S1x900x256 .f32) (harg2 : arg2.IsWhole)
    (arg3 : Memref sig .tc .vmem S1x4x900x256 .f32) (harg3 : arg3.IsWhole)
    (arg4 : Memref sig .tc .vmem S1x4x900x256 .f32) (harg4 : arg4.IsWhole)
    (xt : Vec F S16 .i32) (x0 : Vec F S1x900x256 .f32) (x1 : Vec F S1x4x900x256 .f32) (K : PUnit → sProp 𝕄) :
    iprop(owns (c : Thread nD τ) arg1 fullShare xt ∗ owns (c : Thread nD τ) arg2 fullShare x0 ∗ owns (c : Thread nD τ) arg3 fullShare x1
        ∗ (∃ d, owns (c : Thread nD τ) arg4 fullShare d)
        ∗ (iprop(owns (c : Thread nD τ) arg1 fullShare xt ∗ owns (c : Thread nD τ) arg2 fullShare x0 ∗ owns (c : Thread nD τ) arg3 fullShare x1
            ∗ owns (c : Thread nD τ) arg4 fullShare (out0_2 i xt x0 x1)) -∗ K ⟨⟩))
      ⊢ wp frame (wpE (defs₀ (F := F)) Variants.none c none) E (cc0__mq_kernel i arg1 harg1 arg2 harg2 arg3 harg3 arg4 harg4) K := by
  simp only [cc0__mq_kernel_eq_skeleton]; unfold cc0__mq_kernel_skel
  unfold owns
  iintro ⟨⟨%ft, %hft, Ht⟩, ⟨%f0, %hf0, H0⟩, ⟨%f1, %hf1, H1⟩, ⟨%d2, %f2, -, H2⟩, Hk⟩
  subst hft; subst hf0; subst hf1
  sl_exec
  sl_step
  iapply Hk
  isplitl [Ht]
  · iexists ft; isplitr; · ipureintro; rfl
    iexact Ht
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of pipeline 0 -/

/-- The reset table as the body's memref holds it. -/
abbrev tblRef : Memref sig .tc .smem S16 .i32 := Memref.whole main_v1

/-- On core `c`: the arrays as the region finds them; after the body at point `t` each input's buffer at its
    block and the output's at `out0_2` of the table and the two input blocks; the invariant is the scoped rest, the
    generator register and the table, whole, at its contents; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => out0_2 (grid0.coords t) (a.1 0) (iblk0 V a c 0 t) (iblk0 V a c 1 t)
  Φ _ := iprop(Pipeline.ΦA spec0 c ∗ owns (c : Thread nD τ) tblRef fullShare (a.1 0))
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; rfl
theorem after0_1 (c : Dev nD) (t : Fin (cfg0 a).N) : (dat0 V a c).after 1 t = iblk0 V a c 1 t := by dsimp only [dat0]; rfl
theorem after0_2 (c : Dev nD) (t : Fin (cfg0 a).N) :
    (dat0 V a c).after 2 t = out0_2 (grid0.coords t) (a.1 0) (iblk0 V a c 0 t) (iblk0 V a c 1 t) := by dsimp only [dat0]; rfl

theorem before0_0 (c : Dev nD) (t : Fin (cfg0 a).N) (d) : (dat0 V a c).before 0 t d = iblk0 V a c 0 t :=
  before0_0_of V a (dat0 V a c) (A_eq0 V a c 0) (after0_0 V a c) t d
theorem before0_1 (c : Dev nD) (t : Fin (cfg0 a).N) (d) : (dat0 V a c).before 1 t d = iblk0 V a c 1 t :=
  before0_1_of V a (dat0 V a c) (A_eq0 V a c 1) (after0_1 V a c) t d

/-! ## The body obligation -/

/-- The current staging memref of each window at point `t`. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)

/-- The body as the pipeline calls it at point `t`. -/
abbrev bodyAt0 (t : Fin (cfg0 a).N) : Prog (TpuEff nD τ sig (Elt F) Λ₀ .tc) PUnit :=
  cc0__mq_kernel (grid0.coords t) (Memref.whole main_v1) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t))

/-- The body at any point: the inputs' memrefs hold their blocks, the invariant lends the table and takes it back. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1]
  rw [show (dat0 V a c).Φ t.succ = (dat0 V a c).Φ t.castSucc from rfl,
    show (dat0 V a c).owesAt () t.succ = (dat0 V a c).owesAt () t.castSucc from rfl,
    after0_0, after0_1, after0_2,
    show (dat0 V a c).Φ t.castSucc = iprop(Pipeline.ΦA spec0 c ∗ owns (c : Thread nD τ) tblRef fullShare (a.1 0)) from rfl]
  iintro ⟨⟨HΦ, Ht⟩, Ho, ⟨%d0, H0⟩, ⟨%d1, H1⟩, ⟨%d2, H2⟩⟩
  iapply (sound_kernel0 c Set.univ (grid0.coords t) _ _ _ _ _ _ _ _ (a.1 0) (iblk0 V a c 0 t) (iblk0 V a c 1 t) _)
  isplitl [Ht]; · iexact Ht
  isplitl [H0]; · iexact H0
  isplitl [H1]; · iexact H1
  isplitl [H2]; · iexists _; iexact H2
  iintro ⟨Ht, H0, H1, H2⟩
  isplitl [HΦ Ht]
  · isplitl [HΦ]; · iexact HΦ
    iexact Ht
  isplitl [Ho]; · iexact Ho
  isplitl [H0]; · iexact H0
  isplitl [H1]; · iexact H1
  iexact H2

/-- The library's body obligation, at every point. -/
theorem body_obligation0 (c : Dev nD) : BodyObligation (dat0 (F := F) V a c) (defs₀ (F := F)) Variants.none () Set.univ := fun t => by
  rw [bigSep_W0, bigSep_W0]
  exact sound_body0 V a c t

end Region0

end Cert.KernelIdeal.Hand
end
-- ==== Proof.KIRegion1.lean ====
/- Region 1 of @main (the second pallas_call, `cc1__te_kernel`), at the buffer contents `V` the region is entered with.

   The body copies, for t = 0, 1, 2, the plane `x[0, :, t, :]` of its input block (shape 1×900×4×256) into the plane
   `out[0, t, :, :]` of its output block (shape 1×3×900×256): three loads through literal rectangles of the input's
   staging buffer, each re-laid 1×900×1×256 → 900×256 → 1×1×900×256, and three stores through the three planes of the
   output's staging buffer, which together tile it. Before each store the body also loads the plane it is about to
   overwrite; that value is never used, so the output's staging buffer may hold anything when the body starts.

   This module states, per grid point, what the body leaves in the output's staging buffer as a function of the
   input block (`out1_1`), proves the body's triple, and packages the pipeline's proof data (`dat1`) and the body
   obligation (`body_obligation1`) for the region's segment record. -/
import proofs.«134566_j28123445854543_1_alg».proof.Proof.Gen.KernelIdeal.Launch
import proofs.«134566_j28123445854543_1_alg».proof.Proof.Gen.KernelIdeal.Skeleton
import proofs.«134566_j28123445854543_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is fetched at every point and never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The three planes `[0, :, t, :]` of the input block the body loads, t = 0, 1, 2. -/
abbrev l1_0 : Rect S1x900x4x256 := Rect.unit (s := S1x900x4x256) ![0, 0, 0, 0] S1x900x1x256.size inb_S1x900x4x256_S1x900x1x256_0_0_0_0
abbrev l1_1 : Rect S1x900x4x256 := Rect.unit (s := S1x900x4x256) ![0, 0, 1, 0] S1x900x1x256.size inb_S1x900x4x256_S1x900x1x256_0_0_1_0
abbrev l1_2 : Rect S1x900x4x256 := Rect.unit (s := S1x900x4x256) ![0, 0, 2, 0] S1x900x1x256.size inb_S1x900x4x256_S1x900x1x256_0_0_2_0
/-- The three planes `[0, t, :, :]` of the output block the body stores, t = 0, 1, 2. -/
abbrev s1_0 : Rect S1x3x900x256 := Rect.unit (s := S1x3x900x256) ![0, 0, 0, 0] S1x1x900x256.size inb_S1x3x900x256_S1x1x900x256_0_0_0_0
abbrev s1_1 : Rect S1x3x900x256 := Rect.unit (s := S1x3x900x256) ![0, 1, 0, 0] S1x1x900x256.size inb_S1x3x900x256_S1x1x900x256_0_1_0_0
abbrev s1_2 : Rect S1x3x900x256 := Rect.unit (s := S1x3x900x256) ![0, 2, 0, 0] S1x1x900x256.size inb_S1x3x900x256_S1x1x900x256_0_2_0_0

/-! ## What the body leaves in the output window's buffer -/

/-- The output's staging buffer after the body, from the input block: its three stores as pieces, last first;
    plane t of the output holds plane t of the input, re-laid. -/
def out1_1 (x0 : Vec F S1x900x4x256 .f32) : Vec F S1x3x900x256 .f32 :=
  View.canon [⟨s1_2, k1_pay3 (View.ld x0 l1_2)⟩, ⟨s1_1, k1_pay2 (View.ld x0 l1_1)⟩, ⟨s1_0, k1_pay1 (View.ld x0 l1_0)⟩]

/-- The three stored planes tile the output block, so they cover it. -/
theorem cover1_1 (p2 p1 p0 : Vec F S1x1x900x256 .f32) (y : S1x3x900x256.Idx) :
    ∃ pc ∈ ([⟨s1_2, p2⟩, ⟨s1_1, p1⟩, ⟨s1_0, p0⟩] : List (View.Piece (Elt F) S1x3x900x256 .f32)), y ∈ pc.1.set :=
  View.cover_of_tiled [⟨s1_2, p2⟩, ⟨s1_1, p1⟩, ⟨s1_0, p0⟩] S1x1x900x256.size (by rfl) y

/-! ## The body's triple -/

set_option maxHeartbeats 1000000 in
/-- The body on whole staging memrefs, the input's at read contents `x0` and the output's at anything (the planes it
    loads from the output are never used), runs to the continuation holding the input's as it was and the output's at
    `out1_1 x0`. -/
theorem sound_kernel1 (c : Dev nD) (E : Set ℕ) (i : grid1.Coords) (arg1 : Memref sig .tc .vmem S1x900x4x256 .f32) (harg1 : arg1.IsWhole) (arg2 : Memref sig .tc .vmem S1x3x900x256 .f32) (harg2 : arg2.IsWhole)
    (x0 : Vec F S1x900x4x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__te_kernel i arg1 harg1 arg2 harg2) K := by
  simp only [cc1__te_kernel_eq_skeleton]; unfold cc1__te_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _ _ _)

/-! ## The pipeline's proof data -/

/-- The proof data of pipeline 1 on core `c`: the arrays as the region finds them (`V`); after the body at point `t`
    the input's buffer at its block and the output's at `out1_1` of the input block; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
import proofs.«134566_j28123445854543_1_alg».proof.Proof.Gen.KernelIdeal.Launch
import proofs.«134566_j28123445854543_1_alg».proof.Proof.Gen.KernelIdeal.Skeleton
import proofs.«134566_j28123445854543_1_alg».proof.Proof.Gen.KernelIdeal.Regions
import proofs.«134566_j28123445854543_1_alg».proof.Proof.KIRegion0
import proofs.«134566_j28123445854543_1_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

/-! # The run of @main: host stretches, the queue reset, host stretches, the slice-and-transpose, host stretches

Between two items every unscoped buffer of the one TensorCore is held whole at the generated valuations
`V0 … V18` (the launch contents, then each host stretch folded in, then what a region leaves in its result array);
the two regions' results are the arrays their pipelines leave. -/

variable (m : (ℓ : Loc nD τ sig) → Buf (Elt F) ℓ) (ρ : Dev nD → PrngReg)

/-- The one TensorCore of the compiled mesh. -/
def c₀ : Dev nD := ⟨0, by decide⟩
theorem dev_eq (c : Dev nD) : c = c₀ := Subsingleton.elim _ _

/-- The buffers as region 0 finds them, read at the TensorCore's references. -/
abbrev Vr1 : (c : Dev nD) → (b : Ref sig .tc) → Buf (Elt F) ((c : Thread nD τ).loc b) := fun c b => V1 m c b

/-- The reset table's contents when region 0 is entered. -/
def tbl : pre0.Contents (Elt F) := fun k => Vr1 m c₀ (pre0.ref k)
def adm0 : (pcfg0 (F := F)).Adm := ⟨tbl m, trivial⟩
/-- The pipelines' tables: region 0's at `tbl`, region 1 has none. -/
def adm : (p : Fin 2) → (pcfgs (F := F) p).Adm
  | ⟨0, _⟩ => adm0 m
  | ⟨1, _⟩ => cfg1.toPCfg_adm

/-- What region 0 leaves in its result array. -/
def out2 (c : Dev nD) : Buf (Elt F) ((c : Thread nD τ).loc main_v2) := (dat0 (Vr1 m) (adm0 m) c).arrAt 2 (cfg0 (adm0 m)).N

/-- The two regions' results as the valuations' unknowns. -/
def outsOf (o2 : (c : Dev nD) → Buf (Elt F) ((c : Thread nD τ).loc main_v2)) (o9 : (c : Dev nD) → Buf (Elt F) ((c : Thread nD τ).loc main_v11)) : Outs (F := F) :=
  fun _ r c => if h : r = main_v2 then h ▸ o2 c else if h' : r = main_v11 then h' ▸ o9 c else m ((c : Thread nD τ).loc r)
theorem outsOf_2 (o2 o9) (j : ℕ) (c : Dev nD) : outsOf m o2 o9 j main_v2 c = o2 c := by unfold outsOf; rw [dif_pos rfl]
theorem outsOf_9 (o2 o9) (j : ℕ) (c : Dev nD) : outsOf m o2 o9 j main_v11 c = o9 c := by
  unfold outsOf; rw [dif_neg (by decide), dif_pos rfl]

def outs1 : Outs (F := F) := outsOf m (out2 m) (fun c => m ((c : Thread nD τ).loc main_v11))
/-- The buffers as region 1 finds them. -/
abbrev Vr8 : (c : Dev nD) → (b : Ref sig .tc) → Buf (Elt F) ((c : Thread nD τ).loc b) := fun c b => V8 m (outs1 m) c b
/-- What region 1 leaves in its result array. -/
def out9 (c : Dev nD) : Buf (Elt F) ((c : Thread nD τ).loc main_v11) := (dat1 (Vr8 m) c).arrAt 1 cfg1.N
def outs : Outs (F := F) := outsOf m (out2 m) (out9 m)

theorem outs_2 (c : Dev nD) : outs m 2 main_v2 c = out2 m c := outsOf_2 m _ _ 2 c
theorem outs_9 (c : Dev nD) : outs m 9 main_v11 c = out9 m c := outsOf_9 m _ _ 9 c
theorem V8_outs (c : Dev nD) : V8 m (outs m) c = V8 m (outs1 m) c := by
  dsimp only [V8, V7, V6, V5, V4, V3, V2]
  rw [outs_2, show outs1 m 2 main_v2 c = out2 m c from outsOf_2 m _ _ 2 c]

/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (Vr1 m) (adm0 m) c
  | ⟨1, _⟩ => fun c => dat1 (Vr8 m) c

abbrev LL : GSem nD τ sig → Finset Unit := fun _ => ∅
abbrev lvv : GSem nD τ sig → Unit → ℕ := fun _ _ => 0
/-- What rides beside the buffers through every item: the generator register at some state and the core's `owes`, at nothing. -/
abbrev Rr (c : Dev nD) : sProp 𝕄 := iprop((∃ r, prngReg c r) ∗ ∃ W, owes (c : Thread nD τ) (0 : CellTallies nD τ sig Unit) W)

/-- The table held whole is the body's memref owned at the table's contents, and back. -/
theorem tbl_owns_mp (c : Dev nD) (tb : pre0.Contents (Elt F)) :
    (Pipeline.prefHeld (Ix := Unit) (Name := ℕ) (U := UR sig nD τ) (Lvl := ℕ) pre0 c (fun _ => fullShare) tb : sProp 𝕄)
      ⊢ owns (c : Thread nD τ) (Memref.whole main_v1) fullShare (tb 0) := by
  unfold Pipeline.prefHeld
  rw [bigSep_univ_eq_bigSepL [(0 : Fin 1)] (by decide) (by decide)]
  refine .trans ?_ (Entails.of_eq (owns_whole_eq (c : Thread nD τ) main_v1 fullShare (tb 0)).symm)
  show (iprop(((c : Thread nD τ).loc (pre0.ref 0)) ↦{fullShare} tb 0) : sProp 𝕄) ⊢ _
  iintro H; iexists _; isplitr; · ipureintro; rfl
  iexact H
theorem tbl_owns_mpr (c : Dev nD) (tb : pre0.Contents (Elt F)) :
    (owns (c : Thread nD τ) (Memref.whole main_v1) fullShare (tb 0) : sProp 𝕄)
      ⊢ Pipeline.prefHeld (Ix := Unit) (Name := ℕ) (U := UR sig nD τ) (Lvl := ℕ) pre0 c (fun _ => fullShare) tb := by
  unfold Pipeline.prefHeld
  rw [bigSep_univ_eq_bigSepL [(0 : Fin 1)] (by decide) (by decide)]
  refine .trans (Entails.of_eq (owns_whole_eq (c : Thread nD τ) main_v1 fullShare (tb 0))) ?_
  show _ ⊢ (iprop(((c : Thread nD τ).loc (pre0.ref 0)) ↦{fullShare} tb 0) : sProp 𝕄)
  iintro ⟨%f, %hf, H⟩; subst hf
  iexact H

theorem hF0 (c : Dev nD) : ∀ w : Fin (cfg0 (adm0 m)).W, (pdats m 0 c).arrAt w (cfg0 (adm0 m)).N = V2 m (outs m) c (Proc.devRef .tc (Pipeline.arrRef spec0 w))
  | ⟨0, _⟩ => (((dat0 (Vr1 m) (adm0 m) c).arrAt_in 0 rfl _).trans (A_eq0 (Vr1 m) (adm0 m) c 0)).trans (V2_of m (outs m) c main_arg0 (by decide)).symm
  | ⟨1, _⟩ => (((dat0 (Vr1 m) (adm0 m) c).arrAt_in 1 rfl _).trans (A_eq0 (Vr1 m) (adm0 m) c 1)).trans (V2_of m (outs m) c main_arg3 (by decide)).symm
  | ⟨2, _⟩ => by
    show out2 m c = Function.update (V1 m c) (Proc.devRef .tc main_v2) (outs m 2 main_v2 c) (Proc.devRef .tc main_v2)
    rw [Function.update_self, outs_2]
/-- The buffers as region 0 leaves them, and as region 1 leaves them, read at the TensorCore's references. -/
abbrev Vr2 : (c : Dev nD) → (b : Ref sig .tc) → Buf (Elt F) ((c : Thread nD τ).loc b) := fun c b => V2 m (outs m) c b
abbrev Vr9 : (c : Dev nD) → (b : Ref sig .tc) → Buf (Elt F) ((c : Thread nD τ).loc b) := fun c b => V9 m (outs m) c b
theorem hrest0 (c : Dev nD) : ∀ b, b ∉ Finset.univ.image (Pipeline.arrRef spec0) → Vr2 m c b = Vr1 m c b :=
  fun b hb => V2_of m (outs m) c b (by
    intro h; rw [List.mem_singleton] at h
    exact hb (Finset.mem_image.mpr ⟨2, Finset.mem_univ _, h.symm ▸ rfl⟩))

/-! ## The two regions as segments -/

set_option backward.isDefEq.respectTransparency.types false in
/-- Region 0 over the thread state: entered from every unscoped buffer at `V1`, left at `V2`. Its arrays are
    split out of the unscoped buffers and put back with the result at what the pipeline leaves; the table goes into
    the body's invariant whole and comes back; the generator register likewise; nothing owed. -/
def reg0 : Pipeline.RegionSeg (pcfgs (F := F)) (adm m) (pdats m) () defs₀ Variants.none LL lvv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vr1 m) (adm0 m) c).loose
  hwaits := Pipeline.hwaits_of_owed_zero _ _ _ _ LL lvv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop((∃ r, prngReg c r) ∗ Pipeline.prefHeld pre0 c (fun _ => fullShare) (tbl m))
  Z c := Pipeline.unscopedRestP (Ix := Unit) (Name := ℕ) (U := UR sig nD τ) (Lvl := ℕ) pre0 spec0 c (Vr1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Vr1 m c) fun _ => rfl
    rw [Pipeline.unscopedBufs_held, Pipeline.unscopedRest_split (pre := pre0) (launch0 (F := F)).pre c (Vr1 m c)] at hsplit
    have hc := dev_eq c; subst hc
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ owns (c : Thread nD τ) tblRef fullShare ((adm0 m).1 0)) from rfl]
    unfold Pipeline.ΦA
    iintro ⟨Hp, Ht, Hr⟩
    isplitl [Hr Hp]
    · isplitl [Hr]; · iexact Hr
      iexact Hp
    iapply (tbl_owns_mp c (adm0 m).1); iexact Ht
  hout c := by
    rw [Pipeline.ownSems0_none, show (pdats m 0 c).Φ (Fin.last _) = iprop(Pipeline.ΦA spec0 c ∗ owns (c : Thread nD τ) tblRef fullShare ((adm0 m).1 0)) from rfl]
    unfold Pipeline.ΦA
    iintro ⟨⟨Hr, Hp⟩, Ht⟩
    isplitl [Hp Ht]
    · isplitl [Hp]; · iexact Hp
      iapply (tbl_owns_mpr c (tbl m)); iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (Vr1 m c) (Vr2 m c) ((pdats m 0 c).arrAt · (cfg0 (adm0 m)).N) (hF0 m c) (hrest0 m c)
    rw [Pipeline.unscopedBufs_held, Pipeline.unscopedRest_split (pre := pre0) (launch0 (F := F)).pre c (Vr1 m c)] at hjoin
    have hc := dev_eq c; subst hc
    iintro ⟨Ha, HO, ⟨Hp, Ht⟩, Hrest⟩
    imodintro
    isplitl [Ha Hrest Ht]
    · iapply hjoin; isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

theorem hF1 (c : Dev nD) : ∀ w : Fin cfg1.W, (pdats m 1 c).arrAt w cfg1.N = V9 m (outs m) c (Proc.devRef .tc (Pipeline.arrRef spec1 w))
  | ⟨0, _⟩ => (((dat1 (Vr8 m) c).arrAt_in 0 rfl _).trans (A_eq1 (Vr8 m) c 0)).trans
      ((congrFun (V8_outs m c) (Proc.devRef .tc main_arg8)).symm.trans (V9_of m (outs m) c main_arg8 (by decide)).symm)
  | ⟨1, _⟩ => by
    show out9 m c = Function.update (V8 m (outs m) c) (Proc.devRef .tc main_v11) (outs m 9 main_v11 c) (Proc.devRef .tc main_v11)
    rw [Function.update_self, outs_9]
theorem hrest1 (c : Dev nD) : ∀ b, b ∉ Finset.univ.image (Pipeline.arrRef spec1) → Vr9 m c b = Vr8 m c b :=
  fun b hb => (V9_of m (outs m) c b (by
    intro h; rw [List.mem_singleton] at h
    exact hb (Finset.mem_image.mpr ⟨1, Finset.mem_univ _, h.symm ▸ rfl⟩))).trans (congrFun (V8_outs m c) (Proc.devRef .tc b))

set_option backward.isDefEq.respectTransparency.types false in
/-- Region 1 over the thread state: entered from every unscoped buffer at `V8`, left at `V9`. -/
def reg1 : Pipeline.RegionSeg (pcfgs (F := F)) (adm m) (pdats m) () defs₀ Variants.none LL lvv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (Vr8 m) c).loose
  hwaits := Pipeline.hwaits_of_owed_zero _ _ _ _ LL lvv 1 fun _ _ => rfl
  pre c := iprop(StableHlo.held (c : Thread nD τ) (Pipeline.ucRefs τ sig) (V8 m (outs m) c) ∗ Rr c)
  post c := iprop(StableHlo.held (c : Thread nD τ) (Pipeline.ucRefs τ sig) (V9 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Vr8 m c)
  hentry c := by
    rw [Pipeline.ownSems0_none, V8_outs]
    have hsplit := Pipeline.arrays_of_unscopedBufs (p := 1) (pcfgs (F := F)) (adm m) (pdats m) (launch1 (F := F)).win (launch1 (F := F)).arr_whole c
      ((pdats m 1 c).share_full fun _ => rfl) (Vr8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (Vr8 m c) (Vr9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's eighteen items as segments: the generated host segments, the two regions' records. -/
abbrev allSegs (c : Dev nD) : List (Seg (pcfgs (F := F)) (adm m) (pdats m) () defs₀ Variants.none LL lvv) :=
  segs m (outs m) Variants.none LL lvv (fun _ c => Rr c) () (adm m) (pdats m) (reg0 m) (reg1 m) c

set_option backward.isDefEq.respectTransparency.types false in
/-- From any memory with zero counters every weakly fair execution of @main terminates, nothing faulting, and every
    unscoped buffer of the TensorCore ends at the last valuation `V18`. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = V18 m (outs m) c b) := by
  refine Pipeline.θ_run_regions_kit_dev (pcfgs (F := F)) (adm m) (pdats m) () (cellOf_inj (adm m)) emb₁ defs₀ Variants.none LL lvv m ρ main
    (allSegs m)
    (fun c Q => by
      rewrite [main_chain c, Seg.run_eq_chain,
        show (allSegs m c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [allSegs, segs, Seg.pipes_host, Seg.pipes_region, Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V18 m (outs m) c))
    (hch := fun c => ⟨.rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach LL lvv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V18 m (outs m) c b)
    (hfin := fun c s' => by
      unfold StableHlo.held
      iintro ⟨Hh, HSI⟩
      imodintro
      iapply (pointsTo_read_all (Pipeline.ucRefs τ sig) (fun b => (((c : Thread nD τ)).1, b)) (V18 m (outs m) c) s')
      isplitl [Hh] <;> iassumption)
    (hQ := fun _ h => h)

end Cert.KernelIdeal.Hand
end
-- ==== Proof.RefRun.lean ====
/-
  The reference program read as one straight line of host operations.

  The reference's entry function is a sequence of tensor operations, eight of them calls of small helper
  functions (five selections under a broadcast condition, an index of the first false entry along an axis, a read
  along an axis at that index).  A call means the helper's body executed on the operands, each value of the body
  in a buffer of its own; substituting every body at its call gives one list of eighty-six operations, `ops`, in
  program order.  `main_eq` says the entry function IS that list run in order: first as the sequence of its
  stretches (its own operations between calls, and each call's body), then the stretches concatenated.  Because
  the program holds no kernel, nothing is scoped and every buffer lives for the whole run, so the run of a
  straight line applies: every weakly fair execution terminates, and each buffer ends at the fold of the
  operations' results over the launch contents (`run_main`).
-/
import proofs.«134566_j28123445854543_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The stretches: the entry function's own operations between calls, and each call's body -/

/-- A stretch of the entry function's own operations. -/
abbrev ops_0 : List (HloOp τ sig (Elt F)) :=
  [ StableHlo.unary main_arg7 main_v0 (noti : (⟨S16, .i1⟩ : BufTy).Contents (Elt F) → (⟨S16, .i1⟩ : BufTy).Contents (Elt F)),
    StableHlo.unary main_v0 main_v1 (broadcastInDim S16x1x1x1 ![0] bcast_S16_S16x1x1x1_0 : (⟨S16, .i1⟩ : BufTy).Contents (Elt F) → (⟨S16x1x1x1, .i1⟩ : BufTy).Contents (Elt F)),
    StableHlo.unary main_arg0 main_v2 (broadcastInDim S16x1x900x256 ![0, 2, 3] bcast_S16x900x256_S16x1x900x256_0_2_3 : (⟨S16x900x256, .f32⟩ : BufTy).Contents (Elt F) → (⟨S16x1x900x256, .f32⟩ : BufTy).Contents (Elt F)) ]
/-- The body of the helper called at call 0. -/
abbrev ops_1 : List (HloOp τ sig (Elt F)) :=
  [ StableHlo.TRef.unary (.of main_v1 : StableHlo.TRef sig ⟨S16x1x1x1, .i1⟩) (.of main_call0_v0 : StableHlo.TRef sig ⟨S16x4x900x256, .i1⟩) (broadcastInDim S16x4x900x256 ![0, 1, 2, 3] bcast_S16x1x1x1_S16x4x900x256_0_1_2_3),
    StableHlo.TRef.unary (.of main_v2 : StableHlo.TRef sig ⟨S16x1x900x256, .f32⟩) (.of main_call0_v1 : StableHlo.TRef sig ⟨S16x4x900x256, .f32⟩) (broadcastInDim S16x4x900x256 ![0, 1, 2, 3] bcast_S16x1x900x256_S16x4x900x256_0_1_2_3),
    StableHlo.TRef.ternary (.of main_call0_v0 : StableHlo.TRef sig ⟨S16x4x900x256, .i1⟩) (.of main_call0_v1 : StableHlo.TRef sig ⟨S16x4x900x256, .f32⟩) (.of main_arg3 : StableHlo.TRef sig ⟨S16x4x900x256, .f32⟩) (.of main_v3 : StableHlo.TRef sig ⟨S16x4x900x256, .f32⟩) select ]
/-- A stretch of the entry function's own operations. -/
abbrev ops_2 : List (HloOp τ sig (Elt F)) :=
  [ StableHlo.unary main_v0 main_v4 (broadcastInDim S16x1x1x1 ![0] bcast_S16_S16x1x1x1_0 : (⟨S16, .i1⟩ : BufTy).Contents (Elt F) → (⟨S16x1x1x1, .i1⟩ : BufTy).Contents (Elt F)),
    StableHlo.unary main_arg1 main_v5 (broadcastInDim S16x1x6x256 ![0, 2, 3] bcast_S16x6x256_S16x1x6x256_0_2_3 : (⟨S16x6x256, .f32⟩ : BufTy).Contents (Elt F) → (⟨S16x1x6x256, .f32⟩ : BufTy).Contents (Elt F)) ]
/-- The body of the helper called at call 1. -/
abbrev ops_3 : List (HloOp τ sig (Elt F)) :=
  [ StableHlo.TRef.unary (.of main_v4 : StableHlo.TRef sig ⟨S16x1x1x1, .i1⟩) (.of main_call1_v0 : StableHlo.TRef sig ⟨S16x4x6x256, .i1⟩) (broadcastInDim S16x4x6x256 ![0, 1, 2, 3] bcast_S16x1x1x1_S16x4x6x256_0_1_2_3),
    StableHlo.TRef.unary (.of main_v5 : StableHlo.TRef sig ⟨S16x1x6x256, .f32⟩) (.of main_call1_v1 : StableHlo.TRef sig ⟨S16x4x6x256, .f32⟩) (broadcastInDim S16x4x6x256 ![0, 1, 2, 3] bcast_S16x1x6x256_S16x4x6x256_0_1_2_3),
    StableHlo.TRef.ternary (.of main_call1_v0 : StableHlo.TRef sig ⟨S16x4x6x256, .i1⟩) (.of main_call1_v1 : StableHlo.TRef sig ⟨S16x4x6x256, .f32⟩) (.of main_arg4 : StableHlo.TRef sig ⟨S16x4x6x256, .f32⟩) (.of main_v6 : StableHlo.TRef sig ⟨S16x4x6x256, .f32⟩) select ]
/-- A stretch of the entry function's own operations. -/
abbrev ops_4 : List (HloOp τ sig (Elt F)) :=
  [ StableHlo.unary main_v0 main_v7 (broadcastInDim S16x1x1 ![0] bcast_S16_S16x1x1_0 : (⟨S16, .i1⟩ : BufTy).Contents (Elt F) → (⟨S16x1x1, .i1⟩ : BufTy).Contents (Elt F)),
    StableHlo.unary main_arg2 main_v8 (broadcastInDim S16x1x256 ![0, 2] bcast_S16x256_S16x1x256_0_2 : (⟨S16x256, .f32⟩ : BufTy).Contents (Elt F) → (⟨S16x1x256, .f32⟩ : BufTy).Contents (Elt F)) ]
/-- The body of the helper called at call 2. -/
abbrev ops_5 : List (HloOp τ sig (Elt F)) :=
  [ StableHlo.TRef.unary (.of main_v7 : StableHlo.TRef sig ⟨S16x1x1, .i1⟩) (.of main_call2_v0 : StableHlo.TRef sig ⟨S16x4x256, .i1⟩) (broadcastInDim S16x4x256 ![0, 1, 2] bcast_S16x1x1_S16x4x256_0_1_2),
    StableHlo.TRef.unary (.of main_v8 : StableHlo.TRef sig ⟨S16x1x256, .f32⟩) (.of main_call2_v1 : StableHlo.TRef sig ⟨S16x4x256, .f32⟩) (broadcastInDim S16x4x256 ![0, 1, 2] bcast_S16x1x256_S16x4x256_0_1_2),
    StableHlo.TRef.ternary (.of main_call2_v0 : StableHlo.TRef sig ⟨S16x4x256, .i1⟩) (.of main_call2_v1 : StableHlo.TRef sig ⟨S16x4x256, .f32⟩) (.of main_arg5 : StableHlo.TRef sig ⟨S16x4x256, .f32⟩) (.of main_v9 : StableHlo.TRef sig ⟨S16x4x256, .f32⟩) select ]
/-- A stretch of the entry function's own operations. -/
abbrev ops_6 : List (HloOp τ sig (Elt F)) :=
  [ StableHlo.unary main_v0 main_v10 (broadcastInDim S16x1 ![0] bcast_S16_S16x1_0 : (⟨S16, .i1⟩ : BufTy).Contents (Elt F) → (⟨S16x1, .i1⟩ : BufTy).Contents (Elt F)),
    StableHlo.nullary main_c (constantI S_ 32 0#32) ]
/-- The body of the helper called at call 3. -/
abbrev ops_7 : List (HloOp τ sig (Elt F)) :=
  [ StableHlo.TRef.unary (.of main_c : StableHlo.TRef sig ⟨S_, .i32⟩) (.of main_call3_v0 : StableHlo.TRef sig ⟨S_, .i32⟩) id,
    StableHlo.TRef.unary (.of main_v10 : StableHlo.TRef sig ⟨S16x1, .i1⟩) (.of main_call3_v1 : StableHlo.TRef sig ⟨S16x4, .i1⟩) (broadcastInDim S16x4 ![0, 1] bcast_S16x1_S16x4_0_1),
    StableHlo.TRef.unary (.of main_call3_v0 : StableHlo.TRef sig ⟨S_, .i32⟩) (.of main_call3_v2 : StableHlo.TRef sig ⟨S16x4, .i32⟩) (broadcastInDim S16x4 ![] bcast_S_S16x4),
    StableHlo.TRef.ternary (.of main_call3_v1 : StableHlo.TRef sig ⟨S16x4, .i1⟩) (.of main_call3_v2 : StableHlo.TRef sig ⟨S16x4, .i32⟩) (.of main_arg6 : StableHlo.TRef sig ⟨S16x4, .i32⟩) (.of main_v11 : StableHlo.TRef sig ⟨S16x4, .i32⟩) select ]
/-- A stretch of the entry function's own operations. -/
abbrev ops_8 : List (HloOp τ sig (Elt F)) :=
  [ StableHlo.unary main_arg9 main_v12 ((extractStridedSlice S16x900x3 ![0, 0, 0] · slices_S16x900x4_S16x900x3_0_0_0) : (⟨S16x900x4, .i1⟩ : BufTy).Contents (Elt F) → (⟨S16x900x3, .i1⟩ : BufTy).Contents (Elt F)),
    StableHlo.unary main_arg8 main_v13 ((extractStridedSlice S16x900x3x256 ![0, 0, 0, 0] · slices_S16x900x4x256_S16x900x3x256_0_0_0_0) : (⟨S16x900x4x256, .f32⟩ : BufTy).Contents (Elt F) → (⟨S16x900x3x256, .f32⟩ : BufTy).Contents (Elt F)),
    StableHlo.unary main_arg11 main_v14 ((extractStridedSlice S16x1x3 ![0, 0, 0] · slices_S16x1x4_S16x1x3_0_0_0) : (⟨S16x1x4, .i1⟩ : BufTy).Contents (Elt F) → (⟨S16x1x3, .i1⟩ : BufTy).Contents (Elt F)),
    StableHlo.unary main_arg10 main_v15 ((extractStridedSlice S16x1x3x256 ![0, 0, 0, 0] · slices_S16x1x4x256_S16x1x3x256_0_0_0_0) : (⟨S16x1x4x256, .f32⟩ : BufTy).Contents (Elt F) → (⟨S16x1x3x256, .f32⟩ : BufTy).Contents (Elt F)),
    StableHlo.nullary main_c_0 (constantI S_ 1 0#1),
    StableHlo.binary main_v14 main_c_0 main_v16 ((fun x v => Host.reduce IntOp.ori x v reducesTo_S16x1x3_S_d0_1_2 h_S_) : (⟨S16x1x3, .i1⟩ : BufTy).Contents (Elt F) → (⟨S_, .i1⟩ : BufTy).Contents (Elt F) → (⟨S_, .i1⟩ : BufTy).Contents (Elt F)),
    StableHlo.nullary main_c_1 (constantI S_ 1 1#1),
    StableHlo.binary main_v14 main_c_1 main_v17 ((fun x v => Host.reduce IntOp.andi x v reducesTo_S16x1x3_S16_d1_2 h_S_) : (⟨S16x1x3, .i1⟩ : BufTy).Contents (Elt F) → (⟨S_, .i1⟩ : BufTy).Contents (Elt F) → (⟨S16, .i1⟩ : BufTy).Contents (Elt F)),
    StableHlo.reshape main_v14 main_v18 rfl shapeCasts_S16x1x3_S16x3 ]
/-- The body of the helper called at call 4. -/
abbrev ops_9 : List (HloOp τ sig (Elt F)) :=
  [ StableHlo.TRef.nullary (.of main_call4_v0 : StableHlo.TRef sig ⟨S16x3, .i32⟩) (iotaInDim S16x3 32 1),
    StableHlo.TRef.nullary (.of main_call4_c : StableHlo.TRef sig ⟨S_, .i1⟩) (constantI S_ 1 1#1),
    StableHlo.TRef.nullary (.of main_call4_c_0 : StableHlo.TRef sig ⟨S_, .i32⟩) (constantI S_ 32 0#32),
    StableHlo.TRef.quaternary (.of main_v18 : StableHlo.TRef sig ⟨S16x3, .i1⟩) (.of main_call4_v0 : StableHlo.TRef sig ⟨S16x3, .i32⟩) (.of main_call4_c : StableHlo.TRef sig ⟨S_, .i1⟩) (.of main_call4_c_0 : StableHlo.TRef sig ⟨S_, .i32⟩) (.of main_call4_v1_0 : StableHlo.TRef sig ⟨S16, .i1⟩) (fun x y u v j => (Host.reduce2 reducer_argmin_i1_i32 x y u v reducesTo_S16x3_S16_d1 h_S_ j).1),
    StableHlo.TRef.quaternary (.of main_v18 : StableHlo.TRef sig ⟨S16x3, .i1⟩) (.of main_call4_v0 : StableHlo.TRef sig ⟨S16x3, .i32⟩) (.of main_call4_c : StableHlo.TRef sig ⟨S_, .i1⟩) (.of main_call4_c_0 : StableHlo.TRef sig ⟨S_, .i32⟩) (.of main_v19 : StableHlo.TRef sig ⟨S16, .i32⟩) (fun x y u v j => (Host.reduce2 reducer_argmin_i1_i32 x y u v reducesTo_S16x3_S16_d1 h_S_ j).2) ]
/-- A stretch of the entry function's own operations. -/
abbrev ops_10 : List (HloOp τ sig (Elt F)) :=
  [ StableHlo.unary main_v19 main_v20 (broadcastInDim S16x1x1x1 ![0] bcast_S16_S16x1x1x1_0 : (⟨S16, .i32⟩ : BufTy).Contents (Elt F) → (⟨S16x1x1x1, .i32⟩ : BufTy).Contents (Elt F)) ]
/-- The body of the helper called at call 5. -/
abbrev ops_11 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S16x1x1x1, .i32⟩) (broadcastInDim S16x1x1x1 ![] bcast_S_S16x1x1x1),
    StableHlo.TRef.binary (.of main_v20 : StableHlo.TRef sig ⟨S16x1x1x1, .i32⟩) (.of main_call5_v0 : StableHlo.TRef sig ⟨S16x1x1x1, .i32⟩) (.of main_call5_v1 : StableHlo.TRef sig ⟨S16x1x1x1, .i1⟩) (cmpi .slt),
    StableHlo.TRef.nullary (.of main_call5_c_0 : StableHlo.TRef sig ⟨S_, .i32⟩) (constantI S_ 32 3#32),
    StableHlo.TRef.unary (.of main_call5_c_0 : StableHlo.TRef sig ⟨S_, .i32⟩) (.of main_call5_v2 : StableHlo.TRef sig ⟨S16x1x1x1, .i32⟩) (broadcastInDim S16x1x1x1 ![] bcast_S_S16x1x1x1),
    StableHlo.TRef.binary (.of main_v20 : StableHlo.TRef sig ⟨S16x1x1x1, .i32⟩) (.of main_call5_v2 : StableHlo.TRef sig ⟨S16x1x1x1, .i32⟩) (.of main_call5_v3 : StableHlo.TRef sig ⟨S16x1x1x1, .i32⟩) addi,
    StableHlo.TRef.ternary (.of main_call5_v1 : StableHlo.TRef sig ⟨S16x1x1x1, .i1⟩) (.of main_call5_v3 : StableHlo.TRef sig ⟨S16x1x1x1, .i32⟩) (.of main_v20 : StableHlo.TRef sig ⟨S16x1x1x1, .i32⟩) (.of main_call5_v4 : StableHlo.TRef sig ⟨S16x1x1x1, .i32⟩) select,
    StableHlo.TRef.reshape (.of main_call5_v4 : StableHlo.TRef sig ⟨S16x1x1x1, .i32⟩) (.of main_call5_v5 : StableHlo.TRef sig ⟨S16x1x1, .i32⟩) rfl shapeCasts_S16x1x1x1_S16x1x1,
    StableHlo.TRef.nullary (.of main_call5_c_1 : StableHlo.TRef sig ⟨S1, .i32⟩) (constantI S1 32 2#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S16x1x1, .i32⟩) (broadcastInDim S16x1x1 ![] bcast_S_S16x1x1),
    StableHlo.TRef.binary (.of main_call5_v5 : StableHlo.TRef sig ⟨S16x1x1, .i32⟩) (.of main_call5_v6 : StableHlo.TRef sig ⟨S16x1x1, .i32⟩) (.of main_call5_v7 : StableHlo.TRef sig ⟨S16x1x1, .i1⟩) (cmpi .sge),
    StableHlo.TRef.unary (.of main_call5_c_1 : StableHlo.TRef sig ⟨S1, .i32⟩) (.of main_call5_v8 : StableHlo.TRef sig ⟨S1x1x1, .i32⟩) (broadcastInDim S1x1x1 ![2] bcast_S1_S1x1x1_2),
    StableHlo.TRef.unary (.of main_call5_v8 : StableHlo.TRef sig ⟨S1x1x1, .i32⟩) (.of main_call5_v9 : StableHlo.TRef sig ⟨S16x1x1, .i32⟩) (broadcastInDim S16x1x1 ![0, 1, 2] bcast_S1x1x1_S16x1x1_0_1_2),
    StableHlo.TRef.binary (.of main_call5_v5 : StableHlo.TRef sig ⟨S16x1x1, .i32⟩) (.of main_call5_v9 : StableHlo.TRef sig ⟨S16x1x1, .i32⟩) (.of main_call5_v10 : StableHlo.TRef sig ⟨S16x1x1, .i1⟩) (cmpi .sle),
    StableHlo.TRef.binary (.of main_call5_v7 : StableHlo.TRef sig ⟨S16x1x1, .i1⟩) (.of main_call5_v10 : StableHlo.TRef sig ⟨S16x1x1, .i1⟩) (.of main_call5_v11 : StableHlo.TRef sig ⟨S16x1x1, .i1⟩) andi,
    StableHlo.TRef.nullary (.of main_call5_c_3 : StableHlo.TRef sig ⟨S_, .i1⟩) (constantI S_ 1 1#1),
    StableHlo.TRef.binary (.of main_call5_v11 : StableHlo.TRef sig ⟨S16x1x1, .i1⟩) (.of main_call5_c_3 : StableHlo.TRef sig ⟨S_, .i1⟩) (.of main_call5_v12 : StableHlo.TRef sig ⟨S16x1, .i1⟩) (fun x v => Host.reduce IntOp.andi x v reducesTo_S16x1x1_S16x1_d2 h_S_),
    StableHlo.TRef.binary (.of main_v15 : StableHlo.TRef sig ⟨S16x1x3x256, .f32⟩) (.of main_call5_v5 : StableHlo.TRef sig ⟨S16x1x1, .i32⟩) (.of main_call5_v13 : StableHlo.TRef sig ⟨S16x1x1x256, .f32⟩) (fun x i => Host.gather gather_S16x1x3x256_S16x1x1_S16x1x1x256_13_2_0_0_2_2_111256 x i),
    StableHlo.TRef.unary (.of main_call5_v12 : StableHlo.TRef sig ⟨S16x1, .i1⟩) (.of main_call5_v14 : StableHlo.TRef sig ⟨S16x1x1x256, .i1⟩) (broadcastInDim S16x1x1x256 ![0, 2] bcast_S16x1_S16x1x1x256_0_2),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v15 : StableHlo.TRef sig ⟨S16x1x1x256, .f32⟩) (broadcastInDim S16x1x1x256 ![] bcast_S_S16x1x1x256),
    StableHlo.TRef.ternary (.of main_call5_v14 : StableHlo.TRef sig ⟨S16x1x1x256, .i1⟩) (.of main_call5_v13 : StableHlo.TRef sig ⟨S16x1x1x256, .f32⟩) (.of main_call5_v15 : StableHlo.TRef sig ⟨S16x1x1x256, .f32⟩) (.of main_v21 : StableHlo.TRef sig ⟨S16x1x1x256, .f32⟩) select ]
/-- A stretch of the entry function's own operations. -/
abbrev ops_12 : List (HloOp τ sig (Elt F)) :=
  [ StableHlo.reshape main_v21 main_v22 rfl shapeCasts_S16x1x1x256_S16x1x256,
    StableHlo.unary main_arg10 main_v23 ((extractStridedSlice S16x1x1x256 ![0, 0, 3, 0] · slices_S16x1x4x256_S16x1x1x256_0_0_3_0) : (⟨S16x1x4x256, .f32⟩ : BufTy).Contents (Elt F) → (⟨S16x1x1x256, .f32⟩ : BufTy).Contents (Elt F)),
    StableHlo.reshape main_v23 main_v24 rfl shapeCasts_S16x1x1x256_S16x1x256,
    StableHlo.unary main_v17 main_v25 (broadcastInDim S16x1x1 ![0] bcast_S16_S16x1x1_0 : (⟨S16, .i1⟩ : BufTy).Contents (Elt F) → (⟨S16x1x1, .i1⟩ : BufTy).Contents (Elt F)) ]
/-- The body of the helper called at call 6. -/
abbrev ops_13 : List (HloOp τ sig (Elt F)) :=
  [ StableHlo.TRef.unary (.of main_v25 : StableHlo.TRef sig ⟨S16x1x1, .i1⟩) (.of main_call6_v0 : StableHlo.TRef sig ⟨S16x1x256, .i1⟩) (broadcastInDim S16x1x256 ![0, 1, 2] bcast_S16x1x1_S16x1x256_0_1_2),
    StableHlo.TRef.ternary (.of main_call6_v0 : StableHlo.TRef sig ⟨S16x1x256, .i1⟩) (.of main_v24 : StableHlo.TRef sig ⟨S16x1x256, .f32⟩) (.of main_v22 : StableHlo.TRef sig ⟨S16x1x256, .f32⟩) (.of main_v26 : StableHlo.TRef sig ⟨S16x1x256, .f32⟩) select ]
/-- A stretch of the entry function's own operations. -/
abbrev ops_14 : List (HloOp τ sig (Elt F)) :=
  [ StableHlo.nullary main_v27 (iotaInDim S3 32 0),
    StableHlo.unary main_v17 main_v28 (broadcastInDim S16x1 ![0] bcast_S16_S16x1_0 : (⟨S16, .i1⟩ : BufTy).Contents (Elt F) → (⟨S16x1, .i1⟩ : BufTy).Contents (Elt F)),
    StableHlo.unary main_v27 main_v29 (broadcastInDim S1x3 ![1] bcast_S3_S1x3_1 : (⟨S3, .i32⟩ : BufTy).Contents (Elt F) → (⟨S1x3, .i32⟩ : BufTy).Contents (Elt F)),
    StableHlo.unary main_v19 main_v30 (broadcastInDim S16x1 ![0] bcast_S16_S16x1_0 : (⟨S16, .i32⟩ : BufTy).Contents (Elt F) → (⟨S16x1, .i32⟩ : BufTy).Contents (Elt F)),
    StableHlo.unary main_v29 main_v31 (broadcastInDim S16x3 ![0, 1] bcast_S1x3_S16x3_0_1 : (⟨S1x3, .i32⟩ : BufTy).Contents (Elt F) → (⟨S16x3, .i32⟩ : BufTy).Contents (Elt F)),
    StableHlo.unary main_v30 main_v32 (broadcastInDim S16x3 ![0, 1] bcast_S16x1_S16x3_0_1 : (⟨S16x1, .i32⟩ : BufTy).Contents (Elt F) → (⟨S16x3, .i32⟩ : BufTy).Contents (Elt F)),
    StableHlo.binary main_v31 main_v32 main_v33 (cmpi .slt : (⟨S16x3, .i32⟩ : BufTy).Contents (Elt F) → (⟨S16x3, .i32⟩ : BufTy).Contents (Elt F) → (⟨S16x3, .i1⟩ : BufTy).Contents (Elt F)),
    StableHlo.unary main_v28 main_v34 (broadcastInDim S16x3 ![0, 1] bcast_S16x1_S16x3_0_1 : (⟨S16x1, .i1⟩ : BufTy).Contents (Elt F) → (⟨S16x3, .i1⟩ : BufTy).Contents (Elt F)),
    StableHlo.binary main_v34 main_v33 main_v35 (ori : (⟨S16x3, .i1⟩ : BufTy).Contents (Elt F) → (⟨S16x3, .i1⟩ : BufTy).Contents (Elt F) → (⟨S16x3, .i1⟩ : BufTy).Contents (Elt F)),
    StableHlo.unary main_v35 main_v36 (broadcastInDim S16x1x3x1 ![0, 2] bcast_S16x3_S16x1x3x1_0_2 : (⟨S16x3, .i1⟩ : BufTy).Contents (Elt F) → (⟨S16x1x3x1, .i1⟩ : BufTy).Contents (Elt F)),
    StableHlo.unary main_v16 main_v37 (broadcastInDim S16x1x3x1 ![] bcast_S_S16x1x3x1 : (⟨S_, .i1⟩ : BufTy).Contents (Elt F) → (⟨S16x1x3x1, .i1⟩ : BufTy).Contents (Elt F)),
    StableHlo.binary main_v37 main_v36 main_v38 (andi : (⟨S16x1x3x1, .i1⟩ : BufTy).Contents (Elt F) → (⟨S16x1x3x1, .i1⟩ : BufTy).Contents (Elt F) → (⟨S16x1x3x1, .i1⟩ : BufTy).Contents (Elt F)),
    StableHlo.unary main_v26 main_v39 (broadcastInDim S16x1x1x256 ![0, 1, 3] bcast_S16x1x256_S16x1x1x256_0_1_3 : (⟨S16x1x256, .f32⟩ : BufTy).Contents (Elt F) → (⟨S16x1x1x256, .f32⟩ : BufTy).Contents (Elt F)) ]
/-- The body of the helper called at call 7. -/
abbrev ops_15 : List (HloOp τ sig (Elt F)) :=
  [ StableHlo.TRef.unary (.of main_v38 : StableHlo.TRef sig ⟨S16x1x3x1, .i1⟩) (.of main_call7_v0 : StableHlo.TRef sig ⟨S16x1x3x256, .i1⟩) (broadcastInDim S16x1x3x256 ![0, 1, 2, 3] bcast_S16x1x3x1_S16x1x3x256_0_1_2_3),
    StableHlo.TRef.unary (.of main_v39 : StableHlo.TRef sig ⟨S16x1x1x256, .f32⟩) (.of main_call7_v1 : StableHlo.TRef sig ⟨S16x1x3x256, .f32⟩) (broadcastInDim S16x1x3x256 ![0, 1, 2, 3] bcast_S16x1x1x256_S16x1x3x256_0_1_2_3),
    StableHlo.TRef.ternary (.of main_call7_v0 : StableHlo.TRef sig ⟨S16x1x3x256, .i1⟩) (.of main_call7_v1 : StableHlo.TRef sig ⟨S16x1x3x256, .f32⟩) (.of main_v15 : StableHlo.TRef sig ⟨S16x1x3x256, .f32⟩) (.of main_v40 : StableHlo.TRef sig ⟨S16x1x3x256, .f32⟩) select ]
/-- A stretch of the entry function's own operations. -/
abbrev ops_16 : List (HloOp τ sig (Elt F)) :=
  [ StableHlo.unary main_v12 main_v41 ((transpose S16x3x900 [0, 2, 1] · transposes_S16x900x3_S16x3x900_0_2_1) : (⟨S16x900x3, .i1⟩ : BufTy).Contents (Elt F) → (⟨S16x3x900, .i1⟩ : BufTy).Contents (Elt F)),
    StableHlo.unary main_v13 main_v42 ((transpose S16x3x900x256 [0, 2, 1, 3] · transposes_S16x900x3x256_S16x3x900x256_0_2_1_3) : (⟨S16x900x3x256, .f32⟩ : BufTy).Contents (Elt F) → (⟨S16x3x900x256, .f32⟩ : BufTy).Contents (Elt F)),
    StableHlo.unary main_v14 main_v43 ((transpose S16x3x1 [0, 2, 1] · transposes_S16x1x3_S16x3x1_0_2_1) : (⟨S16x1x3, .i1⟩ : BufTy).Contents (Elt F) → (⟨S16x3x1, .i1⟩ : BufTy).Contents (Elt F)),
    StableHlo.unary main_v40 main_v44 ((transpose S16x3x1x256 [0, 2, 1, 3] · transposes_S16x1x3x256_S16x3x1x256_0_2_1_3) : (⟨S16x1x3x256, .f32⟩ : BufTy).Contents (Elt F) → (⟨S16x3x1x256, .f32⟩ : BufTy).Contents (Elt F)) ]

/-- The entry function's operations in program order, each helper's body written out at its call over that
    call's own buffers: the four queue resets (a negated mask broadcast against the current value and the queue,
    then a selection), the four slices of the temporal window, the flags `any` and `all` of the sliced ego
    mask, the index of its first false entry, the embedding read at that index, the replacement chosen between
    it and the last frame, the overwrite mask, the final selection, and the four transposes. -/
abbrev ops : List (HloOp τ sig (Elt F)) :=
  [ StableHlo.unary main_arg7 main_v0 (noti : (⟨S16, .i1⟩ : BufTy).Contents (Elt F) → (⟨S16, .i1⟩ : BufTy).Contents (Elt F)),
    StableHlo.unary main_v0 main_v1 (broadcastInDim S16x1x1x1 ![0] bcast_S16_S16x1x1x1_0 : (⟨S16, .i1⟩ : BufTy).Contents (Elt F) → (⟨S16x1x1x1, .i1⟩ : BufTy).Contents (Elt F)),
    StableHlo.unary main_arg0 main_v2 (broadcastInDim S16x1x900x256 ![0, 2, 3] bcast_S16x900x256_S16x1x900x256_0_2_3 : (⟨S16x900x256, .f32⟩ : BufTy).Contents (Elt F) → (⟨S16x1x900x256, .f32⟩ : BufTy).Contents (Elt F)),
    StableHlo.TRef.unary (.of main_v1 : StableHlo.TRef sig ⟨S16x1x1x1, .i1⟩) (.of main_call0_v0 : StableHlo.TRef sig ⟨S16x4x900x256, .i1⟩) (broadcastInDim S16x4x900x256 ![0, 1, 2, 3] bcast_S16x1x1x1_S16x4x900x256_0_1_2_3),
    StableHlo.TRef.unary (.of main_v2 : StableHlo.TRef sig ⟨S16x1x900x256, .f32⟩) (.of main_call0_v1 : StableHlo.TRef sig ⟨S16x4x900x256, .f32⟩) (broadcastInDim S16x4x900x256 ![0, 1, 2, 3] bcast_S16x1x900x256_S16x4x900x256_0_1_2_3),
    StableHlo.TRef.ternary (.of main_call0_v0 : StableHlo.TRef sig ⟨S16x4x900x256, .i1⟩) (.of main_call0_v1 : StableHlo.TRef sig ⟨S16x4x900x256, .f32⟩) (.of main_arg3 : StableHlo.TRef sig ⟨S16x4x900x256, .f32⟩) (.of main_v3 : StableHlo.TRef sig ⟨S16x4x900x256, .f32⟩) select,
    StableHlo.unary main_v0 main_v4 (broadcastInDim S16x1x1x1 ![0] bcast_S16_S16x1x1x1_0 : (⟨S16, .i1⟩ : BufTy).Contents (Elt F) → (⟨S16x1x1x1, .i1⟩ : BufTy).Contents (Elt F)),
    StableHlo.unary main_arg1 main_v5 (broadcastInDim S16x1x6x256 ![0, 2, 3] bcast_S16x6x256_S16x1x6x256_0_2_3 : (⟨S16x6x256, .f32⟩ : BufTy).Contents (Elt F) → (⟨S16x1x6x256, .f32⟩ : BufTy).Contents (Elt F)),
    StableHlo.TRef.unary (.of main_v4 : StableHlo.TRef sig ⟨S16x1x1x1, .i1⟩) (.of main_call1_v0 : StableHlo.TRef sig ⟨S16x4x6x256, .i1⟩) (broadcastInDim S16x4x6x256 ![0, 1, 2, 3] bcast_S16x1x1x1_S16x4x6x256_0_1_2_3),
    StableHlo.TRef.unary (.of main_v5 : StableHlo.TRef sig ⟨S16x1x6x256, .f32⟩) (.of main_call1_v1 : StableHlo.TRef sig ⟨S16x4x6x256, .f32⟩) (broadcastInDim S16x4x6x256 ![0, 1, 2, 3] bcast_S16x1x6x256_S16x4x6x256_0_1_2_3),
    StableHlo.TRef.ternary (.of main_call1_v0 : StableHlo.TRef sig ⟨S16x4x6x256, .i1⟩) (.of main_call1_v1 : StableHlo.TRef sig ⟨S16x4x6x256, .f32⟩) (.of main_arg4 : StableHlo.TRef sig ⟨S16x4x6x256, .f32⟩) (.of main_v6 : StableHlo.TRef sig ⟨S16x4x6x256, .f32⟩) select,
    StableHlo.unary main_v0 main_v7 (broadcastInDim S16x1x1 ![0] bcast_S16_S16x1x1_0 : (⟨S16, .i1⟩ : BufTy).Contents (Elt F) → (⟨S16x1x1, .i1⟩ : BufTy).Contents (Elt F)),
    StableHlo.unary main_arg2 main_v8 (broadcastInDim S16x1x256 ![0, 2] bcast_S16x256_S16x1x256_0_2 : (⟨S16x256, .f32⟩ : BufTy).Contents (Elt F) → (⟨S16x1x256, .f32⟩ : BufTy).Contents (Elt F)),
    StableHlo.TRef.unary (.of main_v7 : StableHlo.TRef sig ⟨S16x1x1, .i1⟩) (.of main_call2_v0 : StableHlo.TRef sig ⟨S16x4x256, .i1⟩) (broadcastInDim S16x4x256 ![0, 1, 2] bcast_S16x1x1_S16x4x256_0_1_2),
    StableHlo.TRef.unary (.of main_v8 : StableHlo.TRef sig ⟨S16x1x256, .f32⟩) (.of main_call2_v1 : StableHlo.TRef sig ⟨S16x4x256, .f32⟩) (broadcastInDim S16x4x256 ![0, 1, 2] bcast_S16x1x256_S16x4x256_0_1_2),
    StableHlo.TRef.ternary (.of main_call2_v0 : StableHlo.TRef sig ⟨S16x4x256, .i1⟩) (.of main_call2_v1 : StableHlo.TRef sig ⟨S16x4x256, .f32⟩) (.of main_arg5 : StableHlo.TRef sig ⟨S16x4x256, .f32⟩) (.of main_v9 : StableHlo.TRef sig ⟨S16x4x256, .f32⟩) select,
    StableHlo.unary main_v0 main_v10 (broadcastInDim S16x1 ![0] bcast_S16_S16x1_0 : (⟨S16, .i1⟩ : BufTy).Contents (Elt F) → (⟨S16x1, .i1⟩ : BufTy).Contents (Elt F)),
    StableHlo.nullary main_c (constantI S_ 32 0#32),
    StableHlo.TRef.unary (.of main_c : StableHlo.TRef sig ⟨S_, .i32⟩) (.of main_call3_v0 : StableHlo.TRef sig ⟨S_, .i32⟩) id,
    StableHlo.TRef.unary (.of main_v10 : StableHlo.TRef sig ⟨S16x1, .i1⟩) (.of main_call3_v1 : StableHlo.TRef sig ⟨S16x4, .i1⟩) (broadcastInDim S16x4 ![0, 1] bcast_S16x1_S16x4_0_1),
    StableHlo.TRef.unary (.of main_call3_v0 : StableHlo.TRef sig ⟨S_, .i32⟩) (.of main_call3_v2 : StableHlo.TRef sig ⟨S16x4, .i32⟩) (broadcastInDim S16x4 ![] bcast_S_S16x4),
    StableHlo.TRef.ternary (.of main_call3_v1 : StableHlo.TRef sig ⟨S16x4, .i1⟩) (.of main_call3_v2 : StableHlo.TRef sig ⟨S16x4, .i32⟩) (.of main_arg6 : StableHlo.TRef sig ⟨S16x4, .i32⟩) (.of main_v11 : StableHlo.TRef sig ⟨S16x4, .i32⟩) select,
    StableHlo.unary main_arg9 main_v12 ((extractStridedSlice S16x900x3 ![0, 0, 0] · slices_S16x900x4_S16x900x3_0_0_0) : (⟨S16x900x4, .i1⟩ : BufTy).Contents (Elt F) → (⟨S16x900x3, .i1⟩ : BufTy).Contents (Elt F)),
    StableHlo.unary main_arg8 main_v13 ((extractStridedSlice S16x900x3x256 ![0, 0, 0, 0] · slices_S16x900x4x256_S16x900x3x256_0_0_0_0) : (⟨S16x900x4x256, .f32⟩ : BufTy).Contents (Elt F) → (⟨S16x900x3x256, .f32⟩ : BufTy).Contents (Elt F)),
    StableHlo.unary main_arg11 main_v14 ((extractStridedSlice S16x1x3 ![0, 0, 0] · slices_S16x1x4_S16x1x3_0_0_0) : (⟨S16x1x4, .i1⟩ : BufTy).Contents (Elt F) → (⟨S16x1x3, .i1⟩ : BufTy).Contents (Elt F)),
    StableHlo.unary main_arg10 main_v15 ((extractStridedSlice S16x1x3x256 ![0, 0, 0, 0] · slices_S16x1x4x256_S16x1x3x256_0_0_0_0) : (⟨S16x1x4x256, .f32⟩ : BufTy).Contents (Elt F) → (⟨S16x1x3x256, .f32⟩ : BufTy).Contents (Elt F)),
    StableHlo.nullary main_c_0 (constantI S_ 1 0#1),
    StableHlo.binary main_v14 main_c_0 main_v16 ((fun x v => Host.reduce IntOp.ori x v reducesTo_S16x1x3_S_d0_1_2 h_S_) : (⟨S16x1x3, .i1⟩ : BufTy).Contents (Elt F) → (⟨S_, .i1⟩ : BufTy).Contents (Elt F) → (⟨S_, .i1⟩ : BufTy).Contents (Elt F)),
    StableHlo.nullary main_c_1 (constantI S_ 1 1#1),
    StableHlo.binary main_v14 main_c_1 main_v17 ((fun x v => Host.reduce IntOp.andi x v reducesTo_S16x1x3_S16_d1_2 h_S_) : (⟨S16x1x3, .i1⟩ : BufTy).Contents (Elt F) → (⟨S_, .i1⟩ : BufTy).Contents (Elt F) → (⟨S16, .i1⟩ : BufTy).Contents (Elt F)),
    StableHlo.reshape main_v14 main_v18 rfl shapeCasts_S16x1x3_S16x3,
    StableHlo.TRef.nullary (.of main_call4_v0 : StableHlo.TRef sig ⟨S16x3, .i32⟩) (iotaInDim S16x3 32 1),
    StableHlo.TRef.nullary (.of main_call4_c : StableHlo.TRef sig ⟨S_, .i1⟩) (constantI S_ 1 1#1),
    StableHlo.TRef.nullary (.of main_call4_c_0 : StableHlo.TRef sig ⟨S_, .i32⟩) (constantI S_ 32 0#32),
    StableHlo.TRef.quaternary (.of main_v18 : StableHlo.TRef sig ⟨S16x3, .i1⟩) (.of main_call4_v0 : StableHlo.TRef sig ⟨S16x3, .i32⟩) (.of main_call4_c : StableHlo.TRef sig ⟨S_, .i1⟩) (.of main_call4_c_0 : StableHlo.TRef sig ⟨S_, .i32⟩) (.of main_call4_v1_0 : StableHlo.TRef sig ⟨S16, .i1⟩) (fun x y u v j => (Host.reduce2 reducer_argmin_i1_i32 x y u v reducesTo_S16x3_S16_d1 h_S_ j).1),
    StableHlo.TRef.quaternary (.of main_v18 : StableHlo.TRef sig ⟨S16x3, .i1⟩) (.of main_call4_v0 : StableHlo.TRef sig ⟨S16x3, .i32⟩) (.of main_call4_c : StableHlo.TRef sig ⟨S_, .i1⟩) (.of main_call4_c_0 : StableHlo.TRef sig ⟨S_, .i32⟩) (.of main_v19 : StableHlo.TRef sig ⟨S16, .i32⟩) (fun x y u v j => (Host.reduce2 reducer_argmin_i1_i32 x y u v reducesTo_S16x3_S16_d1 h_S_ j).2),
    StableHlo.unary main_v19 main_v20 (broadcastInDim S16x1x1x1 ![0] bcast_S16_S16x1x1x1_0 : (⟨S16, .i32⟩ : BufTy).Contents (Elt F) → (⟨S16x1x1x1, .i32⟩ : BufTy).Contents (Elt F)),
    StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S16x1x1x1, .i32⟩) (broadcastInDim S16x1x1x1 ![] bcast_S_S16x1x1x1),
    StableHlo.TRef.binary (.of main_v20 : StableHlo.TRef sig ⟨S16x1x1x1, .i32⟩) (.of main_call5_v0 : StableHlo.TRef sig ⟨S16x1x1x1, .i32⟩) (.of main_call5_v1 : StableHlo.TRef sig ⟨S16x1x1x1, .i1⟩) (cmpi .slt),
    StableHlo.TRef.nullary (.of main_call5_c_0 : StableHlo.TRef sig ⟨S_, .i32⟩) (constantI S_ 32 3#32),
    StableHlo.TRef.unary (.of main_call5_c_0 : StableHlo.TRef sig ⟨S_, .i32⟩) (.of main_call5_v2 : StableHlo.TRef sig ⟨S16x1x1x1, .i32⟩) (broadcastInDim S16x1x1x1 ![] bcast_S_S16x1x1x1),
    StableHlo.TRef.binary (.of main_v20 : StableHlo.TRef sig ⟨S16x1x1x1, .i32⟩) (.of main_call5_v2 : StableHlo.TRef sig ⟨S16x1x1x1, .i32⟩) (.of main_call5_v3 : StableHlo.TRef sig ⟨S16x1x1x1, .i32⟩) addi,
    StableHlo.TRef.ternary (.of main_call5_v1 : StableHlo.TRef sig ⟨S16x1x1x1, .i1⟩) (.of main_call5_v3 : StableHlo.TRef sig ⟨S16x1x1x1, .i32⟩) (.of main_v20 : StableHlo.TRef sig ⟨S16x1x1x1, .i32⟩) (.of main_call5_v4 : StableHlo.TRef sig ⟨S16x1x1x1, .i32⟩) select,
    StableHlo.TRef.reshape (.of main_call5_v4 : StableHlo.TRef sig ⟨S16x1x1x1, .i32⟩) (.of main_call5_v5 : StableHlo.TRef sig ⟨S16x1x1, .i32⟩) rfl shapeCasts_S16x1x1x1_S16x1x1,
    StableHlo.TRef.nullary (.of main_call5_c_1 : StableHlo.TRef sig ⟨S1, .i32⟩) (constantI S1 32 2#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S16x1x1, .i32⟩) (broadcastInDim S16x1x1 ![] bcast_S_S16x1x1),
    StableHlo.TRef.binary (.of main_call5_v5 : StableHlo.TRef sig ⟨S16x1x1, .i32⟩) (.of main_call5_v6 : StableHlo.TRef sig ⟨S16x1x1, .i32⟩) (.of main_call5_v7 : StableHlo.TRef sig ⟨S16x1x1, .i1⟩) (cmpi .sge),
    StableHlo.TRef.unary (.of main_call5_c_1 : StableHlo.TRef sig ⟨S1, .i32⟩) (.of main_call5_v8 : StableHlo.TRef sig ⟨S1x1x1, .i32⟩) (broadcastInDim S1x1x1 ![2] bcast_S1_S1x1x1_2),
    StableHlo.TRef.unary (.of main_call5_v8 : StableHlo.TRef sig ⟨S1x1x1, .i32⟩) (.of main_call5_v9 : StableHlo.TRef sig ⟨S16x1x1, .i32⟩) (broadcastInDim S16x1x1 ![0, 1, 2] bcast_S1x1x1_S16x1x1_0_1_2),
    StableHlo.TRef.binary (.of main_call5_v5 : StableHlo.TRef sig ⟨S16x1x1, .i32⟩) (.of main_call5_v9 : StableHlo.TRef sig ⟨S16x1x1, .i32⟩) (.of main_call5_v10 : StableHlo.TRef sig ⟨S16x1x1, .i1⟩) (cmpi .sle),
    StableHlo.TRef.binary (.of main_call5_v7 : StableHlo.TRef sig ⟨S16x1x1, .i1⟩) (.of main_call5_v10 : StableHlo.TRef sig ⟨S16x1x1, .i1⟩) (.of main_call5_v11 : StableHlo.TRef sig ⟨S16x1x1, .i1⟩) andi,
    StableHlo.TRef.nullary (.of main_call5_c_3 : StableHlo.TRef sig ⟨S_, .i1⟩) (constantI S_ 1 1#1),
    StableHlo.TRef.binary (.of main_call5_v11 : StableHlo.TRef sig ⟨S16x1x1, .i1⟩) (.of main_call5_c_3 : StableHlo.TRef sig ⟨S_, .i1⟩) (.of main_call5_v12 : StableHlo.TRef sig ⟨S16x1, .i1⟩) (fun x v => Host.reduce IntOp.andi x v reducesTo_S16x1x1_S16x1_d2 h_S_),
    StableHlo.TRef.binary (.of main_v15 : StableHlo.TRef sig ⟨S16x1x3x256, .f32⟩) (.of main_call5_v5 : StableHlo.TRef sig ⟨S16x1x1, .i32⟩) (.of main_call5_v13 : StableHlo.TRef sig ⟨S16x1x1x256, .f32⟩) (fun x i => Host.gather gather_S16x1x3x256_S16x1x1_S16x1x1x256_13_2_0_0_2_2_111256 x i),
    StableHlo.TRef.unary (.of main_call5_v12 : StableHlo.TRef sig ⟨S16x1, .i1⟩) (.of main_call5_v14 : StableHlo.TRef sig ⟨S16x1x1x256, .i1⟩) (broadcastInDim S16x1x1x256 ![0, 2] bcast_S16x1_S16x1x1x256_0_2),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v15 : StableHlo.TRef sig ⟨S16x1x1x256, .f32⟩) (broadcastInDim S16x1x1x256 ![] bcast_S_S16x1x1x256),
    StableHlo.TRef.ternary (.of main_call5_v14 : StableHlo.TRef sig ⟨S16x1x1x256, .i1⟩) (.of main_call5_v13 : StableHlo.TRef sig ⟨S16x1x1x256, .f32⟩) (.of main_call5_v15 : StableHlo.TRef sig ⟨S16x1x1x256, .f32⟩) (.of main_v21 : StableHlo.TRef sig ⟨S16x1x1x256, .f32⟩) select,
    StableHlo.reshape main_v21 main_v22 rfl shapeCasts_S16x1x1x256_S16x1x256,
    StableHlo.unary main_arg10 main_v23 ((extractStridedSlice S16x1x1x256 ![0, 0, 3, 0] · slices_S16x1x4x256_S16x1x1x256_0_0_3_0) : (⟨S16x1x4x256, .f32⟩ : BufTy).Contents (Elt F) → (⟨S16x1x1x256, .f32⟩ : BufTy).Contents (Elt F)),
    StableHlo.reshape main_v23 main_v24 rfl shapeCasts_S16x1x1x256_S16x1x256,
    StableHlo.unary main_v17 main_v25 (broadcastInDim S16x1x1 ![0] bcast_S16_S16x1x1_0 : (⟨S16, .i1⟩ : BufTy).Contents (Elt F) → (⟨S16x1x1, .i1⟩ : BufTy).Contents (Elt F)),
    StableHlo.TRef.unary (.of main_v25 : StableHlo.TRef sig ⟨S16x1x1, .i1⟩) (.of main_call6_v0 : StableHlo.TRef sig ⟨S16x1x256, .i1⟩) (broadcastInDim S16x1x256 ![0, 1, 2] bcast_S16x1x1_S16x1x256_0_1_2),
    StableHlo.TRef.ternary (.of main_call6_v0 : StableHlo.TRef sig ⟨S16x1x256, .i1⟩) (.of main_v24 : StableHlo.TRef sig ⟨S16x1x256, .f32⟩) (.of main_v22 : StableHlo.TRef sig ⟨S16x1x256, .f32⟩) (.of main_v26 : StableHlo.TRef sig ⟨S16x1x256, .f32⟩) select,
    StableHlo.nullary main_v27 (iotaInDim S3 32 0),
    StableHlo.unary main_v17 main_v28 (broadcastInDim S16x1 ![0] bcast_S16_S16x1_0 : (⟨S16, .i1⟩ : BufTy).Contents (Elt F) → (⟨S16x1, .i1⟩ : BufTy).Contents (Elt F)),
    StableHlo.unary main_v27 main_v29 (broadcastInDim S1x3 ![1] bcast_S3_S1x3_1 : (⟨S3, .i32⟩ : BufTy).Contents (Elt F) → (⟨S1x3, .i32⟩ : BufTy).Contents (Elt F)),
    StableHlo.unary main_v19 main_v30 (broadcastInDim S16x1 ![0] bcast_S16_S16x1_0 : (⟨S16, .i32⟩ : BufTy).Contents (Elt F) → (⟨S16x1, .i32⟩ : BufTy).Contents (Elt F)),
    StableHlo.unary main_v29 main_v31 (broadcastInDim S16x3 ![0, 1] bcast_S1x3_S16x3_0_1 : (⟨S1x3, .i32⟩ : BufTy).Contents (Elt F) → (⟨S16x3, .i32⟩ : BufTy).Contents (Elt F)),
    StableHlo.unary main_v30 main_v32 (broadcastInDim S16x3 ![0, 1] bcast_S16x1_S16x3_0_1 : (⟨S16x1, .i32⟩ : BufTy).Contents (Elt F) → (⟨S16x3, .i32⟩ : BufTy).Contents (Elt F)),
    StableHlo.binary main_v31 main_v32 main_v33 (cmpi .slt : (⟨S16x3, .i32⟩ : BufTy).Contents (Elt F) → (⟨S16x3, .i32⟩ : BufTy).Contents (Elt F) → (⟨S16x3, .i1⟩ : BufTy).Contents (Elt F)),
    StableHlo.unary main_v28 main_v34 (broadcastInDim S16x3 ![0, 1] bcast_S16x1_S16x3_0_1 : (⟨S16x1, .i1⟩ : BufTy).Contents (Elt F) → (⟨S16x3, .i1⟩ : BufTy).Contents (Elt F)),
    StableHlo.binary main_v34 main_v33 main_v35 (ori : (⟨S16x3, .i1⟩ : BufTy).Contents (Elt F) → (⟨S16x3, .i1⟩ : BufTy).Contents (Elt F) → (⟨S16x3, .i1⟩ : BufTy).Contents (Elt F)),
    StableHlo.unary main_v35 main_v36 (broadcastInDim S16x1x3x1 ![0, 2] bcast_S16x3_S16x1x3x1_0_2 : (⟨S16x3, .i1⟩ : BufTy).Contents (Elt F) → (⟨S16x1x3x1, .i1⟩ : BufTy).Contents (Elt F)),
    StableHlo.unary main_v16 main_v37 (broadcastInDim S16x1x3x1 ![] bcast_S_S16x1x3x1 : (⟨S_, .i1⟩ : BufTy).Contents (Elt F) → (⟨S16x1x3x1, .i1⟩ : BufTy).Contents (Elt F)),
    StableHlo.binary main_v37 main_v36 main_v38 (andi : (⟨S16x1x3x1, .i1⟩ : BufTy).Contents (Elt F) → (⟨S16x1x3x1, .i1⟩ : BufTy).Contents (Elt F) → (⟨S16x1x3x1, .i1⟩ : BufTy).Contents (Elt F)),
    StableHlo.unary main_v26 main_v39 (broadcastInDim S16x1x1x256 ![0, 1, 3] bcast_S16x1x256_S16x1x1x256_0_1_3 : (⟨S16x1x256, .f32⟩ : BufTy).Contents (Elt F) → (⟨S16x1x1x256, .f32⟩ : BufTy).Contents (Elt F)),
    StableHlo.TRef.unary (.of main_v38 : StableHlo.TRef sig ⟨S16x1x3x1, .i1⟩) (.of main_call7_v0 : StableHlo.TRef sig ⟨S16x1x3x256, .i1⟩) (broadcastInDim S16x1x3x256 ![0, 1, 2, 3] bcast_S16x1x3x1_S16x1x3x256_0_1_2_3),
    StableHlo.TRef.unary (.of main_v39 : StableHlo.TRef sig ⟨S16x1x1x256, .f32⟩) (.of main_call7_v1 : StableHlo.TRef sig ⟨S16x1x3x256, .f32⟩) (broadcastInDim S16x1x3x256 ![0, 1, 2, 3] bcast_S16x1x1x256_S16x1x3x256_0_1_2_3),
    StableHlo.TRef.ternary (.of main_call7_v0 : StableHlo.TRef sig ⟨S16x1x3x256, .i1⟩) (.of main_call7_v1 : StableHlo.TRef sig ⟨S16x1x3x256, .f32⟩) (.of main_v15 : StableHlo.TRef sig ⟨S16x1x3x256, .f32⟩) (.of main_v40 : StableHlo.TRef sig ⟨S16x1x3x256, .f32⟩) select,
    StableHlo.unary main_v12 main_v41 ((transpose S16x3x900 [0, 2, 1] · transposes_S16x900x3_S16x3x900_0_2_1) : (⟨S16x900x3, .i1⟩ : BufTy).Contents (Elt F) → (⟨S16x3x900, .i1⟩ : BufTy).Contents (Elt F)),
    StableHlo.unary main_v13 main_v42 ((transpose S16x3x900x256 [0, 2, 1, 3] · transposes_S16x900x3x256_S16x3x900x256_0_2_1_3) : (⟨S16x900x3x256, .f32⟩ : BufTy).Contents (Elt F) → (⟨S16x3x900x256, .f32⟩ : BufTy).Contents (Elt F)),
    StableHlo.unary main_v14 main_v43 ((transpose S16x3x1 [0, 2, 1] · transposes_S16x1x3_S16x3x1_0_2_1) : (⟨S16x1x3, .i1⟩ : BufTy).Contents (Elt F) → (⟨S16x3x1, .i1⟩ : BufTy).Contents (Elt F)),
    StableHlo.unary main_v40 main_v44 ((transpose S16x3x1x256 [0, 2, 1, 3] · transposes_S16x1x3x256_S16x3x1x256_0_2_1_3) : (⟨S16x1x3x256, .f32⟩ : BufTy).Contents (Elt F) → (⟨S16x3x1x256, .f32⟩ : BufTy).Contents (Elt F)) ]

/-- The entry function is its stretches run one after the other (each helper's definition unfolds at its call). -/
theorem main_chain (c : Dev nD) : main (F := F) c = (Pipeline.chain
    [ StableHlo.seq ops_0,
      StableHlo.seq ops_1,
      StableHlo.seq ops_2,
      StableHlo.seq ops_3,
      StableHlo.seq ops_4,
      StableHlo.seq ops_5,
      StableHlo.seq ops_6,
      StableHlo.seq ops_7,
      StableHlo.seq ops_8,
      StableHlo.seq ops_9,
      StableHlo.seq ops_10,
      StableHlo.seq ops_11,
      StableHlo.seq ops_12,
      StableHlo.seq ops_13,
      StableHlo.seq ops_14,
      StableHlo.seq ops_15,
      StableHlo.seq ops_16 ] :
    Prog (TpuEff nD τ sig (Elt F) (Pipeline.Sig Λ₀ (Fin 0) fun p => (pcfgs (F := F) p).Adm) .tc) PUnit) := by
  chain_rfl

/-- The entry function is the straight line `ops`: running two lines one after the other is running their
    concatenation, and the stretches concatenated are the list. -/
theorem main_eq (c : Dev nD) : main (F := F) c = StableHlo.seq ops := by
  rw [main_chain c]
  show _ = StableHlo.seq (ops_0 ++ (ops_1 ++ (ops_2 ++ (ops_3 ++ (ops_4 ++ (ops_5 ++ (ops_6 ++ (ops_7 ++ (ops_8 ++ (ops_9 ++ (ops_10 ++ (ops_11 ++ (ops_12 ++ (ops_13 ++ (ops_14 ++ (ops_15 ++ (ops_16 ++ [])))))))))))))))))
  simp only [StableHlo.seq_append, Pipeline.chain_cons, Pipeline.chain_nil]
  rfl

/-- No buffer of this program is scoped. -/
theorem scopedRefs_eq : (Finset.univ.filter fun b : Ref sig .tc => b.isScoped) = ∅ := by decide
/-- It has no semaphore, so none is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.ternary_bufs_sub .., StableHlo.unary_bufs_sub .., StableHlo.unary_bufs_sub .., StableHlo.unary_bufs_sub .., StableHlo.unary_bufs_sub .., StableHlo.ternary_bufs_sub .., StableHlo.unary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.unary_bufs_sub .., StableHlo.unary_bufs_sub .., StableHlo.ternary_bufs_sub .., StableHlo.unary_bufs_sub .., StableHlo.unary_bufs_sub .., StableHlo.unary_bufs_sub .., StableHlo.unary_bufs_sub .., StableHlo.nullary_bufs_sub .., StableHlo.binary_bufs_sub .., StableHlo.nullary_bufs_sub .., StableHlo.binary_bufs_sub .., StableHlo.reshape_bufs_sub .., StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.reshape_bufs_sub .., StableHlo.unary_bufs_sub .., StableHlo.reshape_bufs_sub .., StableHlo.unary_bufs_sub .., StableHlo.unary_bufs_sub .., StableHlo.ternary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.ternary_bufs_sub .., StableHlo.unary_bufs_sub .., StableHlo.unary_bufs_sub .., StableHlo.unary_bufs_sub .., StableHlo.unary_bufs_sub ..⟩

/-- From any memory with zero counters, for any float values: every weakly fair execution of the entry
    function terminates, and every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  StableHlo.run_seq scopedRefs_eq scopedSems_eq defs main (fun _ => ops) main_eq (fun _ => ops_sub) m ρ

end Cert.ReferenceIdeal.Hand

end
-- ==== Proof.RefFrame.lean ====
/-
  The reference program leaves its arguments as launched.

  Each of the line's eighty-six operations writes exactly one buffer, the one holding its result, and none of
  those is an argument: the fold of the operations' results therefore keeps every argument at its launch
  contents, and with the run of the line this is the reference's frame.
-/
import proofs.«134566_j28123445854543_1_alg».proof.Defs
import proofs.«134566_j28123445854543_1_alg».proof.Proof.RefRun
import proofs.«134566_j28123445854543_1_alg».proof.Proof.Gen.Pre_finite_inputs

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The buffers the line writes, one per operation, in order. -/
abbrev ops_W : List (Ref sig .tc) :=
  [main_v0, main_v1, main_v2, main_call0_v0, main_call0_v1, main_v3, main_v4, main_v5, main_call1_v0, main_call1_v1, main_v6, main_v7, main_v8, main_call2_v0, main_call2_v1, main_v9, main_v10, main_c, main_call3_v0, main_call3_v1, main_call3_v2, main_v11, main_v12, main_v13, main_v14, main_v15, main_c_0, main_v16, main_c_1, main_v17, main_v18, main_call4_v0, main_call4_c, main_call4_c_0, main_call4_v1_0, main_v19, main_v20, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v21, main_v22, main_v23, main_v24, main_v25, main_call6_v0, main_v26, main_v27, main_v28, main_v29, main_v30, main_v31, main_v32, main_v33, main_v34, main_v35, main_v36, main_v37, main_v38, main_v39, main_call7_v0, main_call7_v1, main_v40, main_v41, main_v42, main_v43, main_v44]

/-- Each operation writes only the buffer listed for it. -/
theorem ops_writes : (ops : List (HloOp τ sig (Elt F))).Forall fun op =>
    op.writes ⊆ (ops_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- A buffer that is no operation's result keeps its contents through the line. -/
theorem after_of_not_written (V : Valuation τ sig (Elt F)) (r : Ref sig .tc) (h : r ∉ ops_W) :
    StableHlo.after ops V (Proc.devRef .tc r) = V (Proc.devRef .tc r) :=
  StableHlo.after_of_writes_sub ops V ops_writes h

/-- Argument 0 is written by no operation. -/
theorem arg0_eq (V : Valuation τ sig (Elt F)) :
    StableHlo.after ops V (main_arg0 : DevRef τ sig) = V (main_arg0 : DevRef τ sig) :=
  after_of_not_written V main_arg0 (by decide)
/-- Argument 1 is written by no operation. -/
theorem arg1_eq (V : Valuation τ sig (Elt F)) :
    StableHlo.after ops V (main_arg1 : DevRef τ sig) = V (main_arg1 : DevRef τ sig) :=
  after_of_not_written V main_arg1 (by decide)
/-- Argument 2 is written by no operation. -/
theorem arg2_eq (V : Valuation τ sig (Elt F)) :
    StableHlo.after ops V (main_arg2 : DevRef τ sig) = V (main_arg2 : DevRef τ sig) :=
  after_of_not_written V main_arg2 (by decide)
/-- Argument 3 is written by no operation. -/
theorem arg3_eq (V : Valuation τ sig (Elt F)) :
    StableHlo.after ops V (main_arg3 : DevRef τ sig) = V (main_arg3 : DevRef τ sig) :=
  after_of_not_written V main_arg3 (by decide)
/-- Argument 4 is written by no operation. -/
theorem arg4_eq (V : Valuation τ sig (Elt F)) :
    StableHlo.after ops V (main_arg4 : DevRef τ sig) = V (main_arg4 : DevRef τ sig) :=
  after_of_not_written V main_arg4 (by decide)
/-- Argument 5 is written by no operation. -/
theorem arg5_eq (V : Valuation τ sig (Elt F)) :
    StableHlo.after ops V (main_arg5 : DevRef τ sig) = V (main_arg5 : DevRef τ sig) :=
  after_of_not_written V main_arg5 (by decide)
/-- Argument 6 is written by no operation. -/
theorem arg6_eq (V : Valuation τ sig (Elt F)) :
    StableHlo.after ops V (main_arg6 : DevRef τ sig) = V (main_arg6 : DevRef τ sig) :=
  after_of_not_written V main_arg6 (by decide)
/-- Argument 7 is written by no operation. -/
theorem arg7_eq (V : Valuation τ sig (Elt F)) :
    StableHlo.after ops V (main_arg7 : DevRef τ sig) = V (main_arg7 : DevRef τ sig) :=
  after_of_not_written V main_arg7 (by decide)
/-- Argument 8 is written by no operation. -/
theorem arg8_eq (V : Valuation τ sig (Elt F)) :
    StableHlo.after ops V (main_arg8 : DevRef τ sig) = V (main_arg8 : DevRef τ sig) :=
  after_of_not_written V main_arg8 (by decide)
/-- Argument 9 is written by no operation. -/
theorem arg9_eq (V : Valuation τ sig (Elt F)) :
    StableHlo.after ops V (main_arg9 : DevRef τ sig) = V (main_arg9 : DevRef τ sig) :=
  after_of_not_written V main_arg9 (by decide)
/-- Argument 10 is written by no operation. -/
theorem arg10_eq (V : Valuation τ sig (Elt F)) :
    StableHlo.after ops V (main_arg10 : DevRef τ sig) = V (main_arg10 : DevRef τ sig) :=
  after_of_not_written V main_arg10 (by decide)
/-- Argument 11 is written by no operation. -/
theorem arg11_eq (V : Valuation τ sig (Elt F)) :
    StableHlo.after ops V (main_arg11 : DevRef τ sig) = V (main_arg11 : DevRef τ sig) :=
  after_of_not_written V main_arg11 (by decide)

/-- The reference runs to its end without a fault and its twelve argument arrays end as launched (for any
    inputs: the precondition is not used). -/
theorem frame_ri : Cert.frame_ReferenceIdeal := fun m ρ _ =>
  (θ_run (Cert.ReferenceIdeal.defs (F := Ideal)) _ _).mono
    (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_main (F := Ideal) m ρ)

end Cert.ReferenceIdeal.Hand

end
-- ==== Proof.HostSpec.lean ====
/-
  What the host side of both programs computes, as functions of the argument arrays.

  Six of the eight results are computed by plain tensor operations in both programs: three queue resets under the
  negated mask, two masks sliced and transposed, and the ego embedding after a small propagation along the
  temporal window (find the first frame whose mask is false; take the embedding there, or the last frame's when
  every frame is set; write it over the frames before that one, provided any mask entry at all is set).  Each is
  stated here once, for any float values, in the operations' own vocabulary, so that both programs' final
  buffers can be compared with the same term.
-/
import proofs.«134566_j28123445854543_1_alg».proof.Proof.Gen.ReferenceIdeal

noncomputable section

namespace Cert.HostSpec

open Cert.ReferenceIdeal Cert.ReferenceIdeal.Gen Idealize.ShloMosaic

variable {F : FTy → Type} [FloatOps F]

/-- The reset flag per batch row: the negated mask. -/
def resetFlag (a7 : (⟨S16, .i1⟩ : BufTy).Contents (Elt F)) :
    (⟨S16, .i1⟩ : BufTy).Contents (Elt F) :=
  ((noti : (⟨S16, .i1⟩ : BufTy).Contents (Elt F) → (⟨S16, .i1⟩ : BufTy).Contents (Elt F)) a7)

/-- The plan queue after the reset: on a flagged batch row every queue entry is the current plan query, elsewhere the queue is kept. -/
def planQueue (a1 : (⟨S16x6x256, .f32⟩ : BufTy).Contents (Elt F)) (a4 : (⟨S16x4x6x256, .f32⟩ : BufTy).Contents (Elt F)) (a7 : (⟨S16, .i1⟩ : BufTy).Contents (Elt F)) :
    (⟨S16x4x6x256, .f32⟩ : BufTy).Contents (Elt F) :=
  ((select : (⟨S16x4x6x256, .i1⟩ : BufTy).Contents (Elt F) → (⟨S16x4x6x256, .f32⟩ : BufTy).Contents (Elt F) → (⟨S16x4x6x256, .f32⟩ : BufTy).Contents (Elt F) → (⟨S16x4x6x256, .f32⟩ : BufTy).Contents (Elt F)) (((broadcastInDim S16x4x6x256 ![0, 1, 2, 3] bcast_S16x1x1x1_S16x4x6x256_0_1_2_3) : (⟨S16x1x1x1, .i1⟩ : BufTy).Contents (Elt F) → (⟨S16x4x6x256, .i1⟩ : BufTy).Contents (Elt F)) ((broadcastInDim S16x1x1x1 ![0] bcast_S16_S16x1x1x1_0 : (⟨S16, .i1⟩ : BufTy).Contents (Elt F) → (⟨S16x1x1x1, .i1⟩ : BufTy).Contents (Elt F)) (resetFlag a7))) (((broadcastInDim S16x4x6x256 ![0, 1, 2, 3] bcast_S16x1x6x256_S16x4x6x256_0_1_2_3) : (⟨S16x1x6x256, .f32⟩ : BufTy).Contents (Elt F) → (⟨S16x4x6x256, .f32⟩ : BufTy).Contents (Elt F)) ((broadcastInDim S16x1x6x256 ![0, 2, 3] bcast_S16x6x256_S16x1x6x256_0_2_3 : (⟨S16x6x256, .f32⟩ : BufTy).Contents (Elt F) → (⟨S16x1x6x256, .f32⟩ : BufTy).Contents (Elt F)) a1)) a4)

/-- The ego status queue after the reset: on a flagged batch row every entry is the current ego status feature, elsewhere the queue is kept. -/
def egoStatusQueue (a2 : (⟨S16x256, .f32⟩ : BufTy).Contents (Elt F)) (a5 : (⟨S16x4x256, .f32⟩ : BufTy).Contents (Elt F)) (a7 : (⟨S16, .i1⟩ : BufTy).Contents (Elt F)) :
    (⟨S16x4x256, .f32⟩ : BufTy).Contents (Elt F) :=
  ((select : (⟨S16x4x256, .i1⟩ : BufTy).Contents (Elt F) → (⟨S16x4x256, .f32⟩ : BufTy).Contents (Elt F) → (⟨S16x4x256, .f32⟩ : BufTy).Contents (Elt F) → (⟨S16x4x256, .f32⟩ : BufTy).Contents (Elt F)) (((broadcastInDim S16x4x256 ![0, 1, 2] bcast_S16x1x1_S16x4x256_0_1_2) : (⟨S16x1x1, .i1⟩ : BufTy).Contents (Elt F) → (⟨S16x4x256, .i1⟩ : BufTy).Contents (Elt F)) ((broadcastInDim S16x1x1 ![0] bcast_S16_S16x1x1_0 : (⟨S16, .i1⟩ : BufTy).Contents (Elt F) → (⟨S16x1x1, .i1⟩ : BufTy).Contents (Elt F)) (resetFlag a7))) (((broadcastInDim S16x4x256 ![0, 1, 2] bcast_S16x1x256_S16x4x256_0_1_2) : (⟨S16x1x256, .f32⟩ : BufTy).Contents (Elt F) → (⟨S16x4x256, .f32⟩ : BufTy).Contents (Elt F)) ((broadcastInDim S16x1x256 ![0, 2] bcast_S16x256_S16x1x256_0_2 : (⟨S16x256, .f32⟩ : BufTy).Contents (Elt F) → (⟨S16x1x256, .f32⟩ : BufTy).Contents (Elt F)) a2)) a5)

/-- The period after the reset: zero on a flagged batch row, kept elsewhere. -/
def periodOut (a6 : (⟨S16x4, .i32⟩ : BufTy).Contents (Elt F)) (a7 : (⟨S16, .i1⟩ : BufTy).Contents (Elt F)) :
    (⟨S16x4, .i32⟩ : BufTy).Contents (Elt F) :=
  ((select : (⟨S16x4, .i1⟩ : BufTy).Contents (Elt F) → (⟨S16x4, .i32⟩ : BufTy).Contents (Elt F) → (⟨S16x4, .i32⟩ : BufTy).Contents (Elt F) → (⟨S16x4, .i32⟩ : BufTy).Contents (Elt F)) (((broadcastInDim S16x4 ![0, 1] bcast_S16x1_S16x4_0_1) : (⟨S16x1, .i1⟩ : BufTy).Contents (Elt F) → (⟨S16x4, .i1⟩ : BufTy).Contents (Elt F)) ((broadcastInDim S16x1 ![0] bcast_S16_S16x1_0 : (⟨S16, .i1⟩ : BufTy).Contents (Elt F) → (⟨S16x1, .i1⟩ : BufTy).Contents (Elt F)) (resetFlag a7))) (((broadcastInDim S16x4 ![] bcast_S_S16x4) : (⟨S_, .i32⟩ : BufTy).Contents (Elt F) → (⟨S16x4, .i32⟩ : BufTy).Contents (Elt F)) ((id : (⟨S_, .i32⟩ : BufTy).Contents (Elt F) → (⟨S_, .i32⟩ : BufTy).Contents (Elt F)) ((constantI S_ 32 0#32) : (⟨S_, .i32⟩ : BufTy).Contents (Elt F)))) a6)

/-- The ego temporal mask without its last frame. -/
def egoMask (a11 : (⟨S16x1x4, .i1⟩ : BufTy).Contents (Elt F)) :
    (⟨S16x1x3, .i1⟩ : BufTy).Contents (Elt F) :=
  (((extractStridedSlice S16x1x3 ![0, 0, 0] · slices_S16x1x4_S16x1x3_0_0_0) : (⟨S16x1x4, .i1⟩ : BufTy).Contents (Elt F) → (⟨S16x1x3, .i1⟩ : BufTy).Contents (Elt F)) a11)

/-- The ego anchor embedding without its last frame. -/
def egoWindow (a10 : (⟨S16x1x4x256, .f32⟩ : BufTy).Contents (Elt F)) :
    (⟨S16x1x3x256, .f32⟩ : BufTy).Contents (Elt F) :=
  (((extractStridedSlice S16x1x3x256 ![0, 0, 0, 0] · slices_S16x1x4x256_S16x1x3x256_0_0_0_0) : (⟨S16x1x4x256, .f32⟩ : BufTy).Contents (Elt F) → (⟨S16x1x3x256, .f32⟩ : BufTy).Contents (Elt F)) a10)

/-- Whether any entry of the sliced ego mask, over the whole batch, is set. -/
def anyFlag (a11 : (⟨S16x1x4, .i1⟩ : BufTy).Contents (Elt F)) :
    (⟨S_, .i1⟩ : BufTy).Contents (Elt F) :=
  (((fun x v => Host.reduce IntOp.ori x v reducesTo_S16x1x3_S_d0_1_2 h_S_) : (⟨S16x1x3, .i1⟩ : BufTy).Contents (Elt F) → (⟨S_, .i1⟩ : BufTy).Contents (Elt F) → (⟨S_, .i1⟩ : BufTy).Contents (Elt F)) (egoMask a11) ((constantI S_ 1 0#1) : (⟨S_, .i1⟩ : BufTy).Contents (Elt F)))

/-- Per batch row, whether every frame of the sliced ego mask is set. -/
def allTrue (a11 : (⟨S16x1x4, .i1⟩ : BufTy).Contents (Elt F)) :
    (⟨S16, .i1⟩ : BufTy).Contents (Elt F) :=
  (((fun x v => Host.reduce IntOp.andi x v reducesTo_S16x1x3_S16_d1_2 h_S_) : (⟨S16x1x3, .i1⟩ : BufTy).Contents (Elt F) → (⟨S_, .i1⟩ : BufTy).Contents (Elt F) → (⟨S16, .i1⟩ : BufTy).Contents (Elt F)) (egoMask a11) ((constantI S_ 1 1#1) : (⟨S_, .i1⟩ : BufTy).Contents (Elt F)))

/-- Per batch row, the index of the first frame whose mask entry is false (the least index among the least entries; zero when all are set). -/
def firstFalse (a11 : (⟨S16x1x4, .i1⟩ : BufTy).Contents (Elt F)) :
    (⟨S16, .i32⟩ : BufTy).Contents (Elt F) :=
  (((fun x y u v j => (Host.reduce2 reducer_argmin_i1_i32 x y u v reducesTo_S16x3_S16_d1 h_S_ j).2) : (⟨S16x3, .i1⟩ : BufTy).Contents (Elt F) → (⟨S16x3, .i32⟩ : BufTy).Contents (Elt F) → (⟨S_, .i1⟩ : BufTy).Contents (Elt F) → (⟨S_, .i32⟩ : BufTy).Contents (Elt F) → (⟨S16, .i32⟩ : BufTy).Contents (Elt F)) (shapeCast S16x3 (egoMask a11) shapeCasts_S16x1x3_S16x3 : (⟨S16x3, .i1⟩ : BufTy).Contents (Elt F)) ((iotaInDim S16x3 32 1) : (⟨S16x3, .i32⟩ : BufTy).Contents (Elt F)) ((constantI S_ 1 1#1) : (⟨S_, .i1⟩ : BufTy).Contents (Elt F)) ((constantI S_ 32 0#32) : (⟨S_, .i32⟩ : BufTy).Contents (Elt F)))

/-- The frame to read per batch row, as a one-entry index table: `firstFalse`, with the frame count added when it is negative. -/
def frameIndex (a11 : (⟨S16x1x4, .i1⟩ : BufTy).Contents (Elt F)) :
    (⟨S16x1x1, .i32⟩ : BufTy).Contents (Elt F) :=
  (shapeCast S16x1x1 ((select : (⟨S16x1x1x1, .i1⟩ : BufTy).Contents (Elt F) → (⟨S16x1x1x1, .i32⟩ : BufTy).Contents (Elt F) → (⟨S16x1x1x1, .i32⟩ : BufTy).Contents (Elt F) → (⟨S16x1x1x1, .i32⟩ : BufTy).Contents (Elt F)) (((cmpi .slt) : (⟨S16x1x1x1, .i32⟩ : BufTy).Contents (Elt F) → (⟨S16x1x1x1, .i32⟩ : BufTy).Contents (Elt F) → (⟨S16x1x1x1, .i1⟩ : BufTy).Contents (Elt F)) ((broadcastInDim S16x1x1x1 ![0] bcast_S16_S16x1x1x1_0 : (⟨S16, .i32⟩ : BufTy).Contents (Elt F) → (⟨S16x1x1x1, .i32⟩ : BufTy).Contents (Elt F)) (firstFalse a11)) (((broadcastInDim S16x1x1x1 ![] bcast_S_S16x1x1x1) : (⟨S_, .i32⟩ : BufTy).Contents (Elt F) → (⟨S16x1x1x1, .i32⟩ : BufTy).Contents (Elt F)) ((constantI S_ 32 0#32) : (⟨S_, .i32⟩ : BufTy).Contents (Elt F)))) ((addi : (⟨S16x1x1x1, .i32⟩ : BufTy).Contents (Elt F) → (⟨S16x1x1x1, .i32⟩ : BufTy).Contents (Elt F) → (⟨S16x1x1x1, .i32⟩ : BufTy).Contents (Elt F)) ((broadcastInDim S16x1x1x1 ![0] bcast_S16_S16x1x1x1_0 : (⟨S16, .i32⟩ : BufTy).Contents (Elt F) → (⟨S16x1x1x1, .i32⟩ : BufTy).Contents (Elt F)) (firstFalse a11)) (((broadcastInDim S16x1x1x1 ![] bcast_S_S16x1x1x1) : (⟨S_, .i32⟩ : BufTy).Contents (Elt F) → (⟨S16x1x1x1, .i32⟩ : BufTy).Contents (Elt F)) ((constantI S_ 32 3#32) : (⟨S_, .i32⟩ : BufTy).Contents (Elt F)))) ((broadcastInDim S16x1x1x1 ![0] bcast_S16_S16x1x1x1_0 : (⟨S16, .i32⟩ : BufTy).Contents (Elt F) → (⟨S16x1x1x1, .i32⟩ : BufTy).Contents (Elt F)) (firstFalse a11))) shapeCasts_S16x1x1x1_S16x1x1 : (⟨S16x1x1, .i32⟩ : BufTy).Contents (Elt F))

/-- Per batch row, whether that frame lies inside the window (at least zero, at most the last start position). -/
def frameInside (a11 : (⟨S16x1x4, .i1⟩ : BufTy).Contents (Elt F)) :
    (⟨S16x1, .i1⟩ : BufTy).Contents (Elt F) :=
  (((fun x v => Host.reduce IntOp.andi x v reducesTo_S16x1x1_S16x1_d2 h_S_) : (⟨S16x1x1, .i1⟩ : BufTy).Contents (Elt F) → (⟨S_, .i1⟩ : BufTy).Contents (Elt F) → (⟨S16x1, .i1⟩ : BufTy).Contents (Elt F)) ((andi : (⟨S16x1x1, .i1⟩ : BufTy).Contents (Elt F) → (⟨S16x1x1, .i1⟩ : BufTy).Contents (Elt F) → (⟨S16x1x1, .i1⟩ : BufTy).Contents (Elt F)) (((cmpi .sge) : (⟨S16x1x1, .i32⟩ : BufTy).Contents (Elt F) → (⟨S16x1x1, .i32⟩ : BufTy).Contents (Elt F) → (⟨S16x1x1, .i1⟩ : BufTy).Contents (Elt F)) (frameIndex a11) (((broadcastInDim S16x1x1 ![] bcast_S_S16x1x1) : (⟨S_, .i32⟩ : BufTy).Contents (Elt F) → (⟨S16x1x1, .i32⟩ : BufTy).Contents (Elt F)) ((constantI S_ 32 0#32) : (⟨S_, .i32⟩ : BufTy).Contents (Elt F)))) (((cmpi .sle) : (⟨S16x1x1, .i32⟩ : BufTy).Contents (Elt F) → (⟨S16x1x1, .i32⟩ : BufTy).Contents (Elt F) → (⟨S16x1x1, .i1⟩ : BufTy).Contents (Elt F)) (frameIndex a11) (((broadcastInDim S16x1x1 ![0, 1, 2] bcast_S1x1x1_S16x1x1_0_1_2) : (⟨S1x1x1, .i32⟩ : BufTy).Contents (Elt F) → (⟨S16x1x1, .i32⟩ : BufTy).Contents (Elt F)) (((broadcastInDim S1x1x1 ![2] bcast_S1_S1x1x1_2) : (⟨S1, .i32⟩ : BufTy).Contents (Elt F) → (⟨S1x1x1, .i32⟩ : BufTy).Contents (Elt F)) ((constantI S1 32 2#32) : (⟨S1, .i32⟩ : BufTy).Contents (Elt F)))))) ((constantI S_ 1 1#1) : (⟨S_, .i1⟩ : BufTy).Contents (Elt F)))

/-- Per batch row, the sliced embedding's frame at `firstFalse` (a negative index wrapped by the frame count; a frame outside the window reads as the fill value). -/
def taken (a10 : (⟨S16x1x4x256, .f32⟩ : BufTy).Contents (Elt F)) (a11 : (⟨S16x1x4, .i1⟩ : BufTy).Contents (Elt F)) :
    (⟨S16x1x1x256, .f32⟩ : BufTy).Contents (Elt F) :=
  ((select : (⟨S16x1x1x256, .i1⟩ : BufTy).Contents (Elt F) → (⟨S16x1x1x256, .f32⟩ : BufTy).Contents (Elt F) → (⟨S16x1x1x256, .f32⟩ : BufTy).Contents (Elt F) → (⟨S16x1x1x256, .f32⟩ : BufTy).Contents (Elt F)) (((broadcastInDim S16x1x1x256 ![0, 2] bcast_S16x1_S16x1x1x256_0_2) : (⟨S16x1, .i1⟩ : BufTy).Contents (Elt F) → (⟨S16x1x1x256, .i1⟩ : BufTy).Contents (Elt F)) (frameInside a11)) (((fun x i => Host.gather gather_S16x1x3x256_S16x1x1_S16x1x1x256_13_2_0_0_2_2_111256 x i) : (⟨S16x1x3x256, .f32⟩ : BufTy).Contents (Elt F) → (⟨S16x1x1, .i32⟩ : BufTy).Contents (Elt F) → (⟨S16x1x1x256, .f32⟩ : BufTy).Contents (Elt F)) (egoWindow a10) (frameIndex a11)) (((broadcastInDim S16x1x1x256 ![] bcast_S_S16x1x1x256) : (⟨S_, .f32⟩ : BufTy).Contents (Elt F) → (⟨S16x1x1x256, .f32⟩ : BufTy).Contents (Elt F)) ((constant S_ .f32 0x7FC00000#32) : (⟨S_, .f32⟩ : BufTy).Contents (Elt F))))

/-- The replacement embedding per batch row: the last frame of the unsliced embedding where all frames are set, else the frame at the first false entry. -/
def replacement (a10 : (⟨S16x1x4x256, .f32⟩ : BufTy).Contents (Elt F)) (a11 : (⟨S16x1x4, .i1⟩ : BufTy).Contents (Elt F)) :
    (⟨S16x1x256, .f32⟩ : BufTy).Contents (Elt F) :=
  ((select : (⟨S16x1x256, .i1⟩ : BufTy).Contents (Elt F) → (⟨S16x1x256, .f32⟩ : BufTy).Contents (Elt F) → (⟨S16x1x256, .f32⟩ : BufTy).Contents (Elt F) → (⟨S16x1x256, .f32⟩ : BufTy).Contents (Elt F)) (((broadcastInDim S16x1x256 ![0, 1, 2] bcast_S16x1x1_S16x1x256_0_1_2) : (⟨S16x1x1, .i1⟩ : BufTy).Contents (Elt F) → (⟨S16x1x256, .i1⟩ : BufTy).Contents (Elt F)) ((broadcastInDim S16x1x1 ![0] bcast_S16_S16x1x1_0 : (⟨S16, .i1⟩ : BufTy).Contents (Elt F) → (⟨S16x1x1, .i1⟩ : BufTy).Contents (Elt F)) (allTrue a11))) (shapeCast S16x1x256 (((extractStridedSlice S16x1x1x256 ![0, 0, 3, 0] · slices_S16x1x4x256_S16x1x1x256_0_0_3_0) : (⟨S16x1x4x256, .f32⟩ : BufTy).Contents (Elt F) → (⟨S16x1x1x256, .f32⟩ : BufTy).Contents (Elt F)) a10) shapeCasts_S16x1x1x256_S16x1x256 : (⟨S16x1x256, .f32⟩ : BufTy).Contents (Elt F)) (shapeCast S16x1x256 (taken a10 a11) shapeCasts_S16x1x1x256_S16x1x256 : (⟨S16x1x256, .f32⟩ : BufTy).Contents (Elt F)))

/-- Per batch row and frame, whether the frame is overwritten: all frames set, or the frame lies before the first false entry. -/
def overwrite (a11 : (⟨S16x1x4, .i1⟩ : BufTy).Contents (Elt F)) :
    (⟨S16x3, .i1⟩ : BufTy).Contents (Elt F) :=
  ((ori : (⟨S16x3, .i1⟩ : BufTy).Contents (Elt F) → (⟨S16x3, .i1⟩ : BufTy).Contents (Elt F) → (⟨S16x3, .i1⟩ : BufTy).Contents (Elt F)) ((broadcastInDim S16x3 ![0, 1] bcast_S16x1_S16x3_0_1 : (⟨S16x1, .i1⟩ : BufTy).Contents (Elt F) → (⟨S16x3, .i1⟩ : BufTy).Contents (Elt F)) ((broadcastInDim S16x1 ![0] bcast_S16_S16x1_0 : (⟨S16, .i1⟩ : BufTy).Contents (Elt F) → (⟨S16x1, .i1⟩ : BufTy).Contents (Elt F)) (allTrue a11))) ((cmpi .slt : (⟨S16x3, .i32⟩ : BufTy).Contents (Elt F) → (⟨S16x3, .i32⟩ : BufTy).Contents (Elt F) → (⟨S16x3, .i1⟩ : BufTy).Contents (Elt F)) ((broadcastInDim S16x3 ![0, 1] bcast_S1x3_S16x3_0_1 : (⟨S1x3, .i32⟩ : BufTy).Contents (Elt F) → (⟨S16x3, .i32⟩ : BufTy).Contents (Elt F)) ((broadcastInDim S1x3 ![1] bcast_S3_S1x3_1 : (⟨S3, .i32⟩ : BufTy).Contents (Elt F) → (⟨S1x3, .i32⟩ : BufTy).Contents (Elt F)) ((iotaInDim S3 32 0) : (⟨S3, .i32⟩ : BufTy).Contents (Elt F)))) ((broadcastInDim S16x3 ![0, 1] bcast_S16x1_S16x3_0_1 : (⟨S16x1, .i32⟩ : BufTy).Contents (Elt F) → (⟨S16x3, .i32⟩ : BufTy).Contents (Elt F)) ((broadcastInDim S16x1 ![0] bcast_S16_S16x1_0 : (⟨S16, .i32⟩ : BufTy).Contents (Elt F) → (⟨S16x1, .i32⟩ : BufTy).Contents (Elt F)) (firstFalse a11)))))

/-- The agents' temporal mask without its last frame, frames before agents. -/
def maskT (a9 : (⟨S16x900x4, .i1⟩ : BufTy).Contents (Elt F)) :
    (⟨S16x3x900, .i1⟩ : BufTy).Contents (Elt F) :=
  (((transpose S16x3x900 [0, 2, 1] · transposes_S16x900x3_S16x3x900_0_2_1) : (⟨S16x900x3, .i1⟩ : BufTy).Contents (Elt F) → (⟨S16x3x900, .i1⟩ : BufTy).Contents (Elt F)) (((extractStridedSlice S16x900x3 ![0, 0, 0] · slices_S16x900x4_S16x900x3_0_0_0) : (⟨S16x900x4, .i1⟩ : BufTy).Contents (Elt F) → (⟨S16x900x3, .i1⟩ : BufTy).Contents (Elt F)) a9))

/-- That mask with frames before the (single) ego slot. -/
def egoMaskT (a11 : (⟨S16x1x4, .i1⟩ : BufTy).Contents (Elt F)) :
    (⟨S16x3x1, .i1⟩ : BufTy).Contents (Elt F) :=
  (((transpose S16x3x1 [0, 2, 1] · transposes_S16x1x3_S16x3x1_0_2_1) : (⟨S16x1x3, .i1⟩ : BufTy).Contents (Elt F) → (⟨S16x3x1, .i1⟩ : BufTy).Contents (Elt F)) (egoMask a11))

/-- The ego embedding after the propagation — the replacement on the overwritten frames when any mask entry is set, the sliced embedding elsewhere — with frames before the ego slot. -/
def egoEmbedT (a10 : (⟨S16x1x4x256, .f32⟩ : BufTy).Contents (Elt F)) (a11 : (⟨S16x1x4, .i1⟩ : BufTy).Contents (Elt F)) :
    (⟨S16x3x1x256, .f32⟩ : BufTy).Contents (Elt F) :=
  (((transpose S16x3x1x256 [0, 2, 1, 3] · transposes_S16x1x3x256_S16x3x1x256_0_2_1_3) : (⟨S16x1x3x256, .f32⟩ : BufTy).Contents (Elt F) → (⟨S16x3x1x256, .f32⟩ : BufTy).Contents (Elt F)) ((select : (⟨S16x1x3x256, .i1⟩ : BufTy).Contents (Elt F) → (⟨S16x1x3x256, .f32⟩ : BufTy).Contents (Elt F) → (⟨S16x1x3x256, .f32⟩ : BufTy).Contents (Elt F) → (⟨S16x1x3x256, .f32⟩ : BufTy).Contents (Elt F)) (((broadcastInDim S16x1x3x256 ![0, 1, 2, 3] bcast_S16x1x3x1_S16x1x3x256_0_1_2_3) : (⟨S16x1x3x1, .i1⟩ : BufTy).Contents (Elt F) → (⟨S16x1x3x256, .i1⟩ : BufTy).Contents (Elt F)) ((andi : (⟨S16x1x3x1, .i1⟩ : BufTy).Contents (Elt F) → (⟨S16x1x3x1, .i1⟩ : BufTy).Contents (Elt F) → (⟨S16x1x3x1, .i1⟩ : BufTy).Contents (Elt F)) ((broadcastInDim S16x1x3x1 ![] bcast_S_S16x1x3x1 : (⟨S_, .i1⟩ : BufTy).Contents (Elt F) → (⟨S16x1x3x1, .i1⟩ : BufTy).Contents (Elt F)) (anyFlag a11)) ((broadcastInDim S16x1x3x1 ![0, 2] bcast_S16x3_S16x1x3x1_0_2 : (⟨S16x3, .i1⟩ : BufTy).Contents (Elt F) → (⟨S16x1x3x1, .i1⟩ : BufTy).Contents (Elt F)) (overwrite a11)))) (((broadcastInDim S16x1x3x256 ![0, 1, 2, 3] bcast_S16x1x1x256_S16x1x3x256_0_1_2_3) : (⟨S16x1x1x256, .f32⟩ : BufTy).Contents (Elt F) → (⟨S16x1x3x256, .f32⟩ : BufTy).Contents (Elt F)) ((broadcastInDim S16x1x1x256 ![0, 1, 3] bcast_S16x1x256_S16x1x1x256_0_1_3 : (⟨S16x1x256, .f32⟩ : BufTy).Contents (Elt F) → (⟨S16x1x1x256, .f32⟩ : BufTy).Contents (Elt F)) (replacement a10 a11))) (egoWindow a10)))

end Cert.HostSpec

end
-- ==== Proof.KernValues.lean ====
/-
  The kernel program's six host-computed results as the specification's functions of its arguments.

  Between its two kernel regions and after them the kernel program runs stretches of plain tensor operations.
  The valuation of its buffers after each item is a chain: the launch contents, then each stretch's fold, with
  an unknown put in at each region's output.  A buffer written by a stretch is read off that stretch's fold; a
  buffer a later item does not write is carried unchanged to the end; neither region's output feeds any of the
  six results treated here, so the unknowns never appear.  Working upwards from the arguments, each buffer that
  crosses a stretch boundary is identified with the specification's term for it.
-/
import proofs.«134566_j28123445854543_1_alg».proof.Proof.Gen.KernelIdeal.Regions
import proofs.«134566_j28123445854543_1_alg».proof.Proof.HostSpec

noncomputable section

namespace Cert.KernelIdeal.HostVal

open Cert.KernelIdeal Cert.KernelIdeal.Gen Idealize.ShloMosaic Idealize.ShloMosaic.TcCoe Idealize.SL.Sem Cert.HostSpec

variable {F : FTy → Type} [FloatOps F]

-- the reductions, the two-operand reduction and the gather are folds and searches over their operands' entries:
-- the comparisons below never look inside them
attribute [local irreducible] Host.reduce Host.reduce2 Host.gather

/-! ## Each buffer that crosses a stretch boundary, where its stretch leaves it -/

theorem kv_main_v0 (m : (ℓ : Loc nD τ sig) → Buf (Elt F) ℓ) (c : Dev nD) :
    V1 m c (Proc.devRef .tc main_v0) = (resetFlag (m ((c : Thread nD τ).loc main_arg7))) := by
  have h_main_arg7 : V0 m c (Proc.devRef .tc main_arg7) = m ((c : Thread nD τ).loc main_arg7) :=
    rfl
  show StableHlo.after hostOps0 (V0 m c) (Proc.devRef .tc main_v0) = _
  generalize V0 m c = W at h_main_arg7 ⊢
  after_results
  rw [h_main_arg7]
  all_goals rfl

theorem kv_main_v3 (m : (ℓ : Loc nD τ sig) → Buf (Elt F) ℓ) (outs : Outs (F := F)) (c : Dev nD) :
    V3 m outs c (Proc.devRef .tc main_v3) = ((broadcastInDim S16x1x1x1 ![0] bcast_S16_S16x1x1x1_0 : (⟨S16, .i1⟩ : BufTy).Contents (Elt F) → (⟨S16x1x1x1, .i1⟩ : BufTy).Contents (Elt F)) (resetFlag (m ((c : Thread nD τ).loc main_arg7)))) := by
  have h_main_v0 : V2 m outs c (Proc.devRef .tc main_v0) = (resetFlag (m ((c : Thread nD τ).loc main_arg7))) :=
    (V2_of m outs c main_v0 (by decide)).trans <| (kv_main_v0 m c)
  show StableHlo.after hostOps1 (V2 m outs c) (Proc.devRef .tc main_v3) = _
  generalize V2 m outs c = W at h_main_v0 ⊢
  after_results
  rw [h_main_v0]
  all_goals rfl

theorem kv_main_v4 (m : (ℓ : Loc nD τ sig) → Buf (Elt F) ℓ) (outs : Outs (F := F)) (c : Dev nD) :
    V3 m outs c (Proc.devRef .tc main_v4) = ((broadcastInDim S16x1x6x256 ![0, 2, 3] bcast_S16x6x256_S16x1x6x256_0_2_3 : (⟨S16x6x256, .f32⟩ : BufTy).Contents (Elt F) → (⟨S16x1x6x256, .f32⟩ : BufTy).Contents (Elt F)) (m ((c : Thread nD τ).loc main_arg1))) := by
  have h_main_arg1 : V2 m outs c (Proc.devRef .tc main_arg1) = m ((c : Thread nD τ).loc main_arg1) :=
    (V2_of m outs c main_arg1 (by decide)).trans <| (V1_of m c main_arg1 (by decide))
  show StableHlo.after hostOps1 (V2 m outs c) (Proc.devRef .tc main_v4) = _
  generalize V2 m outs c = W at h_main_arg1 ⊢
  after_results
  rw [h_main_arg1]
  all_goals rfl

theorem kv_main_v5 (m : (ℓ : Loc nD τ sig) → Buf (Elt F) ℓ) (outs : Outs (F := F)) (c : Dev nD) :
    V4 m outs c (Proc.devRef .tc main_v5) = (planQueue (m ((c : Thread nD τ).loc main_arg1)) (m ((c : Thread nD τ).loc main_arg4)) (m ((c : Thread nD τ).loc main_arg7))) := by
  have h_main_v3 : V3 m outs c (Proc.devRef .tc main_v3) = ((broadcastInDim S16x1x1x1 ![0] bcast_S16_S16x1x1x1_0 : (⟨S16, .i1⟩ : BufTy).Contents (Elt F) → (⟨S16x1x1x1, .i1⟩ : BufTy).Contents (Elt F)) (resetFlag (m ((c : Thread nD τ).loc main_arg7)))) :=
    (kv_main_v3 m outs c)
  have h_main_v4 : V3 m outs c (Proc.devRef .tc main_v4) = ((broadcastInDim S16x1x6x256 ![0, 2, 3] bcast_S16x6x256_S16x1x6x256_0_2_3 : (⟨S16x6x256, .f32⟩ : BufTy).Contents (Elt F) → (⟨S16x1x6x256, .f32⟩ : BufTy).Contents (Elt F)) (m ((c : Thread nD τ).loc main_arg1))) :=
    (kv_main_v4 m outs c)
  have h_main_arg4 : V3 m outs c (Proc.devRef .tc main_arg4) = m ((c : Thread nD τ).loc main_arg4) :=
    (V3_of m outs c main_arg4 (by decide)).trans <| (V2_of m outs c main_arg4 (by decide)).trans <| (V1_of m c main_arg4 (by decide))
  show StableHlo.after hostOps1_1 (V3 m outs c) (Proc.devRef .tc main_v5) = _
  generalize V3 m outs c = W at h_main_v3 h_main_v4 h_main_arg4 ⊢
  after_results
  rw [h_main_v3, h_main_v4, h_main_arg4]
  all_goals rfl

theorem kv_main_v6 (m : (ℓ : Loc nD τ sig) → Buf (Elt F) ℓ) (outs : Outs (F := F)) (c : Dev nD) :
    V5 m outs c (Proc.devRef .tc main_v6) = ((broadcastInDim S16x1x1 ![0] bcast_S16_S16x1x1_0 : (⟨S16, .i1⟩ : BufTy).Contents (Elt F) → (⟨S16x1x1, .i1⟩ : BufTy).Contents (Elt F)) (resetFlag (m ((c : Thread nD τ).loc main_arg7)))) := by
  have h_main_v0 : V4 m outs c (Proc.devRef .tc main_v0) = (resetFlag (m ((c : Thread nD τ).loc main_arg7))) :=
    (V4_of m outs c main_v0 (by decide)).trans <| (V3_of m outs c main_v0 (by decide)).trans <| (V2_of m outs c main_v0 (by decide)).trans <| (kv_main_v0 m c)
  show StableHlo.after hostOps1_2 (V4 m outs c) (Proc.devRef .tc main_v6) = _
  generalize V4 m outs c = W at h_main_v0 ⊢
  after_results
  rw [h_main_v0]
  all_goals rfl

theorem kv_main_v7 (m : (ℓ : Loc nD τ sig) → Buf (Elt F) ℓ) (outs : Outs (F := F)) (c : Dev nD) :
    V5 m outs c (Proc.devRef .tc main_v7) = ((broadcastInDim S16x1x256 ![0, 2] bcast_S16x256_S16x1x256_0_2 : (⟨S16x256, .f32⟩ : BufTy).Contents (Elt F) → (⟨S16x1x256, .f32⟩ : BufTy).Contents (Elt F)) (m ((c : Thread nD τ).loc main_arg2))) := by
  have h_main_arg2 : V4 m outs c (Proc.devRef .tc main_arg2) = m ((c : Thread nD τ).loc main_arg2) :=
    (V4_of m outs c main_arg2 (by decide)).trans <| (V3_of m outs c main_arg2 (by decide)).trans <| (V2_of m outs c main_arg2 (by decide)).trans <| (V1_of m c main_arg2 (by decide))
  show StableHlo.after hostOps1_2 (V4 m outs c) (Proc.devRef .tc main_v7) = _
  generalize V4 m outs c = W at h_main_arg2 ⊢
  after_results
  rw [h_main_arg2]
  all_goals rfl

theorem kv_main_v8 (m : (ℓ : Loc nD τ sig) → Buf (Elt F) ℓ) (outs : Outs (F := F)) (c : Dev nD) :
    V6 m outs c (Proc.devRef .tc main_v8) = (egoStatusQueue (m ((c : Thread nD τ).loc main_arg2)) (m ((c : Thread nD τ).loc main_arg5)) (m ((c : Thread nD τ).loc main_arg7))) := by
  have h_main_v6 : V5 m outs c (Proc.devRef .tc main_v6) = ((broadcastInDim S16x1x1 ![0] bcast_S16_S16x1x1_0 : (⟨S16, .i1⟩ : BufTy).Contents (Elt F) → (⟨S16x1x1, .i1⟩ : BufTy).Contents (Elt F)) (resetFlag (m ((c : Thread nD τ).loc main_arg7)))) :=
    (kv_main_v6 m outs c)
  have h_main_v7 : V5 m outs c (Proc.devRef .tc main_v7) = ((broadcastInDim S16x1x256 ![0, 2] bcast_S16x256_S16x1x256_0_2 : (⟨S16x256, .f32⟩ : BufTy).Contents (Elt F) → (⟨S16x1x256, .f32⟩ : BufTy).Contents (Elt F)) (m ((c : Thread nD τ).loc main_arg2))) :=
    (kv_main_v7 m outs c)
  have h_main_arg5 : V5 m outs c (Proc.devRef .tc main_arg5) = m ((c : Thread nD τ).loc main_arg5) :=
    (V5_of m outs c main_arg5 (by decide)).trans <| (V4_of m outs c main_arg5 (by decide)).trans <| (V3_of m outs c main_arg5 (by decide)).trans <| (V2_of m outs c main_arg5 (by decide)).trans <| (V1_of m c main_arg5 (by decide))
  show StableHlo.after hostOps1_3 (V5 m outs c) (Proc.devRef .tc main_v8) = _
  generalize V5 m outs c = W at h_main_v6 h_main_v7 h_main_arg5 ⊢
  after_results
  rw [h_main_v6, h_main_v7, h_main_arg5]
  all_goals rfl

theorem kv_main_v9 (m : (ℓ : Loc nD τ sig) → Buf (Elt F) ℓ) (outs : Outs (F := F)) (c : Dev nD) :
    V7 m outs c (Proc.devRef .tc main_v9) = ((broadcastInDim S16x1 ![0] bcast_S16_S16x1_0 : (⟨S16, .i1⟩ : BufTy).Contents (Elt F) → (⟨S16x1, .i1⟩ : BufTy).Contents (Elt F)) (resetFlag (m ((c : Thread nD τ).loc main_arg7)))) := by
  have h_main_v0 : V6 m outs c (Proc.devRef .tc main_v0) = (resetFlag (m ((c : Thread nD τ).loc main_arg7))) :=
    (V6_of m outs c main_v0 (by decide)).trans <| (V5_of m outs c main_v0 (by decide)).trans <| (V4_of m outs c main_v0 (by decide)).trans <| (V3_of m outs c main_v0 (by decide)).trans <| (V2_of m outs c main_v0 (by decide)).trans <| (kv_main_v0 m c)
  show StableHlo.after hostOps1_4 (V6 m outs c) (Proc.devRef .tc main_v9) = _
  generalize V6 m outs c = W at h_main_v0 ⊢
  after_results
  rw [h_main_v0]
  all_goals rfl

theorem kv_main_c (m : (ℓ : Loc nD τ sig) → Buf (Elt F) ℓ) (outs : Outs (F := F)) (c : Dev nD) :
    V7 m outs c (Proc.devRef .tc main_c) = ((constantI S_ 32 0#32) : (⟨S_, .i32⟩ : BufTy).Contents (Elt F)) := by
  show StableHlo.after hostOps1_4 (V6 m outs c) (Proc.devRef .tc main_c) = _
  generalize V6 m outs c = W
  after_results
  all_goals rfl

theorem kv_main_v10 (m : (ℓ : Loc nD τ sig) → Buf (Elt F) ℓ) (outs : Outs (F := F)) (c : Dev nD) :
    V8 m outs c (Proc.devRef .tc main_v10) = (periodOut (m ((c : Thread nD τ).loc main_arg6)) (m ((c : Thread nD τ).loc main_arg7))) := by
  have h_main_v9 : V7 m outs c (Proc.devRef .tc main_v9) = ((broadcastInDim S16x1 ![0] bcast_S16_S16x1_0 : (⟨S16, .i1⟩ : BufTy).Contents (Elt F) → (⟨S16x1, .i1⟩ : BufTy).Contents (Elt F)) (resetFlag (m ((c : Thread nD τ).loc main_arg7)))) :=
    (kv_main_v9 m outs c)
  have h_main_c : V7 m outs c (Proc.devRef .tc main_c) = ((constantI S_ 32 0#32) : (⟨S_, .i32⟩ : BufTy).Contents (Elt F)) :=
    (kv_main_c m outs c)
  have h_main_arg6 : V7 m outs c (Proc.devRef .tc main_arg6) = m ((c : Thread nD τ).loc main_arg6) :=
    (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide))
  show StableHlo.after hostOps1_5 (V7 m outs c) (Proc.devRef .tc main_v10) = _
  generalize V7 m outs c = W at h_main_v9 h_main_c h_main_arg6 ⊢
  after_results
  rw [h_main_v9, h_main_c, h_main_arg6]
  all_goals rfl

theorem kv_main_v13 (m : (ℓ : Loc nD τ sig) → Buf (Elt F) ℓ) (outs : Outs (F := F)) (c : Dev nD) :
    V10 m outs c (Proc.devRef .tc main_v13) = (maskT (m ((c : Thread nD τ).loc main_arg9))) := by
  have h_main_arg9 : V9 m outs c (Proc.devRef .tc main_arg9) = m ((c : Thread nD τ).loc main_arg9) :=
    (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide))
  show StableHlo.after hostOps2 (V9 m outs c) (Proc.devRef .tc main_v13) = _
  generalize V9 m outs c = W at h_main_arg9 ⊢
  after_results
  rw [h_main_arg9]
  all_goals rfl

theorem kv_main_v14 (m : (ℓ : Loc nD τ sig) → Buf (Elt F) ℓ) (outs : Outs (F := F)) (c : Dev nD) :
    V10 m outs c (Proc.devRef .tc main_v14) = (egoMask (m ((c : Thread nD τ).loc main_arg11))) := by
  have h_main_arg11 : V9 m outs c (Proc.devRef .tc main_arg11) = m ((c : Thread nD τ).loc main_arg11) :=
    (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide))
  show StableHlo.after hostOps2 (V9 m outs c) (Proc.devRef .tc main_v14) = _
  generalize V9 m outs c = W at h_main_arg11 ⊢
  after_results
  rw [h_main_arg11]
  all_goals rfl

theorem kv_main_v15 (m : (ℓ : Loc nD τ sig) → Buf (Elt F) ℓ) (outs : Outs (F := F)) (c : Dev nD) :
    V10 m outs c (Proc.devRef .tc main_v15) = (egoWindow (m ((c : Thread nD τ).loc main_arg10))) := by
  have h_main_arg10 : V9 m outs c (Proc.devRef .tc main_arg10) = m ((c : Thread nD τ).loc main_arg10) :=
    (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide))
  show StableHlo.after hostOps2 (V9 m outs c) (Proc.devRef .tc main_v15) = _
  generalize V9 m outs c = W at h_main_arg10 ⊢
  after_results
  rw [h_main_arg10]
  all_goals rfl

theorem kv_main_v16 (m : (ℓ : Loc nD τ sig) → Buf (Elt F) ℓ) (outs : Outs (F := F)) (c : Dev nD) :
    V10 m outs c (Proc.devRef .tc main_v16) = (anyFlag (m ((c : Thread nD τ).loc main_arg11))) := by
  have h_main_arg11 : V9 m outs c (Proc.devRef .tc main_arg11) = m ((c : Thread nD τ).loc main_arg11) :=
    (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide))
  show StableHlo.after hostOps2 (V9 m outs c) (Proc.devRef .tc main_v16) = _
  generalize V9 m outs c = W at h_main_arg11 ⊢
  after_results
  rw [h_main_arg11]
  all_goals rfl

theorem kv_main_v17 (m : (ℓ : Loc nD τ sig) → Buf (Elt F) ℓ) (outs : Outs (F := F)) (c : Dev nD) :
    V10 m outs c (Proc.devRef .tc main_v17) = (allTrue (m ((c : Thread nD τ).loc main_arg11))) := by
  have h_main_arg11 : V9 m outs c (Proc.devRef .tc main_arg11) = m ((c : Thread nD τ).loc main_arg11) :=
    (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide))
  show StableHlo.after hostOps2 (V9 m outs c) (Proc.devRef .tc main_v17) = _
  generalize V9 m outs c = W at h_main_arg11 ⊢
  after_results
  rw [h_main_arg11]
  all_goals rfl

theorem kv_main_v18 (m : (ℓ : Loc nD τ sig) → Buf (Elt F) ℓ) (outs : Outs (F := F)) (c : Dev nD) :
    V10 m outs c (Proc.devRef .tc main_v18) = (shapeCast S16x3 (egoMask (m ((c : Thread nD τ).loc main_arg11))) shapeCasts_S16x1x3_S16x3 : (⟨S16x3, .i1⟩ : BufTy).Contents (Elt F)) := by
  have h_main_arg11 : V9 m outs c (Proc.devRef .tc main_arg11) = m ((c : Thread nD τ).loc main_arg11) :=
    (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide))
  show StableHlo.after hostOps2 (V9 m outs c) (Proc.devRef .tc main_v18) = _
  generalize V9 m outs c = W at h_main_arg11 ⊢
  after_results
  rw [h_main_arg11]
  all_goals rfl

theorem kv_main_v19 (m : (ℓ : Loc nD τ sig) → Buf (Elt F) ℓ) (outs : Outs (F := F)) (c : Dev nD) :
    V11 m outs c (Proc.devRef .tc main_v19) = (firstFalse (m ((c : Thread nD τ).loc main_arg11))) := by
  have h_main_v18 : V10 m outs c (Proc.devRef .tc main_v18) = (shapeCast S16x3 (egoMask (m ((c : Thread nD τ).loc main_arg11))) shapeCasts_S16x1x3_S16x3 : (⟨S16x3, .i1⟩ : BufTy).Contents (Elt F)) :=
    (kv_main_v18 m outs c)
  show StableHlo.after hostOps2_1 (V10 m outs c) (Proc.devRef .tc main_v19) = _
  generalize V10 m outs c = W at h_main_v18 ⊢
  after_results
  rw [h_main_v18]
  all_goals rfl

theorem kv_main_v20 (m : (ℓ : Loc nD τ sig) → Buf (Elt F) ℓ) (outs : Outs (F := F)) (c : Dev nD) :
    V12 m outs c (Proc.devRef .tc main_v20) = ((broadcastInDim S16x1x1x1 ![0] bcast_S16_S16x1x1x1_0 : (⟨S16, .i32⟩ : BufTy).Contents (Elt F) → (⟨S16x1x1x1, .i32⟩ : BufTy).Contents (Elt F)) (firstFalse (m ((c : Thread nD τ).loc main_arg11)))) := by
  have h_main_v19 : V11 m outs c (Proc.devRef .tc main_v19) = (firstFalse (m ((c : Thread nD τ).loc main_arg11))) :=
    (kv_main_v19 m outs c)
  show StableHlo.after hostOps2_2 (V11 m outs c) (Proc.devRef .tc main_v20) = _
  generalize V11 m outs c = W at h_main_v19 ⊢
  after_results
  rw [h_main_v19]
  all_goals rfl

set_option maxHeartbeats 1600000 in
theorem kv_main_v21 (m : (ℓ : Loc nD τ sig) → Buf (Elt F) ℓ) (outs : Outs (F := F)) (c : Dev nD) :
    V13 m outs c (Proc.devRef .tc main_v21) = (taken (m ((c : Thread nD τ).loc main_arg10)) (m ((c : Thread nD τ).loc main_arg11))) := by
  have h_main_v20 : V12 m outs c (Proc.devRef .tc main_v20) = ((broadcastInDim S16x1x1x1 ![0] bcast_S16_S16x1x1x1_0 : (⟨S16, .i32⟩ : BufTy).Contents (Elt F) → (⟨S16x1x1x1, .i32⟩ : BufTy).Contents (Elt F)) (firstFalse (m ((c : Thread nD τ).loc main_arg11)))) :=
    (kv_main_v20 m outs c)
  have h_main_v15 : V12 m outs c (Proc.devRef .tc main_v15) = (egoWindow (m ((c : Thread nD τ).loc main_arg10))) :=
    (V12_of m outs c main_v15 (by decide)).trans <| (V11_of m outs c main_v15 (by decide)).trans <| (kv_main_v15 m outs c)
  show StableHlo.after hostOps2_3 (V12 m outs c) (Proc.devRef .tc main_v21) = _
  generalize V12 m outs c = W at h_main_v20 h_main_v15 ⊢
  after_results_simp
  rw [h_main_v20, h_main_v15]
  all_goals rfl

theorem kv_main_v22 (m : (ℓ : Loc nD τ sig) → Buf (Elt F) ℓ) (outs : Outs (F := F)) (c : Dev nD) :
    V14 m outs c (Proc.devRef .tc main_v22) = (shapeCast S16x1x256 (taken (m ((c : Thread nD τ).loc main_arg10)) (m ((c : Thread nD τ).loc main_arg11))) shapeCasts_S16x1x1x256_S16x1x256 : (⟨S16x1x256, .f32⟩ : BufTy).Contents (Elt F)) := by
  have h_main_v21 : V13 m outs c (Proc.devRef .tc main_v21) = (taken (m ((c : Thread nD τ).loc main_arg10)) (m ((c : Thread nD τ).loc main_arg11))) :=
    (kv_main_v21 m outs c)
  show StableHlo.after hostOps2_4 (V13 m outs c) (Proc.devRef .tc main_v22) = _
  generalize V13 m outs c = W at h_main_v21 ⊢
  after_results
  rw [h_main_v21]
  all_goals rfl

theorem kv_main_v24 (m : (ℓ : Loc nD τ sig) → Buf (Elt F) ℓ) (outs : Outs (F := F)) (c : Dev nD) :
    V14 m outs c (Proc.devRef .tc main_v24) = (shapeCast S16x1x256 (((extractStridedSlice S16x1x1x256 ![0, 0, 3, 0] · slices_S16x1x4x256_S16x1x1x256_0_0_3_0) : (⟨S16x1x4x256, .f32⟩ : BufTy).Contents (Elt F) → (⟨S16x1x1x256, .f32⟩ : BufTy).Contents (Elt F)) (m ((c : Thread nD τ).loc main_arg10))) shapeCasts_S16x1x1x256_S16x1x256 : (⟨S16x1x256, .f32⟩ : BufTy).Contents (Elt F)) := by
  have h_main_arg10 : V13 m outs c (Proc.devRef .tc main_arg10) = m ((c : Thread nD τ).loc main_arg10) :=
    (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide))
  show StableHlo.after hostOps2_4 (V13 m outs c) (Proc.devRef .tc main_v24) = _
  generalize V13 m outs c = W at h_main_arg10 ⊢
  after_results
  rw [h_main_arg10]
  all_goals rfl

theorem kv_main_v25 (m : (ℓ : Loc nD τ sig) → Buf (Elt F) ℓ) (outs : Outs (F := F)) (c : Dev nD) :
    V14 m outs c (Proc.devRef .tc main_v25) = ((broadcastInDim S16x1x1 ![0] bcast_S16_S16x1x1_0 : (⟨S16, .i1⟩ : BufTy).Contents (Elt F) → (⟨S16x1x1, .i1⟩ : BufTy).Contents (Elt F)) (allTrue (m ((c : Thread nD τ).loc main_arg11)))) := by
  have h_main_v17 : V13 m outs c (Proc.devRef .tc main_v17) = (allTrue (m ((c : Thread nD τ).loc main_arg11))) :=
    (V13_of m outs c main_v17 (by decide)).trans <| (V12_of m outs c main_v17 (by decide)).trans <| (V11_of m outs c main_v17 (by decide)).trans <| (kv_main_v17 m outs c)
  show StableHlo.after hostOps2_4 (V13 m outs c) (Proc.devRef .tc main_v25) = _
  generalize V13 m outs c = W at h_main_v17 ⊢
  after_results
  rw [h_main_v17]
  all_goals rfl

theorem kv_main_v26 (m : (ℓ : Loc nD τ sig) → Buf (Elt F) ℓ) (outs : Outs (F := F)) (c : Dev nD) :
    V15 m outs c (Proc.devRef .tc main_v26) = (replacement (m ((c : Thread nD τ).loc main_arg10)) (m ((c : Thread nD τ).loc main_arg11))) := by
  have h_main_v25 : V14 m outs c (Proc.devRef .tc main_v25) = ((broadcastInDim S16x1x1 ![0] bcast_S16_S16x1x1_0 : (⟨S16, .i1⟩ : BufTy).Contents (Elt F) → (⟨S16x1x1, .i1⟩ : BufTy).Contents (Elt F)) (allTrue (m ((c : Thread nD τ).loc main_arg11)))) :=
    (kv_main_v25 m outs c)
  have h_main_v24 : V14 m outs c (Proc.devRef .tc main_v24) = (shapeCast S16x1x256 (((extractStridedSlice S16x1x1x256 ![0, 0, 3, 0] · slices_S16x1x4x256_S16x1x1x256_0_0_3_0) : (⟨S16x1x4x256, .f32⟩ : BufTy).Contents (Elt F) → (⟨S16x1x1x256, .f32⟩ : BufTy).Contents (Elt F)) (m ((c : Thread nD τ).loc main_arg10))) shapeCasts_S16x1x1x256_S16x1x256 : (⟨S16x1x256, .f32⟩ : BufTy).Contents (Elt F)) :=
    (kv_main_v24 m outs c)
  have h_main_v22 : V14 m outs c (Proc.devRef .tc main_v22) = (shapeCast S16x1x256 (taken (m ((c : Thread nD τ).loc main_arg10)) (m ((c : Thread nD τ).loc main_arg11))) shapeCasts_S16x1x1x256_S16x1x256 : (⟨S16x1x256, .f32⟩ : BufTy).Contents (Elt F)) :=
    (kv_main_v22 m outs c)
  show StableHlo.after hostOps2_5 (V14 m outs c) (Proc.devRef .tc main_v26) = _
  generalize V14 m outs c = W at h_main_v25 h_main_v24 h_main_v22 ⊢
  after_results
  rw [h_main_v25, h_main_v24, h_main_v22]
  all_goals rfl

theorem kv_main_v38 (m : (ℓ : Loc nD τ sig) → Buf (Elt F) ℓ) (outs : Outs (F := F)) (c : Dev nD) :
    V16 m outs c (Proc.devRef .tc main_v38) = ((andi : (⟨S16x1x3x1, .i1⟩ : BufTy).Contents (Elt F) → (⟨S16x1x3x1, .i1⟩ : BufTy).Contents (Elt F) → (⟨S16x1x3x1, .i1⟩ : BufTy).Contents (Elt F)) ((broadcastInDim S16x1x3x1 ![] bcast_S_S16x1x3x1 : (⟨S_, .i1⟩ : BufTy).Contents (Elt F) → (⟨S16x1x3x1, .i1⟩ : BufTy).Contents (Elt F)) (anyFlag (m ((c : Thread nD τ).loc main_arg11)))) ((broadcastInDim S16x1x3x1 ![0, 2] bcast_S16x3_S16x1x3x1_0_2 : (⟨S16x3, .i1⟩ : BufTy).Contents (Elt F) → (⟨S16x1x3x1, .i1⟩ : BufTy).Contents (Elt F)) (overwrite (m ((c : Thread nD τ).loc main_arg11))))) := by
  have h_main_v16 : V15 m outs c (Proc.devRef .tc main_v16) = (anyFlag (m ((c : Thread nD τ).loc main_arg11))) :=
    (V15_of m outs c main_v16 (by decide)).trans <| (V14_of m outs c main_v16 (by decide)).trans <| (V13_of m outs c main_v16 (by decide)).trans <| (V12_of m outs c main_v16 (by decide)).trans <| (V11_of m outs c main_v16 (by decide)).trans <| (kv_main_v16 m outs c)
  have h_main_v17 : V15 m outs c (Proc.devRef .tc main_v17) = (allTrue (m ((c : Thread nD τ).loc main_arg11))) :=
    (V15_of m outs c main_v17 (by decide)).trans <| (V14_of m outs c main_v17 (by decide)).trans <| (V13_of m outs c main_v17 (by decide)).trans <| (V12_of m outs c main_v17 (by decide)).trans <| (V11_of m outs c main_v17 (by decide)).trans <| (kv_main_v17 m outs c)
  have h_main_v19 : V15 m outs c (Proc.devRef .tc main_v19) = (firstFalse (m ((c : Thread nD τ).loc main_arg11))) :=
    (V15_of m outs c main_v19 (by decide)).trans <| (V14_of m outs c main_v19 (by decide)).trans <| (V13_of m outs c main_v19 (by decide)).trans <| (V12_of m outs c main_v19 (by decide)).trans <| (kv_main_v19 m outs c)
  show StableHlo.after hostOps2_6 (V15 m outs c) (Proc.devRef .tc main_v38) = _
  generalize V15 m outs c = W at h_main_v16 h_main_v17 h_main_v19 ⊢
  after_results
  rw [h_main_v16, h_main_v17, h_main_v19]
  all_goals rfl

theorem kv_main_v39 (m : (ℓ : Loc nD τ sig) → Buf (Elt F) ℓ) (outs : Outs (F := F)) (c : Dev nD) :
    V16 m outs c (Proc.devRef .tc main_v39) = ((broadcastInDim S16x1x1x256 ![0, 1, 3] bcast_S16x1x256_S16x1x1x256_0_1_3 : (⟨S16x1x256, .f32⟩ : BufTy).Contents (Elt F) → (⟨S16x1x1x256, .f32⟩ : BufTy).Contents (Elt F)) (replacement (m ((c : Thread nD τ).loc main_arg10)) (m ((c : Thread nD τ).loc main_arg11)))) := by
  have h_main_v26 : V15 m outs c (Proc.devRef .tc main_v26) = (replacement (m ((c : Thread nD τ).loc main_arg10)) (m ((c : Thread nD τ).loc main_arg11))) :=
    (kv_main_v26 m outs c)
  show StableHlo.after hostOps2_6 (V15 m outs c) (Proc.devRef .tc main_v39) = _
  generalize V15 m outs c = W at h_main_v26 ⊢
  after_results
  rw [h_main_v26]
  all_goals rfl

theorem kv_main_v40 (m : (ℓ : Loc nD τ sig) → Buf (Elt F) ℓ) (outs : Outs (F := F)) (c : Dev nD) :
    V17 m outs c (Proc.devRef .tc main_v40) = ((select : (⟨S16x1x3x256, .i1⟩ : BufTy).Contents (Elt F) → (⟨S16x1x3x256, .f32⟩ : BufTy).Contents (Elt F) → (⟨S16x1x3x256, .f32⟩ : BufTy).Contents (Elt F) → (⟨S16x1x3x256, .f32⟩ : BufTy).Contents (Elt F)) (((broadcastInDim S16x1x3x256 ![0, 1, 2, 3] bcast_S16x1x3x1_S16x1x3x256_0_1_2_3) : (⟨S16x1x3x1, .i1⟩ : BufTy).Contents (Elt F) → (⟨S16x1x3x256, .i1⟩ : BufTy).Contents (Elt F)) ((andi : (⟨S16x1x3x1, .i1⟩ : BufTy).Contents (Elt F) → (⟨S16x1x3x1, .i1⟩ : BufTy).Contents (Elt F) → (⟨S16x1x3x1, .i1⟩ : BufTy).Contents (Elt F)) ((broadcastInDim S16x1x3x1 ![] bcast_S_S16x1x3x1 : (⟨S_, .i1⟩ : BufTy).Contents (Elt F) → (⟨S16x1x3x1, .i1⟩ : BufTy).Contents (Elt F)) (anyFlag (m ((c : Thread nD τ).loc main_arg11)))) ((broadcastInDim S16x1x3x1 ![0, 2] bcast_S16x3_S16x1x3x1_0_2 : (⟨S16x3, .i1⟩ : BufTy).Contents (Elt F) → (⟨S16x1x3x1, .i1⟩ : BufTy).Contents (Elt F)) (overwrite (m ((c : Thread nD τ).loc main_arg11)))))) (((broadcastInDim S16x1x3x256 ![0, 1, 2, 3] bcast_S16x1x1x256_S16x1x3x256_0_1_2_3) : (⟨S16x1x1x256, .f32⟩ : BufTy).Contents (Elt F) → (⟨S16x1x3x256, .f32⟩ : BufTy).Contents (Elt F)) ((broadcastInDim S16x1x1x256 ![0, 1, 3] bcast_S16x1x256_S16x1x1x256_0_1_3 : (⟨S16x1x256, .f32⟩ : BufTy).Contents (Elt F) → (⟨S16x1x1x256, .f32⟩ : BufTy).Contents (Elt F)) (replacement (m ((c : Thread nD τ).loc main_arg10)) (m ((c : Thread nD τ).loc main_arg11))))) (egoWindow (m ((c : Thread nD τ).loc main_arg10)))) := by
  have h_main_v38 : V16 m outs c (Proc.devRef .tc main_v38) = ((andi : (⟨S16x1x3x1, .i1⟩ : BufTy).Contents (Elt F) → (⟨S16x1x3x1, .i1⟩ : BufTy).Contents (Elt F) → (⟨S16x1x3x1, .i1⟩ : BufTy).Contents (Elt F)) ((broadcastInDim S16x1x3x1 ![] bcast_S_S16x1x3x1 : (⟨S_, .i1⟩ : BufTy).Contents (Elt F) → (⟨S16x1x3x1, .i1⟩ : BufTy).Contents (Elt F)) (anyFlag (m ((c : Thread nD τ).loc main_arg11)))) ((broadcastInDim S16x1x3x1 ![0, 2] bcast_S16x3_S16x1x3x1_0_2 : (⟨S16x3, .i1⟩ : BufTy).Contents (Elt F) → (⟨S16x1x3x1, .i1⟩ : BufTy).Contents (Elt F)) (overwrite (m ((c : Thread nD τ).loc main_arg11))))) :=
    (kv_main_v38 m outs c)
  have h_main_v39 : V16 m outs c (Proc.devRef .tc main_v39) = ((broadcastInDim S16x1x1x256 ![0, 1, 3] bcast_S16x1x256_S16x1x1x256_0_1_3 : (⟨S16x1x256, .f32⟩ : BufTy).Contents (Elt F) → (⟨S16x1x1x256, .f32⟩ : BufTy).Contents (Elt F)) (replacement (m ((c : Thread nD τ).loc main_arg10)) (m ((c : Thread nD τ).loc main_arg11)))) :=
    (kv_main_v39 m outs c)
  have h_main_v15 : V16 m outs c (Proc.devRef .tc main_v15) = (egoWindow (m ((c : Thread nD τ).loc main_arg10))) :=
    (V16_of m outs c main_v15 (by decide)).trans <| (V15_of m outs c main_v15 (by decide)).trans <| (V14_of m outs c main_v15 (by decide)).trans <| (V13_of m outs c main_v15 (by decide)).trans <| (V12_of m outs c main_v15 (by decide)).trans <| (V11_of m outs c main_v15 (by decide)).trans <| (kv_main_v15 m outs c)
  show StableHlo.after hostOps2_7 (V16 m outs c) (Proc.devRef .tc main_v40) = _
  generalize V16 m outs c = W at h_main_v38 h_main_v39 h_main_v15 ⊢
  after_results
  rw [h_main_v38, h_main_v39, h_main_v15]
  all_goals rfl

theorem kv_main_v41 (m : (ℓ : Loc nD τ sig) → Buf (Elt F) ℓ) (outs : Outs (F := F)) (c : Dev nD) :
    V18 m outs c (Proc.devRef .tc main_v41) = (egoMaskT (m ((c : Thread nD τ).loc main_arg11))) := by
  have h_main_v14 : V17 m outs c (Proc.devRef .tc main_v14) = (egoMask (m ((c : Thread nD τ).loc main_arg11))) :=
    (V17_of m outs c main_v14 (by decide)).trans <| (V16_of m outs c main_v14 (by decide)).trans <| (V15_of m outs c main_v14 (by decide)).trans <| (V14_of m outs c main_v14 (by decide)).trans <| (V13_of m outs c main_v14 (by decide)).trans <| (V12_of m outs c main_v14 (by decide)).trans <| (V11_of m outs c main_v14 (by decide)).trans <| (kv_main_v14 m outs c)
  show StableHlo.after hostOps2_8 (V17 m outs c) (Proc.devRef .tc main_v41) = _
  generalize V17 m outs c = W at h_main_v14 ⊢
  after_results
  rw [h_main_v14]
  all_goals rfl

theorem kv_main_v42 (m : (ℓ : Loc nD τ sig) → Buf (Elt F) ℓ) (outs : Outs (F := F)) (c : Dev nD) :
    V18 m outs c (Proc.devRef .tc main_v42) = (egoEmbedT (m ((c : Thread nD τ).loc main_arg10)) (m ((c : Thread nD τ).loc main_arg11))) := by
  have h_main_v40 : V17 m outs c (Proc.devRef .tc main_v40) = ((select : (⟨S16x1x3x256, .i1⟩ : BufTy).Contents (Elt F) → (⟨S16x1x3x256, .f32⟩ : BufTy).Contents (Elt F) → (⟨S16x1x3x256, .f32⟩ : BufTy).Contents (Elt F) → (⟨S16x1x3x256, .f32⟩ : BufTy).Contents (Elt F)) (((broadcastInDim S16x1x3x256 ![0, 1, 2, 3] bcast_S16x1x3x1_S16x1x3x256_0_1_2_3) : (⟨S16x1x3x1, .i1⟩ : BufTy).Contents (Elt F) → (⟨S16x1x3x256, .i1⟩ : BufTy).Contents (Elt F)) ((andi : (⟨S16x1x3x1, .i1⟩ : BufTy).Contents (Elt F) → (⟨S16x1x3x1, .i1⟩ : BufTy).Contents (Elt F) → (⟨S16x1x3x1, .i1⟩ : BufTy).Contents (Elt F)) ((broadcastInDim S16x1x3x1 ![] bcast_S_S16x1x3x1 : (⟨S_, .i1⟩ : BufTy).Contents (Elt F) → (⟨S16x1x3x1, .i1⟩ : BufTy).Contents (Elt F)) (anyFlag (m ((c : Thread nD τ).loc main_arg11)))) ((broadcastInDim S16x1x3x1 ![0, 2] bcast_S16x3_S16x1x3x1_0_2 : (⟨S16x3, .i1⟩ : BufTy).Contents (Elt F) → (⟨S16x1x3x1, .i1⟩ : BufTy).Contents (Elt F)) (overwrite (m ((c : Thread nD τ).loc main_arg11)))))) (((broadcastInDim S16x1x3x256 ![0, 1, 2, 3] bcast_S16x1x1x256_S16x1x3x256_0_1_2_3) : (⟨S16x1x1x256, .f32⟩ : BufTy).Contents (Elt F) → (⟨S16x1x3x256, .f32⟩ : BufTy).Contents (Elt F)) ((broadcastInDim S16x1x1x256 ![0, 1, 3] bcast_S16x1x256_S16x1x1x256_0_1_3 : (⟨S16x1x256, .f32⟩ : BufTy).Contents (Elt F) → (⟨S16x1x1x256, .f32⟩ : BufTy).Contents (Elt F)) (replacement (m ((c : Thread nD τ).loc main_arg10)) (m ((c : Thread nD τ).loc main_arg11))))) (egoWindow (m ((c : Thread nD τ).loc main_arg10)))) :=
    (kv_main_v40 m outs c)
  show StableHlo.after hostOps2_8 (V17 m outs c) (Proc.devRef .tc main_v42) = _
  generalize V17 m outs c = W at h_main_v40 ⊢
  after_results
  rw [h_main_v40]
  all_goals rfl

/-! ## The six results at the end of the program -/

/-- The kernel program's final `main_v5` — whatever the two kernel regions leave in their outputs — is `planQueue` of the arguments. -/
theorem final_main_v5 (m : (ℓ : Loc nD τ sig) → Buf (Elt F) ℓ) (outs : Outs (F := F)) (c : Dev nD) :
    V18 m outs c (Proc.devRef .tc main_v5) = (planQueue (m ((c : Thread nD τ).loc main_arg1)) (m ((c : Thread nD τ).loc main_arg4)) (m ((c : Thread nD τ).loc main_arg7))) :=
  (V18_of m outs c main_v5 (by decide)).trans <| (V17_of m outs c main_v5 (by decide)).trans <| (V16_of m outs c main_v5 (by decide)).trans <| (V15_of m outs c main_v5 (by decide)).trans <| (V14_of m outs c main_v5 (by decide)).trans <| (V13_of m outs c main_v5 (by decide)).trans <| (V12_of m outs c main_v5 (by decide)).trans <| (V11_of m outs c main_v5 (by decide)).trans <| (V10_of m outs c main_v5 (by decide)).trans <| (V9_of m outs c main_v5 (by decide)).trans <| (V8_of m outs c main_v5 (by decide)).trans <| (V7_of m outs c main_v5 (by decide)).trans <| (V6_of m outs c main_v5 (by decide)).trans <| (V5_of m outs c main_v5 (by decide)).trans <| (kv_main_v5 m outs c)

/-- The kernel program's final `main_v8` — whatever the two kernel regions leave in their outputs — is `egoStatusQueue` of the arguments. -/
theorem final_main_v8 (m : (ℓ : Loc nD τ sig) → Buf (Elt F) ℓ) (outs : Outs (F := F)) (c : Dev nD) :
    V18 m outs c (Proc.devRef .tc main_v8) = (egoStatusQueue (m ((c : Thread nD τ).loc main_arg2)) (m ((c : Thread nD τ).loc main_arg5)) (m ((c : Thread nD τ).loc main_arg7))) :=
  (V18_of m outs c main_v8 (by decide)).trans <| (V17_of m outs c main_v8 (by decide)).trans <| (V16_of m outs c main_v8 (by decide)).trans <| (V15_of m outs c main_v8 (by decide)).trans <| (V14_of m outs c main_v8 (by decide)).trans <| (V13_of m outs c main_v8 (by decide)).trans <| (V12_of m outs c main_v8 (by decide)).trans <| (V11_of m outs c main_v8 (by decide)).trans <| (V10_of m outs c main_v8 (by decide)).trans <| (V9_of m outs c main_v8 (by decide)).trans <| (V8_of m outs c main_v8 (by decide)).trans <| (V7_of m outs c main_v8 (by decide)).trans <| (kv_main_v8 m outs c)

/-- The kernel program's final `main_v10` — whatever the two kernel regions leave in their outputs — is `periodOut` of the arguments. -/
theorem final_main_v10 (m : (ℓ : Loc nD τ sig) → Buf (Elt F) ℓ) (outs : Outs (F := F)) (c : Dev nD) :
    V18 m outs c (Proc.devRef .tc main_v10) = (periodOut (m ((c : Thread nD τ).loc main_arg6)) (m ((c : Thread nD τ).loc main_arg7))) :=
  (V18_of m outs c main_v10 (by decide)).trans <| (V17_of m outs c main_v10 (by decide)).trans <| (V16_of m outs c main_v10 (by decide)).trans <| (V15_of m outs c main_v10 (by decide)).trans <| (V14_of m outs c main_v10 (by decide)).trans <| (V13_of m outs c main_v10 (by decide)).trans <| (V12_of m outs c main_v10 (by decide)).trans <| (V11_of m outs c main_v10 (by decide)).trans <| (V10_of m outs c main_v10 (by decide)).trans <| (V9_of m outs c main_v10 (by decide)).trans <| (kv_main_v10 m outs c)

/-- The kernel program's final `main_v13` — whatever the two kernel regions leave in their outputs — is `maskT` of the arguments. -/
theorem final_main_v13 (m : (ℓ : Loc nD τ sig) → Buf (Elt F) ℓ) (outs : Outs (F := F)) (c : Dev nD) :
    V18 m outs c (Proc.devRef .tc main_v13) = (maskT (m ((c : Thread nD τ).loc main_arg9))) :=
  (V18_of m outs c main_v13 (by decide)).trans <| (V17_of m outs c main_v13 (by decide)).trans <| (V16_of m outs c main_v13 (by decide)).trans <| (V15_of m outs c main_v13 (by decide)).trans <| (V14_of m outs c main_v13 (by decide)).trans <| (V13_of m outs c main_v13 (by decide)).trans <| (V12_of m outs c main_v13 (by decide)).trans <| (V11_of m outs c main_v13 (by decide)).trans <| (kv_main_v13 m outs c)

/-- The kernel program's final `main_v41` — whatever the two kernel regions leave in their outputs — is `egoMaskT` of the arguments. -/
theorem final_main_v41 (m : (ℓ : Loc nD τ sig) → Buf (Elt F) ℓ) (outs : Outs (F := F)) (c : Dev nD) :
    V18 m outs c (Proc.devRef .tc main_v41) = (egoMaskT (m ((c : Thread nD τ).loc main_arg11))) :=
  (kv_main_v41 m outs c)

/-- The kernel program's final `main_v42` — whatever the two kernel regions leave in their outputs — is `egoEmbedT` of the arguments. -/
theorem final_main_v42 (m : (ℓ : Loc nD τ sig) → Buf (Elt F) ℓ) (outs : Outs (F := F)) (c : Dev nD) :
    V18 m outs c (Proc.devRef .tc main_v42) = (egoEmbedT (m ((c : Thread nD τ).loc main_arg10)) (m ((c : Thread nD τ).loc main_arg11))) :=
  (kv_main_v42 m outs c)

end Cert.KernelIdeal.HostVal

end
-- ==== Proof.RefValues.lean ====
/-
  The reference's six host-computed results as the specification's functions of its arguments.

  The fold of the reference's operations, read at a result buffer, is the composition of the operations that
  feed it, down to the argument buffers; that composition is the specification's term by unfolding.
-/
import proofs.«134566_j28123445854543_1_alg».proof.Proof.RefRun
import proofs.«134566_j28123445854543_1_alg».proof.Proof.HostSpec

noncomputable section

namespace Cert.ReferenceIdeal.Hand

open Cert.ReferenceIdeal Cert.ReferenceIdeal.Gen Idealize.ShloMosaic Idealize.ShloMosaic.TcCoe Idealize.SL.Sem Cert.HostSpec

variable {F : FTy → Type} [FloatOps F]

-- the reductions, the two-operand reduction and the gather are folds and searches over their operands' entries:
-- the comparison below never looks inside them
attribute [local irreducible] Host.reduce Host.reduce2 Host.gather

/-- The reference's `%6` is `planQueue` of the arguments. -/
theorem planQueue_eq (V : Valuation τ sig (Elt F)) :
    StableHlo.after ops V (Proc.devRef .tc main_v6) = planQueue (V (Proc.devRef .tc main_arg1)) (V (Proc.devRef .tc main_arg4)) (V (Proc.devRef .tc main_arg7)) := by
  after_results_simp
  rfl

/-- The reference's `%9` is `egoStatusQueue` of the arguments. -/
theorem egoStatusQueue_eq (V : Valuation τ sig (Elt F)) :
    StableHlo.after ops V (Proc.devRef .tc main_v9) = egoStatusQueue (V (Proc.devRef .tc main_arg2)) (V (Proc.devRef .tc main_arg5)) (V (Proc.devRef .tc main_arg7)) := by
  after_results_simp
  rfl

/-- The reference's `%11` is `periodOut` of the arguments. -/
theorem periodOut_eq (V : Valuation τ sig (Elt F)) :
    StableHlo.after ops V (Proc.devRef .tc main_v11) = periodOut (V (Proc.devRef .tc main_arg6)) (V (Proc.devRef .tc main_arg7)) := by
  after_results_simp
  rfl

/-- The reference's `%41` is `maskT` of the arguments. -/
theorem maskT_eq (V : Valuation τ sig (Elt F)) :
    StableHlo.after ops V (Proc.devRef .tc main_v41) = maskT (V (Proc.devRef .tc main_arg9)) := by
  after_results_simp
  rfl

/-- The reference's `%43` is `egoMaskT` of the arguments. -/
theorem egoMaskT_eq (V : Valuation τ sig (Elt F)) :
    StableHlo.after ops V (Proc.devRef .tc main_v43) = egoMaskT (V (Proc.devRef .tc main_arg11)) := by
  after_results_simp
  rfl

/-- The reference's `%44` is `egoEmbedT` of the arguments. -/
theorem egoEmbedT_eq (V : Valuation τ sig (Elt F)) :
    StableHlo.after ops V (Proc.devRef .tc main_v44) = egoEmbedT (V (Proc.devRef .tc main_arg10)) (V (Proc.devRef .tc main_arg11)) := by
  after_results_simp
  rfl

end Cert.ReferenceIdeal.Hand

end
-- ==== Proof.HostBridge.lean ====
/-
  The six results both programs compute on the host are equal.

  Each of the two programs ends with these six buffers at the same function of its own arguments (the
  specification's term); the two memories agree on the arguments the term reads, so the buffers are equal.
  Floats are read as extended reals throughout, though nothing here depends on that: the two sides apply the
  same operations in the same order.
-/
import proofs.«134566_j28123445854543_1_alg».proof.Proof.KernValues
import proofs.«134566_j28123445854543_1_alg».proof.Proof.RefValues
import Idealize.ShloMosaic.PureOps.Ideal

noncomputable section

namespace Cert.HostBridge

open Idealize.ShloMosaic Idealize.ShloMosaic.TcCoe Idealize.SL.Sem

variable (m : (ℓ : Loc Cert.KernelIdeal.nD Cert.KernelIdeal.τ Cert.KernelIdeal.sig) → Buf (Elt Ideal) ℓ)
  (outs : Cert.KernelIdeal.Gen.Outs (F := Ideal))
  (m' : (ℓ : Loc Cert.ReferenceIdeal.nD Cert.ReferenceIdeal.τ Cert.ReferenceIdeal.sig) → Buf (Elt Ideal) ℓ)
  (c : Dev Cert.KernelIdeal.nD)

/-- The plan queue after the reset: the kernel program's final `main_v5` and the reference's final `main_v6` are the same array,
    both being `planQueue` of arguments on which the two memories agree. -/
theorem planQueue_bridge
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Gen.V18 m outs c (Proc.devRef .tc Cert.KernelIdeal.main_v5)
      = StableHlo.after Cert.ReferenceIdeal.Hand.ops (StableHlo.launchContents m' c) (Proc.devRef .tc Cert.ReferenceIdeal.main_v6) := by
  refine (Cert.KernelIdeal.HostVal.final_main_v5 m outs c).trans
    (Eq.trans ?_ (Cert.ReferenceIdeal.Hand.planQueue_eq (StableHlo.launchContents m' c)).symm)
  show Cert.HostSpec.planQueue (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg7))
    = Cert.HostSpec.planQueue (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7))
  rw [h1, h4, h7]

/-- The ego status queue after the reset: the kernel program's final `main_v8` and the reference's final `main_v9` are the same array,
    both being `egoStatusQueue` of arguments on which the two memories agree. -/
theorem egoStatusQueue_bridge
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Gen.V18 m outs c (Proc.devRef .tc Cert.KernelIdeal.main_v8)
      = StableHlo.after Cert.ReferenceIdeal.Hand.ops (StableHlo.launchContents m' c) (Proc.devRef .tc Cert.ReferenceIdeal.main_v9) := by
  refine (Cert.KernelIdeal.HostVal.final_main_v8 m outs c).trans
    (Eq.trans ?_ (Cert.ReferenceIdeal.Hand.egoStatusQueue_eq (StableHlo.launchContents m' c)).symm)
  show Cert.HostSpec.egoStatusQueue (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg7))
    = Cert.HostSpec.egoStatusQueue (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7))
  rw [h2, h5, h7]

/-- The period after the reset: the kernel program's final `main_v10` and the reference's final `main_v11` are the same array,
    both being `periodOut` of arguments on which the two memories agree. -/
theorem periodOut_bridge
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Gen.V18 m outs c (Proc.devRef .tc Cert.KernelIdeal.main_v10)
      = StableHlo.after Cert.ReferenceIdeal.Hand.ops (StableHlo.launchContents m' c) (Proc.devRef .tc Cert.ReferenceIdeal.main_v11) := by
  refine (Cert.KernelIdeal.HostVal.final_main_v10 m outs c).trans
    (Eq.trans ?_ (Cert.ReferenceIdeal.Hand.periodOut_eq (StableHlo.launchContents m' c)).symm)
  show Cert.HostSpec.periodOut (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    = Cert.HostSpec.periodOut (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
  rw [h6, h7]

/-- The agents' sliced mask, transposed: the kernel program's final `main_v13` and the reference's final `main_v41` are the same array,
    both being `maskT` of arguments on which the two memories agree. -/
theorem maskT_bridge
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.KernelIdeal.Gen.V18 m outs c (Proc.devRef .tc Cert.KernelIdeal.main_v13)
      = StableHlo.after Cert.ReferenceIdeal.Hand.ops (StableHlo.launchContents m' c) (Proc.devRef .tc Cert.ReferenceIdeal.main_v41) := by
  refine (Cert.KernelIdeal.HostVal.final_main_v13 m outs c).trans
    (Eq.trans ?_ (Cert.ReferenceIdeal.Hand.maskT_eq (StableHlo.launchContents m' c)).symm)
  show Cert.HostSpec.maskT (m ((c.tc : Thread Cert.KernelIdeal.nD Cert.KernelIdeal.τ).loc Cert.KernelIdeal.main_arg9))
    = Cert.HostSpec.maskT (m' ((c.tc : Thread Cert.ReferenceIdeal.nD Cert.ReferenceIdeal.τ).loc Cert.ReferenceIdeal.main_arg9))
  rw [h9]

/-- The ego sliced mask, transposed: the kernel program's final `main_v41` and the reference's final `main_v43` are the same array,
    both being `egoMaskT` of arguments on which the two memories agree. -/
theorem egoMaskT_bridge
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.KernelIdeal.Gen.V18 m outs c (Proc.devRef .tc Cert.KernelIdeal.main_v41)
      = StableHlo.after Cert.ReferenceIdeal.Hand.ops (StableHlo.launchContents m' c) (Proc.devRef .tc Cert.ReferenceIdeal.main_v43) := by
  refine (Cert.KernelIdeal.HostVal.final_main_v41 m outs c).trans
    (Eq.trans ?_ (Cert.ReferenceIdeal.Hand.egoMaskT_eq (StableHlo.launchContents m' c)).symm)
  show Cert.HostSpec.egoMaskT (m ((c.tc : Thread Cert.KernelIdeal.nD Cert.KernelIdeal.τ).loc Cert.KernelIdeal.main_arg11))
    = Cert.HostSpec.egoMaskT (m' ((c.tc : Thread Cert.ReferenceIdeal.nD Cert.ReferenceIdeal.τ).loc Cert.ReferenceIdeal.main_arg11))
  rw [h11]

/-- The ego embedding after the propagation, transposed: the kernel program's final `main_v42` and the reference's final `main_v44` are the same array,
    both being `egoEmbedT` of arguments on which the two memories agree. -/
theorem egoEmbedT_bridge
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.KernelIdeal.Gen.V18 m outs c (Proc.devRef .tc Cert.KernelIdeal.main_v42)
      = StableHlo.after Cert.ReferenceIdeal.Hand.ops (StableHlo.launchContents m' c) (Proc.devRef .tc Cert.ReferenceIdeal.main_v44) := by
  refine (Cert.KernelIdeal.HostVal.final_main_v42 m outs c).trans
    (Eq.trans ?_ (Cert.ReferenceIdeal.Hand.egoEmbedT_eq (StableHlo.launchContents m' c)).symm)
  show Cert.HostSpec.egoEmbedT (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    = Cert.HostSpec.egoEmbedT (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
  rw [h10, h11]

end Cert.HostBridge

end
-- ==== Proof.KIRegion1Value.lean ====
/- What region 1 of @main (the second pallas_call) leaves in its result array.

   At grid point b the body writes, into plane t of the output block (t = 0, 1, 2), plane t of the input block with its
   two middle axes exchanged: entry (0, t, n, d) of the output block is entry (0, n, t, d) of the input block. The input
   block at point b is batch b of the argument (shape 16×900×4×256) and the output block is batch b of the result
   (shape 16×3×900×256); the sixteen output blocks tile the result. So after the region the result holds, at
   (b, t, n, d), the argument at (b, n, t, d): the argument sliced to its first three planes on axis 2 and then
   transposed by the permutation [0, 2, 1, 3]. -/
import proofs.«134566_j28123445854543_1_alg».proof.Proof.KIRegion1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F]

/-! ## One plane, re-laid -/

/-- A 1×900×1×256 plane cast to 900×256 and then to 1×1×900×256 keeps its (row, lane) coordinates: all three shapes
    list the same 900·256 entries in the same row-major order. -/
theorem relaid_apply {α : Type} (v : S1x900x1x256.Idx → α) (u0 u1 : Fin 1) (n : Fin 900) (d : Fin 256) :
    shapeCast S1x1x900x256 (shapeCast S900x256 v shapeCasts_S1x900x1x256_S900x256) shapeCasts_S900x256_S1x1x900x256 (ix4 u0 u1 n d)
      = v (ix4 (0 : Fin 1) n (0 : Fin 1) d) := by
  refine (shapeCast_apply _ _ (ix4 u0 u1 n d) (ix2 n d) ?_).trans ?_
  · rw [Shape.rowMajor_val_two, Shape.rowMajor_val_four]
    show n.val * 256 + d.val = ((u0.val * 1 + u1.val) * 900 + n.val) * 256 + d.val
    have h0 := u0.isLt; have h1 := u1.isLt; omega
  · refine shapeCast_apply _ _ (ix2 n d) (ix4 (0 : Fin 1) n (0 : Fin 1) d) ?_
    rw [Shape.rowMajor_val_four, Shape.rowMajor_val_two]
    show ((0 * 900 + n.val) * 1 + 0) * 256 + d.val = n.val * 256 + d.val
    omega

/-- Each of the body's three payloads is the loaded plane re-laid. -/
theorem k1_pay1_apply (v : Vec F S1x900x1x256 .f32) (u0 u1 : Fin 1) (n : Fin 900) (d : Fin 256) :
    k1_pay1 v (ix4 u0 u1 n d) = v (ix4 (0 : Fin 1) n (0 : Fin 1) d) := by
  unfold k1_pay1
  exact relaid_apply v u0 u1 n d
theorem k1_pay2_apply (v : Vec F S1x900x1x256 .f32) (u0 u1 : Fin 1) (n : Fin 900) (d : Fin 256) :
    k1_pay2 v (ix4 u0 u1 n d) = v (ix4 (0 : Fin 1) n (0 : Fin 1) d) := by
  unfold k1_pay2
  exact relaid_apply v u0 u1 n d
theorem k1_pay3_apply (v : Vec F S1x900x1x256 .f32) (u0 u1 : Fin 1) (n : Fin 900) (d : Fin 256) :
    k1_pay3 v (ix4 u0 u1 n d) = v (ix4 (0 : Fin 1) n (0 : Fin 1) d) := by
  unfold k1_pay3
  exact relaid_apply v u0 u1 n d

/-! ## The output block from the input block -/

/-- The entry of the input block that entry `y` of the output block holds: the two middle coordinates exchanged. -/
def blkSrc (y : S1x3x900x256.Idx) : S1x900x4x256.Idx :=
  ix4 (n0 := 1) (n1 := 900) (n2 := 4) (n3 := 256) (y 0) (y 2) ⟨(y 1).val, Nat.lt_of_lt_of_le (y 1).isLt (by decide)⟩ (y 3)

/-- Store t's payload, at a local index, is the input block at the exchanged index under the store's plane:
    the load reads plane t on axis 2 of the input, the store writes plane t on axis 1 of the output. -/
theorem piece0_apply (x0 : Vec F S1x900x4x256 .f32) (u0 u1 : Fin 1) (n : Fin 900) (d : Fin 256) :
    k1_pay1 (View.ld x0 l1_0) (ix4 u0 u1 n d) = x0 (blkSrc (s1_0.emb (ix4 u0 u1 n d))) := by
  refine (k1_pay1_apply (View.ld x0 l1_0) u0 u1 n d).trans ?_
  show x0 (l1_0.idx (ix4 (0 : Fin 1) n (0 : Fin 1) d)) = _
  refine congrArg x0 (funext fun a => Fin.ext ?_)
  match a with
  | ⟨0, _⟩ => show 0 + 1 * 0 = 0 + 1 * u0.val; have h0 := u0.isLt; omega
  | ⟨1, _⟩ => show 0 + 1 * n.val = 0 + 1 * n.val; rfl
  | ⟨2, _⟩ => show 0 + 1 * 0 = 0 + 1 * u1.val; have h1 := u1.isLt; omega
  | ⟨3, _⟩ => show 0 + 1 * d.val = 0 + 1 * d.val; rfl
theorem piece1_apply (x0 : Vec F S1x900x4x256 .f32) (u0 u1 : Fin 1) (n : Fin 900) (d : Fin 256) :
    k1_pay2 (View.ld x0 l1_1) (ix4 u0 u1 n d) = x0 (blkSrc (s1_1.emb (ix4 u0 u1 n d))) := by
  refine (k1_pay2_apply (View.ld x0 l1_1) u0 u1 n d).trans ?_
  show x0 (l1_1.idx (ix4 (0 : Fin 1) n (0 : Fin 1) d)) = _
  refine congrArg x0 (funext fun a => Fin.ext ?_)
  match a with
  | ⟨0, _⟩ => show 0 + 1 * 0 = 0 + 1 * u0.val; have h0 := u0.isLt; omega
  | ⟨1, _⟩ => show 0 + 1 * n.val = 0 + 1 * n.val; rfl
  | ⟨2, _⟩ => show 1 + 1 * 0 = 1 + 1 * u1.val; have h1 := u1.isLt; omega
  | ⟨3, _⟩ => show 0 + 1 * d.val = 0 + 1 * d.val; rfl
theorem piece2_apply (x0 : Vec F S1x900x4x256 .f32) (u0 u1 : Fin 1) (n : Fin 900) (d : Fin 256) :
    k1_pay3 (View.ld x0 l1_2) (ix4 u0 u1 n d) = x0 (blkSrc (s1_2.emb (ix4 u0 u1 n d))) := by
  refine (k1_pay3_apply (View.ld x0 l1_2) u0 u1 n d).trans ?_
  show x0 (l1_2.idx (ix4 (0 : Fin 1) n (0 : Fin 1) d)) = _
  refine congrArg x0 (funext fun a => Fin.ext ?_)
  match a with
  | ⟨0, _⟩ => show 0 + 1 * 0 = 0 + 1 * u0.val; have h0 := u0.isLt; omega
  | ⟨1, _⟩ => show 0 + 1 * n.val = 0 + 1 * n.val; rfl
  | ⟨2, _⟩ => show 2 + 1 * 0 = 2 + 1 * u1.val; have h1 := u1.isLt; omega
  | ⟨3, _⟩ => show 0 + 1 * d.val = 0 + 1 * d.val; rfl

/-- What the body leaves in the output block, entry by entry. -/
theorem out1_1_apply (x0 : Vec F S1x900x4x256 .f32) (y : S1x3x900x256.Idx) : out1_1 x0 y = x0 (blkSrc y) := by
  unfold out1_1
  refine View.canon_apply_of_pieces (fun y => x0 (blkSrc y)) _ ?_ y (cover1_1 _ _ _ y)
  intro p hp x
  simp only [List.mem_cons, List.not_mem_nil, or_false] at hp
  rcases hp with rfl | rfl | rfl
  · obtain ⟨u0, u1, n, d, rfl⟩ : ∃ (u0 u1 : Fin 1) (n : Fin 900) (d : Fin 256), x = ix4 u0 u1 n d := ⟨x 0, x 1, x 2, x 3, eq_ix4 x⟩
    exact piece2_apply x0 u0 u1 n d
  · obtain ⟨u0, u1, n, d, rfl⟩ : ∃ (u0 u1 : Fin 1) (n : Fin 900) (d : Fin 256), x = ix4 u0 u1 n d := ⟨x 0, x 1, x 2, x 3, eq_ix4 x⟩
    exact piece1_apply x0 u0 u1 n d
  · obtain ⟨u0, u1, n, d, rfl⟩ : ∃ (u0 u1 : Fin 1) (n : Fin 900) (d : Fin 256), x = ix4 u0 u1 n d := ⟨x 0, x 1, x 2, x 3, eq_ix4 x⟩
    exact piece0_apply x0 u0 u1 n d

/-! ## From the blocks to the array -/

/-- The entry of the argument that entry `i` of the result holds: the two middle coordinates exchanged. -/
def arrSrc (i : S16x3x900x256.Idx) : S16x900x4x256.Idx :=
  ix4 (n0 := 16) (n1 := 900) (n2 := 4) (n3 := 256) (i 0) (i 2) ⟨(i 1).val, Nat.lt_of_lt_of_le (i 1).isLt (by decide)⟩ (i 3)

/-- The result as one function of the argument: entry (b, t, n, d) is the argument's entry (b, n, t, d). -/
def relaidArr {α : Type} (A : S16x900x4x256.Idx → α) : S16x3x900x256.Idx → α := fun i => A (arrSrc i)

/-- The two windows' index maps over the grid: both blocks at point `t` are batch `t`, whole on the other axes. -/
theorem idx_facts1 : ∀ t : Fin cfg1.N, win1_0.index t (0 : Fin 4) = win1_1.index t (0 : Fin 4)
    ∧ win1_0.index t (1 : Fin 4) = 0 ∧ win1_0.index t (2 : Fin 4) = 0 ∧ win1_0.index t (3 : Fin 4) = 0
    ∧ win1_1.index t (1 : Fin 4) = 0 ∧ win1_1.index t (2 : Fin 4) = 0 ∧ win1_1.index t (3 : Fin 4) = 0 :=
  (by decide +kernel : ∀ t : Fin grid1.N, _)

/-- Every batch is some point's block. -/
theorem idx_onto1 : ∀ q : Fin 16, ∃ t : Fin cfg1.N, win1_1.index t (0 : Fin 4) = q.val :=
  (by decide +kernel : ∀ q : Fin 16, ∃ t : Fin grid1.N, win1_1.index t (0 : Fin 4) = q.val)

section
variable (V : (c : Dev nD) → (b : Ref sig .tc) → Buf (Elt F) ((c : Thread nD τ).loc b))

/-- What point `t` writes back is block `t` of the re-laid argument. -/
theorem flushed1_eq (c : Dev nD) (t : Fin cfg1.N) :
    (dat1 V c).flushed 1 t = ((cfg1.win 1).blk t).view.read (Elt F) (relaidArr (V c main_arg8)) := by
  show (cfg1.win 1).cut (grid1.coords t) ((dat1 V c).after 1 t) = _
  rw [after1_1]
  funext j
  show out1_1 (iblk1 V c 0 t) j = relaidArr (V c main_arg8) (((cfg1.win 1).blk t).view.emb j)
  refine (out1_1_apply (iblk1 V c 0 t) j).trans ?_
  show V c main_arg8 (((cfg1.win 0).blk t).view.emb (blkSrc j)) = V c main_arg8 (arrSrc (((cfg1.win 1).blk t).view.emb j))
  obtain ⟨e0, e1, e2, e3, e4, e5, e6⟩ := idx_facts1 t
  refine congrArg (V c main_arg8) (funext fun a => Fin.ext ?_)
  match a with
  | ⟨0, _⟩ => show win1_0.index t (0 : Fin 4) * 1 + 1 * (j 0).val = win1_1.index t (0 : Fin 4) * 1 + 1 * (j 0).val; omega
  | ⟨1, _⟩ => show win1_0.index t (1 : Fin 4) * 900 + 1 * (j 2).val = win1_1.index t (2 : Fin 4) * 900 + 1 * (j 2).val; omega
  | ⟨2, _⟩ => show win1_0.index t (2 : Fin 4) * 4 + 1 * (j 1).val = win1_1.index t (1 : Fin 4) * 3 + 1 * (j 1).val; omega
  | ⟨3, _⟩ => show win1_0.index t (3 : Fin 4) * 256 + 1 * (j 3).val = win1_1.index t (3 : Fin 4) * 256 + 1 * (j 3).val; omega

/-- An index of the result is in point `t`'s block iff each coordinate is in the block's range on its axis. -/
theorem mem_blk1 (t : Fin cfg1.N) (i : S16x3x900x256.Idx) :
    i ∈ ((cfg1.win 1).blk t).view.set ↔ ∀ a : Fin 4, win1_1.index t a * S1x3x900x256.size a ≤ (i a).val ∧ (i a).val < win1_1.index t a * S1x3x900x256.size a + S1x3x900x256.size a := by
  show i ∈ ((View.whole main_v11).slice (win1_1.rect t)).set ↔ _
  rw [View.set_slice_whole, Rect.mem_set_unit]
  exact Iff.rfl

/-- The sixteen blocks tile the result: entry `i` lies in the block of the point whose batch is `i`'s. -/
theorem cover1 (i : S16x3x900x256.Idx) : ∃ t : Fin cfg1.N, (cfg1.win 1).flush t = true ∧ i ∈ ((cfg1.win 1).blk t).view.set := by
  obtain ⟨t, ht⟩ := idx_onto1 ⟨(i 0).val, (i 0).isLt⟩
  have q0 : win1_1.index t (0 : Fin 4) = (i 0).val := ht
  obtain ⟨e0, e1, e2, e3, e4, e5, e6⟩ := idx_facts1 t
  refine ⟨t, flush1_1 t, ?_⟩
  rw [mem_blk1]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 3 ≤ (i 1).val ∧ (i 1).val < win1_1.index t (1 : Fin 4) * 3 + 3; have h : (i 1).val < 3 := (i 1).isLt; omega
  | ⟨2, _⟩ => show win1_1.index t (2 : Fin 4) * 900 ≤ (i 2).val ∧ (i 2).val < win1_1.index t (2 : Fin 4) * 900 + 900; have h : (i 2).val < 900 := (i 2).isLt; omega
  | ⟨3, _⟩ => show win1_1.index t (3 : Fin 4) * 256 ≤ (i 3).val ∧ (i 3).val < win1_1.index t (3 : Fin 4) * 256 + 256; have h : (i 3).val < 256 := (i 3).isLt; omega

/-- THE RESULT ARRAY after the region: the re-laid argument, whatever the array held before. -/
theorem final1 (c : Dev nD) : (dat1 V c).arrAt 1 cfg1.N = relaidArr (V c main_arg8) :=
  (dat1 V c).arrAt_eq_of_cover 1 (relaidArr (V c main_arg8)) (fun t _ => flushed1_eq V c t) cover1

end

/-! ## The same array as a slice followed by a transpose -/

/-- The re-laid array is the argument sliced to planes 0, 1, 2 of axis 2 and transposed by [0, 2, 1, 3] — for any
    witnesses of the two operations' side conditions. -/
theorem relaidArr_eq_transpose_slice {α : Type} (A : S16x900x4x256.Idx → α)
    (hs : S16x900x4x256.Slices ![0, 0, 0, 0] (⟨4, ![16, 900, 3, 256]⟩ : Shape))
    (ht : (⟨4, ![16, 900, 3, 256]⟩ : Shape).Transposes [0, 2, 1, 3] S16x3x900x256) :
    relaidArr A = transpose S16x3x900x256 [0, 2, 1, 3] (extractStridedSlice (⟨4, ![16, 900, 3, 256]⟩ : Shape) ![0, 0, 0, 0] A hs) ht := by
  funext i
  obtain ⟨b, t, n, d, rfl⟩ : ∃ (b : Fin 16) (t : Fin 3) (n : Fin 900) (d : Fin 256), i = ix4 b t n d := ⟨i 0, i 1, i 2, i 3, eq_ix4 i⟩
  symm
  refine (transpose_apply [0, 2, 1, 3] _ ht (ix4 b t n d) (ix4 b n t d) fun a => ?_).trans ?_
  · match a with
    | ⟨0, _⟩ => rfl
    | ⟨1, _⟩ => rfl
    | ⟨2, _⟩ => rfl
    | ⟨3, _⟩ => rfl
  · refine extractStridedSlice_apply ![0, 0, 0, 0] A hs (ix4 b n t d) (arrSrc (ix4 b t n d)) fun a => ?_
    match a with
    | ⟨0, _⟩ => show b.val = 0 + b.val; omega
    | ⟨1, _⟩ => show n.val = 0 + n.val; omega
    | ⟨2, _⟩ => show t.val = 0 + t.val; omega
    | ⟨3, _⟩ => show d.val = 0 + d.val; omega

section
variable (V : (c : Dev nD) → (b : Ref sig .tc) → Buf (Elt F) ((c : Thread nD τ).loc b))

/-- THE RESULT ARRAY after the region, as the host operations would compute it from the argument. -/
theorem final1_transpose_slice (c : Dev nD)
    (hs : S16x900x4x256.Slices ![0, 0, 0, 0] (⟨4, ![16, 900, 3, 256]⟩ : Shape))
    (ht : (⟨4, ![16, 900, 3, 256]⟩ : Shape).Transposes [0, 2, 1, 3] S16x3x900x256) :
    (dat1 V c).arrAt 1 cfg1.N
      = transpose S16x3x900x256 [0, 2, 1, 3] (extractStridedSlice (⟨4, ![16, 900, 3, 256]⟩ : Shape) ![0, 0, 0, 0] (V c main_arg8) hs) ht :=
  (final1 V c).trans (relaidArr_eq_transpose_slice (V c main_arg8) hs ht)

/-- The same, entry by entry: the result at (b, t, n, d) is the argument at (b, n, t, d). -/
theorem final1_apply (c : Dev nD) (b : Fin 16) (t : Fin 3) (n : Fin 900) (d : Fin 256) :
    (dat1 V c).arrAt 1 cfg1.N (ix4 b t n d)
      = V c main_arg8 (ix4 (n0 := 16) (n1 := 900) (n2 := 4) (n3 := 256) b n ⟨t.val, Nat.lt_of_lt_of_le t.isLt (by decide)⟩ d) :=
  congrFun (final1 V c) (ix4 b t n d)

end

/-- At the exact reals: the result array after the region is the argument sliced and transposed. -/
theorem final1_ideal (V : (c : Dev nD) → (b : Ref sig .tc) → Buf (Elt Ideal) ((c : Thread nD τ).loc b)) (c : Dev nD)
    (hs : S16x900x4x256.Slices ![0, 0, 0, 0] (⟨4, ![16, 900, 3, 256]⟩ : Shape))
    (ht : (⟨4, ![16, 900, 3, 256]⟩ : Shape).Transposes [0, 2, 1, 3] S16x3x900x256) :
    (dat1 (F := Ideal) V c).arrAt 1 cfg1.N
      = transpose S16x3x900x256 [0, 2, 1, 3] (extractStridedSlice (⟨4, ![16, 900, 3, 256]⟩ : Shape) ![0, 0, 0, 0] (V c main_arg8) hs) ht :=
  final1_transpose_slice V c hs ht

end Cert.KernelIdeal.Hand

end
-- ==== Proof.MeBridge.lean ====
/- The kernel program's slice-and-transpose result against the reference's.

   Region 1 of the kernel program leaves, in its result array, its argument %arg8 with the first three planes of
   axis 2 kept and the two middle axes exchanged. That argument reaches the region as launched: no host operation
   before the region writes it, and the first region changes another buffer. The reference computes its own result
   %42 from its %arg8 by the host's slice and transpose — the same function. So when the two programs are launched
   with equal %arg8, the two results are equal arrays. -/
import proofs.«134566_j28123445854543_1_alg».proof.Proof.KIRun
import proofs.«134566_j28123445854543_1_alg».proof.Proof.KIRegion1Value
import proofs.«134566_j28123445854543_1_alg».proof.Proof.RefRun

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The reference's `%42` is its `%arg8` sliced to planes 0, 1, 2 of axis 2 and transposed by [0, 2, 1, 3]:
    the fold of the operations read at that buffer is the two operations that feed it. -/
theorem relaid_eq (V : Valuation τ sig (Elt F)) :
    StableHlo.after ops V (Proc.devRef .tc main_v42)
      = transpose S16x3x900x256 [0, 2, 1, 3]
          (extractStridedSlice S16x900x3x256 ![0, 0, 0, 0] (V (Proc.devRef .tc main_arg8)) slices_S16x900x4x256_S16x900x3x256_0_0_0_0)
          transposes_S16x900x3x256_S16x3x900x256_0_2_1_3 := by
  after_results_simp

end Cert.ReferenceIdeal.Hand

namespace Cert.KernelIdeal.Hand

open Cert.KernelIdeal Cert.KernelIdeal.Gen Idealize.ShloMosaic Idealize.ShloMosaic.TcCoe Idealize.SL.Sem

/-- The argument `%arg8` is, when region 1 is entered, as launched. -/
theorem Vr8_main_arg8 {F : FTy → Type} [FloatOps F] (m : (ℓ : Loc nD τ sig) → Buf (Elt F) ℓ) (c : Dev nD) :
    Vr8 m c main_arg8 = m ((c : Thread nD τ).loc main_arg8) :=
  (V8_of m (outs1 m) c main_arg8 (by decide)).trans <| (V7_of m (outs1 m) c main_arg8 (by decide)).trans <|
  (V6_of m (outs1 m) c main_arg8 (by decide)).trans <| (V5_of m (outs1 m) c main_arg8 (by decide)).trans <|
  (V4_of m (outs1 m) c main_arg8 (by decide)).trans <| (V3_of m (outs1 m) c main_arg8 (by decide)).trans <|
  (V2_of m (outs1 m) c main_arg8 (by decide)).trans <| (V1_of m c main_arg8 (by decide)).trans rfl

/-- Launched with equal `%arg8`, the kernel program's region 1 leaves in its result array what the reference's
    operations leave in `%42`. -/
theorem me_bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h8 : m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8)) :
    out9 m c = StableHlo.after Cert.ReferenceIdeal.Hand.ops (StableHlo.launchContents m' c) (Cert.ReferenceIdeal.main_v42 : DevRef _ _) := by
  refine Eq.trans ?_ (Cert.ReferenceIdeal.Hand.relaid_eq (F := Ideal) (StableHlo.launchContents m' c)).symm
  show (dat1 (F := Ideal) (Vr8 m) c).arrAt 1 cfg1.N = _
  refine (final1_ideal (Vr8 m) c Cert.ReferenceIdeal.Gen.slices_S16x900x4x256_S16x900x3x256_0_0_0_0 Cert.ReferenceIdeal.Gen.transposes_S16x900x3x256_S16x3x900x256_0_2_1_3).trans ?_
  rw [Vr8_main_arg8 m c]
  show _ = transpose Cert.ReferenceIdeal.S16x3x900x256 [0, 2, 1, 3]
          (extractStridedSlice Cert.ReferenceIdeal.S16x900x3x256 ![0, 0, 0, 0] (m' ((c.tc : Thread Cert.ReferenceIdeal.nD Cert.ReferenceIdeal.τ).loc Cert.ReferenceIdeal.main_arg8)) Cert.ReferenceIdeal.Gen.slices_S16x900x4x256_S16x900x3x256_0_0_0_0)
          Cert.ReferenceIdeal.Gen.transposes_S16x900x3x256_S16x3x900x256_0_2_1_3
  rw [h8]

end Cert.KernelIdeal.Hand

end
-- ==== Proof.MqBridge.lean ====
/- The kernel program's masked reset of the motion queue against the reference's.

   Pallas call 0 has one grid point per batch row b. Its body reads word b of a table of sixteen 32-bit words, the
   row's block of the motion query (1×900×256) and the row's block of the motion queue (1×4×900×256), and stores
   the query block repeated over the four queue slots where the word is nonzero, the queue block where it is
   zero. The sixteen output blocks tile the result, so the result holds, at (b, q, n, d), the query's entry
   (b, n, d) when word b is nonzero and the queue's entry (b, q, n, d) otherwise. The table is the negated mask
   widened to 32 bits, so word b is nonzero exactly when the negated mask bit of row b is 1 — which is the
   condition under which the reference's selection takes the (twice broadcast) query instead of the queue. -/
import proofs.«134566_j28123445854543_1_alg».proof.Proof.KIRun
import proofs.«134566_j28123445854543_1_alg».proof.Proof.RefRun
import Idealize.ShloMosaic.Lib.Pipeline.Value
import Idealize.ShloMosaic.Lib.ValueIdx

set_option maxRecDepth 16384

noncomputable section

namespace Cert.KernelIdeal.Mq

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable {F : FTy → Type} [FloatOps F]

/-! ## The body's payload at an index -/

/-- The stored value at (0, s, n, d): the query block's (0, n, d) when the table word is nonzero, the queue block's
    (0, s, n, d) when it is zero. The casts only drop and add unit axes; the broadcast repeats the query over s. -/
theorem k0_pay1_apply (w : Elt F .i32) (q : Vec F S1x900x256 .f32) (k : Vec F S1x4x900x256 .f32)
    (u : Fin 1) (s : Fin 4) (n : Fin 900) (d : Fin 256) :
    k0_pay1 w q k (ix4 u s n d)
      = if Scalar.cmpi .ne w 0#32 = 1 then q (ix3 (0 : Fin 1) n d) else k (ix4 (0 : Fin 1) s n d) := by
  unfold k0_pay1
  refine (shapeCast_apply _ _ (ix4 u s n d) (ix3 s n d) ?_).trans ?_
  · rw [Shape.rowMajor_val_three, Shape.rowMajor_val_four]
    show (s.val * 900 + n.val) * 256 + d.val = (((u.val * 4 + s.val) * 900 + n.val) * 256 + d.val)
    have hu := u.isLt; omega
  unfold Scalar.select
  split
  · refine (broadcastTo_apply _ _ (ix3 s n d) (ix3 (0 : Fin 1) n d) fun a => ?_).trans ?_
    · match a with
      | ⟨0, _⟩ => rfl
      | ⟨1, _⟩ => rfl
      | ⟨2, _⟩ => rfl
    rw [shapeCast_self, shapeCast_shapeCast]
  · refine shapeCast_apply _ _ (ix3 s n d) (ix4 (0 : Fin 1) s n d) ?_
    rw [Shape.rowMajor_val_four, Shape.rowMajor_val_three]
    show (((0 * 4 + s.val) * 900 + n.val) * 256 + d.val) = (s.val * 900 + n.val) * 256 + d.val
    omega

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The table word the body reads at grid coordinates `i` is entry `i 0` of the table. -/
theorem word0_eq (i : grid0.Coords) (xt : Vec F S16 .i32) : word0 i xt = xt (ix1 (i 0)) := by
  unfold word0
  show xt ((Rect.unit (s := S16) (k0_off1 i) S1.size (k0_off1_inb i)).idx (Shape.Idx.first _)) = _
  refine congrArg xt (funext fun a => Fin.ext ?_)
  match a with
  | ⟨0, _⟩ =>
    show k0_off1 i (0 : Fin 1) + 1 * 0 = (i 0).val
    rw [k0_off1_eq]; rfl

/-- What the body leaves in the output block, entry by entry. -/
theorem out0_2_apply (i : grid0.Coords) (xt : Vec F S16 .i32) (x0 : Vec F S1x900x256 .f32) (x1 : Vec F S1x4x900x256 .f32)
    (u : Fin 1) (s : Fin 4) (n : Fin 900) (d : Fin 256) :
    out0_2 i xt x0 x1 (ix4 u s n d)
      = if Scalar.cmpi .ne (xt (ix1 (i 0))) 0#32 = 1 then x0 (ix3 (0 : Fin 1) n d) else x1 (ix4 (0 : Fin 1) s n d) := by
  unfold out0_2
  rw [View.canon_unit_zero hz4]
  simp only [View.ld_unit_zero (S := S1x900x256) hz3, View.ld_unit_zero (S := S1x4x900x256) hz4]
  rw [word0_eq]
  exact k0_pay1_apply _ x0 x1 u s n d

/-! ## From the blocks to the array -/

/-- The queue after the masked reset, as one function of the table, the query and the queue. -/
def resetQueue {α : Type} (tb : S16.Idx → BitVec 32) (Q : S16x900x256.Idx → α) (K : S16x4x900x256.Idx → α) :
    S16x4x900x256.Idx → α :=
  fun i => if Scalar.cmpi .ne (tb (ix1 (n := 16) (i 0))) 0#32 = 1 then Q (ix3 (n0 := 16) (n1 := 900) (n2 := 256) (i 0) (i 2) (i 3)) else K i

/-- The three index maps over the grid: every window's block at a point is the batch row of the point's coordinate,
    whole on the other axes. -/
theorem tr0_eq : ∀ i : grid0.Coords, cc0_transform_0 i = ![(i 0).val, 0, 0] := by decide +kernel
theorem tr1_eq : ∀ i : grid0.Coords, cc0_transform_1 i = ![(i 0).val, 0, 0, 0] := by decide +kernel
theorem tr2_eq : ∀ i : grid0.Coords, cc0_transform_2 i = ![(i 0).val, 0, 0, 0] := by decide +kernel
/-- Every batch row is some point's. -/
theorem row_onto : ∀ q : Fin 16, ∃ t : Fin grid0.N, (grid0.coords t 0).val = q.val := by decide +kernel
/-- The output's block index changes at every point (or the point is the last): every point writes back. -/
theorem flush_closed : ∀ t : Fin grid0.N,
    (decide (t.val + 1 = grid0.N) || decide (∃ h : t.val + 1 < grid0.N, cc0_transform_2 (grid0.coords ⟨t.val + 1, h⟩) ≠ cc0_transform_2 (grid0.coords t))) = true := by
  decide +kernel

section
variable (V : (c : Dev nD) → (b : Ref sig .tc) → Buf (Elt F) ((c : Thread nD τ).loc b))
variable (a : (pcfg0 (F := F)).Adm)

theorem flush0_2 (t : Fin (cfg0 a).N) : ((cfg0 a).win 2).flush t = true := flush_closed t

/-- What point `t` writes back is block `t` of the reset queue. -/
theorem flushed0_eq (c : Dev nD) (t : Fin (cfg0 a).N) :
    (dat0 V a c).flushed 2 t = (((cfg0 a).win 2).blk t).view.read (Elt F) (resetQueue (a.1 0) (V c main_arg0) (V c main_arg3)) := by
  show ((cfg0 a).win 2).cut (grid0.coords t) ((dat0 V a c).after 2 t) = _
  rw [after0_2]
  refine funext fun (j : S1x4x900x256.Idx) => ?_
  obtain ⟨u, s, n, d, rfl⟩ : ∃ (u : Fin 1) (s : Fin 4) (n : Fin 900) (d : Fin 256), j = ix4 u s n d := ⟨j 0, j 1, j 2, j 3, eq_ix4 j⟩
  show out0_2 (grid0.coords t) (a.1 0) (iblk0 V a c 0 t) (iblk0 V a c 1 t) (ix4 u s n d)
    = resetQueue (a.1 0) (V c main_arg0) (V c main_arg3) ((((cfg0 a).win 2).blk t).view.emb (ix4 u s n d))
  refine (out0_2_apply (grid0.coords t) (a.1 0) (iblk0 V a c 0 t) (iblk0 V a c 1 t) u s n d).trans ?_
  have e0 := tr0_eq (grid0.coords t)
  have e1 := tr1_eq (grid0.coords t)
  have e2 := tr2_eq (grid0.coords t)
  have hu := u.isLt
  unfold resetQueue
  refine if_congr (Iff.of_eq (congrArg (fun z => Scalar.cmpi .ne ((a.1 0) z) 0#32 = 1) (funext fun b => Fin.ext ?_))) ?_ ?_
  · match b with
    | ⟨0, _⟩ =>
      show (grid0.coords t 0).val = cc0_transform_2 (grid0.coords t) (0 : Fin 4) * 1 + 1 * u.val
      rw [e2]; show (grid0.coords t 0).val = (grid0.coords t 0).val * 1 + 1 * u.val; omega
  · show V c main_arg0 ((((cfg0 a).win 0).blk t).view.emb (ix3 (0 : Fin 1) n d)) = _
    refine congrArg (V c main_arg0) (funext fun b => Fin.ext ?_)
    match b with
    | ⟨0, _⟩ =>
      show cc0_transform_0 (grid0.coords t) (0 : Fin 3) * 1 + 1 * 0 = cc0_transform_2 (grid0.coords t) (0 : Fin 4) * 1 + 1 * u.val
      rw [e0, e2]; show (grid0.coords t 0).val * 1 + 1 * 0 = (grid0.coords t 0).val * 1 + 1 * u.val; omega
    | ⟨1, _⟩ =>
      show cc0_transform_0 (grid0.coords t) (1 : Fin 3) * 900 + 1 * n.val = cc0_transform_2 (grid0.coords t) (2 : Fin 4) * 900 + 1 * n.val
      rw [e0, e2]; rfl
    | ⟨2, _⟩ =>
      show cc0_transform_0 (grid0.coords t) (2 : Fin 3) * 256 + 1 * d.val = cc0_transform_2 (grid0.coords t) (3 : Fin 4) * 256 + 1 * d.val
      rw [e0, e2]; rfl
  · show V c main_arg3 ((((cfg0 a).win 1).blk t).view.emb (ix4 (0 : Fin 1) s n d)) = _
    refine congrArg (V c main_arg3) (funext fun b => Fin.ext ?_)
    match b with
    | ⟨0, _⟩ =>
      show cc0_transform_1 (grid0.coords t) (0 : Fin 4) * 1 + 1 * 0 = cc0_transform_2 (grid0.coords t) (0 : Fin 4) * 1 + 1 * u.val
      rw [e1, e2]; show (grid0.coords t 0).val * 1 + 1 * 0 = (grid0.coords t 0).val * 1 + 1 * u.val; omega
    | ⟨1, _⟩ =>
      show cc0_transform_1 (grid0.coords t) (1 : Fin 4) * 4 + 1 * s.val = cc0_transform_2 (grid0.coords t) (1 : Fin 4) * 4 + 1 * s.val
      rw [e1, e2]
    | ⟨2, _⟩ =>
      show cc0_transform_1 (grid0.coords t) (2 : Fin 4) * 900 + 1 * n.val = cc0_transform_2 (grid0.coords t) (2 : Fin 4) * 900 + 1 * n.val
      rw [e1, e2]
    | ⟨3, _⟩ =>
      show cc0_transform_1 (grid0.coords t) (3 : Fin 4) * 256 + 1 * d.val = cc0_transform_2 (grid0.coords t) (3 : Fin 4) * 256 + 1 * d.val
      rw [e1, e2]

end

section
variable (V : (c : Dev nD) → (b : Ref sig .tc) → Buf (Elt F) ((c : Thread nD τ).loc b))
variable (a : (pcfg0 (F := F)).Adm)

/-- Under the slice of the whole result array by a rectangle lie the rectangle's indices. -/
theorem mem_slice_v2 (r : Rect S16x4x900x256) (i : S16x4x900x256.Idx) : i ∈ ((View.whole main_v2).slice r).set ↔ i ∈ r.set := by
  rw [View.set_slice_whole]

/-- An index of the result is in point `t`'s block iff each coordinate is in the block's range on its axis. -/
theorem mem_blk0 (t : Fin (cfg0 a).N) (i : S16x4x900x256.Idx) :
    i ∈ (((cfg0 a).win 2).blk t).view.set ↔ ∀ b : Fin 4, cc0_transform_2 (grid0.coords t) b * S1x4x900x256.size b ≤ (i b).val ∧ (i b).val < cc0_transform_2 (grid0.coords t) b * S1x4x900x256.size b + S1x4x900x256.size b := by
  refine (mem_slice_v2 (((cfg0 a).win 2).rect t) i).trans ?_
  refine Rect.mem_set_unit.trans ?_
  exact Iff.rfl

/-- The sixteen blocks tile the result: entry `i` lies in the block of the point whose row is `i`'s. -/
theorem cover0 (i : S16x4x900x256.Idx) : ∃ t : Fin (cfg0 a).N, ((cfg0 a).win 2).flush t = true ∧ i ∈ (((cfg0 a).win 2).blk t).view.set := by
  obtain ⟨t, ht⟩ := row_onto ⟨(i 0).val, (i 0).isLt⟩
  have q0 : (grid0.coords t 0).val = (i 0).val := ht
  have e2 := tr2_eq (grid0.coords t)
  refine ⟨t, flush0_2 a t, ?_⟩
  rw [mem_blk0]
  intro b
  match b with
  | ⟨0, _⟩ =>
    show cc0_transform_2 (grid0.coords t) (0 : Fin 4) * 1 ≤ (i 0).val ∧ (i 0).val < cc0_transform_2 (grid0.coords t) (0 : Fin 4) * 1 + 1
    rw [e2]; show (grid0.coords t 0).val * 1 ≤ (i 0).val ∧ (i 0).val < (grid0.coords t 0).val * 1 + 1; omega
  | ⟨1, _⟩ =>
    show cc0_transform_2 (grid0.coords t) (1 : Fin 4) * 4 ≤ (i 1).val ∧ (i 1).val < cc0_transform_2 (grid0.coords t) (1 : Fin 4) * 4 + 4
    rw [e2]; show 0 * 4 ≤ (i 1).val ∧ (i 1).val < 0 * 4 + 4; have h : (i 1).val < 4 := (i 1).isLt; omega
  | ⟨2, _⟩ =>
    show cc0_transform_2 (grid0.coords t) (2 : Fin 4) * 900 ≤ (i 2).val ∧ (i 2).val < cc0_transform_2 (grid0.coords t) (2 : Fin 4) * 900 + 900
    rw [e2]; show 0 * 900 ≤ (i 2).val ∧ (i 2).val < 0 * 900 + 900; have h : (i 2).val < 900 := (i 2).isLt; omega
  | ⟨3, _⟩ =>
    show cc0_transform_2 (grid0.coords t) (3 : Fin 4) * 256 ≤ (i 3).val ∧ (i 3).val < cc0_transform_2 (grid0.coords t) (3 : Fin 4) * 256 + 256
    rw [e2]; show 0 * 256 ≤ (i 3).val ∧ (i 3).val < 0 * 256 + 256; have h : (i 3).val < 256 := (i 3).isLt; omega

/-- THE RESULT ARRAY after the region: the reset queue of the table, the query and the queue as the region finds them. -/
theorem final0 (c : Dev nD) :
    (dat0 V a c).arrAt 2 (cfg0 a).N = resetQueue (a.1 0) (V c main_arg0) (V c main_arg3) :=
  (dat0 V a c).arrAt_eq_of_cover 2 (resetQueue (a.1 0) (V c main_arg0) (V c main_arg3)) (fun t _ => flushed0_eq V a c t) (cover0 a)

end

/-! ## The table, the query and the queue when the region is entered -/

/-- A 32-bit word widened from one bit is nonzero exactly when the bit is 1. -/
theorem widened_ne_zero_iff (x : BitVec 1) : Scalar.cmpi .ne (x.setWidth 32) 0#32 = 1 ↔ x = 1 := by
  by_cases h : x = 1#1
  · subst h; decide
  · have h0 := eq_zero_of_ne_one h; subst h0; decide

/-- The table when region 0 is entered: the mask negated, each bit widened to a 32-bit word. -/
theorem V1_main_v1 (m : (ℓ : Loc nD τ sig) → Buf (Elt F) ℓ) (c : Dev nD) :
    V1 m c (Proc.devRef .tc main_v1) = extui 32 (noti (m ((c : Thread nD τ).loc main_arg7))) natLt_1_32 := by
  have h7 : V0 m c (Proc.devRef .tc main_arg7) = m ((c : Thread nD τ).loc main_arg7) := rfl
  show StableHlo.after hostOps0 (V0 m c) (Proc.devRef .tc main_v1) = _
  generalize V0 m c = W at h7 ⊢
  after_results
  rw [h7]

/-- The query and the queue reach region 0 as launched: the two host operations before it write other buffers. -/
theorem Vr1_main_arg0 (m : (ℓ : Loc nD τ sig) → Buf (Elt F) ℓ) (c : Dev nD) : Vr1 m c main_arg0 = m ((c : Thread nD τ).loc main_arg0) :=
  (V1_of m c main_arg0 (by decide)).trans rfl
theorem Vr1_main_arg3 (m : (ℓ : Loc nD τ sig) → Buf (Elt F) ℓ) (c : Dev nD) : Vr1 m c main_arg3 = m ((c : Thread nD τ).loc main_arg3) :=
  (V1_of m c main_arg3 (by decide)).trans rfl

/-- What region 0 leaves in its result array, from the launch contents. -/
theorem out2_eq (m : (ℓ : Loc nD τ sig) → Buf (Elt F) ℓ) (c : Dev nD) :
    out2 m c = resetQueue (extui 32 (noti (m ((c₀ : Thread nD τ).loc main_arg7))) natLt_1_32)
      (m ((c : Thread nD τ).loc main_arg0)) (m ((c : Thread nD τ).loc main_arg3)) := by
  show (dat0 (Vr1 m) (adm0 m) c).arrAt 2 (cfg0 (adm0 m)).N = _
  refine (final0 (Vr1 m) (adm0 m) c).trans ?_
  rw [Vr1_main_arg0, Vr1_main_arg3]
  show resetQueue (V1 m c₀ (Proc.devRef .tc main_v1)) _ _ = _
  rw [V1_main_v1]

end Cert.KernelIdeal.Mq

namespace Cert.ReferenceIdeal.Mq

open Cert.ReferenceIdeal Cert.ReferenceIdeal.Gen Cert.ReferenceIdeal.Hand Idealize.ShloMosaic Idealize.ShloMosaic.TcCoe Idealize.SL.Sem
open Idealize.ShloMosaic.ValueIdx

variable {F : FTy → Type} [FloatOps F]

/-- The reference's `%3`: the selection, under the negated mask broadcast over every entry of a row, between the
    query broadcast over the four queue slots and the queue. -/
theorem v3_eq (V : Valuation τ sig (Elt F)) :
    StableHlo.after ops V (Proc.devRef .tc main_v3)
      = select (broadcastInDim S16x4x900x256 ![0, 1, 2, 3] bcast_S16x1x1x1_S16x4x900x256_0_1_2_3
            (broadcastInDim S16x1x1x1 ![0] bcast_S16_S16x1x1x1_0 (noti (V (Proc.devRef .tc main_arg7)))))
          (broadcastInDim S16x4x900x256 ![0, 1, 2, 3] bcast_S16x1x900x256_S16x4x900x256_0_1_2_3
            (broadcastInDim S16x1x900x256 ![0, 2, 3] bcast_S16x900x256_S16x1x900x256_0_2_3 (V (Proc.devRef .tc main_arg0))))
          (V (Proc.devRef .tc main_arg3)) := by
  after_results_simp
  rfl

/-- The reset queue is that selection: at (b, q, n, d) both take the query's (b, n, d) exactly when the negated
    mask bit of row b is 1, and the queue's (b, q, n, d) otherwise. -/
theorem resetQueue_eq_select {α : Type} (mask : S16.Idx → BitVec 1) (Q : S16x900x256.Idx → α) (K : S16x4x900x256.Idx → α) (hlt : 1 < 32) :
    Cert.KernelIdeal.Mq.resetQueue (extui 32 (noti mask) hlt) Q K
      = select (broadcastInDim S16x4x900x256 ![0, 1, 2, 3] bcast_S16x1x1x1_S16x4x900x256_0_1_2_3
            (broadcastInDim S16x1x1x1 ![0] bcast_S16_S16x1x1x1_0 (noti mask)))
          (broadcastInDim S16x4x900x256 ![0, 1, 2, 3] bcast_S16x1x900x256_S16x4x900x256_0_1_2_3
            (broadcastInDim S16x1x900x256 ![0, 2, 3] bcast_S16x900x256_S16x1x900x256_0_2_3 Q))
          K := by
  funext i
  obtain ⟨b, s, n, d, rfl⟩ : ∃ (b : Fin 16) (s : Fin 4) (n : Fin 900) (d : Fin 256), i = ix4 b s n d := ⟨i 0, i 1, i 2, i 3, eq_ix4 i⟩
  have c1 : broadcastInDim S16x4x900x256 ![0, 1, 2, 3] bcast_S16x1x1x1_S16x4x900x256_0_1_2_3
      (broadcastInDim S16x1x1x1 ![0] bcast_S16_S16x1x1x1_0 (noti mask)) (ix4 b s n d) = noti mask (ix1 b) :=
    (broadcastInDim_apply _ _ _ (ix4 b s n d) (ix4 b (0 : Fin 1) (0 : Fin 1) (0 : Fin 1)) fun a => by
      match a with
      | ⟨0, _⟩ => rfl
      | ⟨1, _⟩ => rfl
      | ⟨2, _⟩ => rfl
      | ⟨3, _⟩ => rfl).trans
    (broadcastInDim_apply _ _ _ (ix4 b (0 : Fin 1) (0 : Fin 1) (0 : Fin 1)) (ix1 b) fun a => by
      match a with
      | ⟨0, _⟩ => rfl)
  have c2 : broadcastInDim S16x4x900x256 ![0, 1, 2, 3] bcast_S16x1x900x256_S16x4x900x256_0_1_2_3
      (broadcastInDim S16x1x900x256 ![0, 2, 3] bcast_S16x900x256_S16x1x900x256_0_2_3 Q) (ix4 b s n d) = Q (ix3 b n d) :=
    (broadcastInDim_apply _ _ _ (ix4 b s n d) (ix4 b (0 : Fin 1) n d) fun a => by
      match a with
      | ⟨0, _⟩ => rfl
      | ⟨1, _⟩ => rfl
      | ⟨2, _⟩ => rfl
      | ⟨3, _⟩ => rfl).trans
    (broadcastInDim_apply _ _ _ (ix4 b (0 : Fin 1) n d) (ix3 b n d) fun a => by
      match a with
      | ⟨0, _⟩ => rfl
      | ⟨1, _⟩ => rfl
      | ⟨2, _⟩ => rfl)
  rw [select_apply, c1, c2]
  unfold Cert.KernelIdeal.Mq.resetQueue Scalar.select
  exact if_congr (Cert.KernelIdeal.Mq.widened_ne_zero_iff (noti mask (ix1 b))) rfl rfl

end Cert.ReferenceIdeal.Mq

namespace Cert.KernelIdeal.Mq

open Cert.KernelIdeal Cert.KernelIdeal.Gen Cert.KernelIdeal.Hand Idealize.ShloMosaic Idealize.ShloMosaic.TcCoe Idealize.SL.Sem

/-- Launched with equal query, queue and mask, the kernel program's region 0 leaves in its result array what the
    reference's operations leave in `%3`. -/
theorem mq_bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3))
    (h7 : m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)) :
    out2 m c = StableHlo.after Cert.ReferenceIdeal.Hand.ops (StableHlo.launchContents m' c) (Cert.ReferenceIdeal.main_v3 : DevRef _ _) := by
  have hc : c = c₀ := dev_eq c
  subst hc
  refine Eq.trans ?_ (Cert.ReferenceIdeal.Mq.v3_eq (F := Ideal) (StableHlo.launchContents m' c₀)).symm
  have hsel := Cert.ReferenceIdeal.Mq.resetQueue_eq_select
    (m' ((c₀.tc : Thread Cert.ReferenceIdeal.nD Cert.ReferenceIdeal.τ).loc Cert.ReferenceIdeal.main_arg7))
    (m' ((c₀.tc : Thread Cert.ReferenceIdeal.nD Cert.ReferenceIdeal.τ).loc Cert.ReferenceIdeal.main_arg0))
    (m' ((c₀.tc : Thread Cert.ReferenceIdeal.nD Cert.ReferenceIdeal.τ).loc Cert.ReferenceIdeal.main_arg3)) natLt_1_32
  refine Eq.trans ?_ hsel
  rw [h0, h3, h7]
  exact out2_eq m c₀

end Cert.KernelIdeal.Mq

end
-- ==== Proof.lean ====
/-
  The kernel program resets three queues where the batch row's mask is off (the motion queue in a Pallas kernel
  over the batch rows, reading the negated mask as a table of 32-bit words; the two small queues and the period in
  plain host operations), moves the temporal axis of the anchor embedding to the front after dropping its last
  slot (a second Pallas kernel over the batch rows, three plane copies per row), and runs the small ego-side
  propagation on the host. The reference computes the same eight arrays with host operations alone. No float is
  ever computed with: every result is a selection or a re-laying of argument entries, so the two programs agree at
  every extended-real input and the precondition is never opened.

  Frames: each kernel program runs as eighteen items — host stretches and the two regions — over thread states that
  hold every unscoped buffer at a known valuation; the reference is one host stretch.
  Values: both regions' result arrays are read off their pipelines block by block; the six host-only results are
  the same composed host term on both sides.
-/
import proofs.«134566_j28123445854543_1_alg».proof.Defs
import proofs.«134566_j28123445854543_1_alg».proof.Proof.Gen.Kernel
import proofs.«134566_j28123445854543_1_alg».proof.Proof.Gen.KernelIdeal
import proofs.«134566_j28123445854543_1_alg».proof.Proof.Gen.ReferenceIdeal
import proofs.«134566_j28123445854543_1_alg».proof.Proof.Gen.Pre_finite_inputs
import proofs.«134566_j28123445854543_1_alg».proof.Proof.KRun
import proofs.«134566_j28123445854543_1_alg».proof.Proof.KIRun
import proofs.«134566_j28123445854543_1_alg».proof.Proof.RefFrame
import proofs.«134566_j28123445854543_1_alg».proof.Proof.HostBridge
import proofs.«134566_j28123445854543_1_alg».proof.Proof.MeBridge
import proofs.«134566_j28123445854543_1_alg».proof.Proof.MqBridge
import Idealize.ShloMosaic.Adequacy
import Idealize.ShloMosaic.Init

noncomputable section

namespace Cert.Proof

open Idealize.ShloMosaic Idealize.SL.Sem

/-- The word-level kernel program runs and leaves its arguments as launched: the run over the eighteen items, each
    argument read back through the valuations. -/
theorem frame_k : Cert.frame_Kernel := fun m ρ _ =>
  (θ_run (Cert.Kernel.defs) _ _).mono (fun _ h c => ⟨(h c _ (Cert.Kernel.Hand.mem_uc Cert.Kernel.main_arg0 (by decide))).trans (Cert.Kernel.Gen.V18_main_arg0 m _ c),
    (h c _ (Cert.Kernel.Hand.mem_uc Cert.Kernel.main_arg1 (by decide))).trans (Cert.Kernel.Gen.V18_main_arg1 m _ c),
    (h c _ (Cert.Kernel.Hand.mem_uc Cert.Kernel.main_arg2 (by decide))).trans (Cert.Kernel.Gen.V18_main_arg2 m _ c),
    (h c _ (Cert.Kernel.Hand.mem_uc Cert.Kernel.main_arg3 (by decide))).trans (Cert.Kernel.Gen.V18_main_arg3 m _ c),
    (h c _ (Cert.Kernel.Hand.mem_uc Cert.Kernel.main_arg4 (by decide))).trans (Cert.Kernel.Gen.V18_main_arg4 m _ c),
    (h c _ (Cert.Kernel.Hand.mem_uc Cert.Kernel.main_arg5 (by decide))).trans (Cert.Kernel.Gen.V18_main_arg5 m _ c),
    (h c _ (Cert.Kernel.Hand.mem_uc Cert.Kernel.main_arg6 (by decide))).trans (Cert.Kernel.Gen.V18_main_arg6 m _ c),
    (h c _ (Cert.Kernel.Hand.mem_uc Cert.Kernel.main_arg7 (by decide))).trans (Cert.Kernel.Gen.V18_main_arg7 m _ c),
    (h c _ (Cert.Kernel.Hand.mem_uc Cert.Kernel.main_arg8 (by decide))).trans (Cert.Kernel.Gen.V18_main_arg8 m _ c),
    (h c _ (Cert.Kernel.Hand.mem_uc Cert.Kernel.main_arg9 (by decide))).trans (Cert.Kernel.Gen.V18_main_arg9 m _ c),
    (h c _ (Cert.Kernel.Hand.mem_uc Cert.Kernel.main_arg10 (by decide))).trans (Cert.Kernel.Gen.V18_main_arg10 m _ c),
    (h c _ (Cert.Kernel.Hand.mem_uc Cert.Kernel.main_arg11 (by decide))).trans (Cert.Kernel.Gen.V18_main_arg11 m _ c)⟩)
    (Cert.Kernel.Hand.run_all m ρ)

/-- The same at the ideal instance. -/
theorem frame_ki : Cert.frame_KernelIdeal := fun m ρ _ =>
  (θ_run (Cert.KernelIdeal.defs) _ _).mono (fun _ h c => ⟨(h c _ (Cert.KernelIdeal.Hand.mem_uc Cert.KernelIdeal.main_arg0 (by decide))).trans (Cert.KernelIdeal.Gen.V18_main_arg0 m _ c),
    (h c _ (Cert.KernelIdeal.Hand.mem_uc Cert.KernelIdeal.main_arg1 (by decide))).trans (Cert.KernelIdeal.Gen.V18_main_arg1 m _ c),
    (h c _ (Cert.KernelIdeal.Hand.mem_uc Cert.KernelIdeal.main_arg2 (by decide))).trans (Cert.KernelIdeal.Gen.V18_main_arg2 m _ c),
    (h c _ (Cert.KernelIdeal.Hand.mem_uc Cert.KernelIdeal.main_arg3 (by decide))).trans (Cert.KernelIdeal.Gen.V18_main_arg3 m _ c),
    (h c _ (Cert.KernelIdeal.Hand.mem_uc Cert.KernelIdeal.main_arg4 (by decide))).trans (Cert.KernelIdeal.Gen.V18_main_arg4 m _ c),
    (h c _ (Cert.KernelIdeal.Hand.mem_uc Cert.KernelIdeal.main_arg5 (by decide))).trans (Cert.KernelIdeal.Gen.V18_main_arg5 m _ c),
    (h c _ (Cert.KernelIdeal.Hand.mem_uc Cert.KernelIdeal.main_arg6 (by decide))).trans (Cert.KernelIdeal.Gen.V18_main_arg6 m _ c),
    (h c _ (Cert.KernelIdeal.Hand.mem_uc Cert.KernelIdeal.main_arg7 (by decide))).trans (Cert.KernelIdeal.Gen.V18_main_arg7 m _ c),
    (h c _ (Cert.KernelIdeal.Hand.mem_uc Cert.KernelIdeal.main_arg8 (by decide))).trans (Cert.KernelIdeal.Gen.V18_main_arg8 m _ c),
    (h c _ (Cert.KernelIdeal.Hand.mem_uc Cert.KernelIdeal.main_arg9 (by decide))).trans (Cert.KernelIdeal.Gen.V18_main_arg9 m _ c),
    (h c _ (Cert.KernelIdeal.Hand.mem_uc Cert.KernelIdeal.main_arg10 (by decide))).trans (Cert.KernelIdeal.Gen.V18_main_arg10 m _ c),
    (h c _ (Cert.KernelIdeal.Hand.mem_uc Cert.KernelIdeal.main_arg11 (by decide))).trans (Cert.KernelIdeal.Gen.V18_main_arg11 m _ c)⟩)
    (Cert.KernelIdeal.Hand.run_all m ρ)

section Values

open Idealize.ShloMosaic.TcCoe Cert.KernelIdeal Cert.KernelIdeal.Gen Cert.KernelIdeal.Hand

/-- No host stretch after region 0 writes its result array: at the end it holds what the region left. -/
theorem V18_main_v2 (m : (ℓ : Loc Cert.KernelIdeal.nD Cert.KernelIdeal.τ Cert.KernelIdeal.sig) → Buf (Elt Ideal) ℓ) (outs : Outs (F := Ideal)) (c : Dev Cert.KernelIdeal.nD) :
    V18 m outs c main_v2 = outs 2 main_v2 c :=
  (Cert.KernelIdeal.Gen.V18_of m outs c main_v2 (by decide)).trans <| (Cert.KernelIdeal.Gen.V17_of m outs c main_v2 (by decide)).trans <| (Cert.KernelIdeal.Gen.V16_of m outs c main_v2 (by decide)).trans <| (Cert.KernelIdeal.Gen.V15_of m outs c main_v2 (by decide)).trans <| (Cert.KernelIdeal.Gen.V14_of m outs c main_v2 (by decide)).trans <| (Cert.KernelIdeal.Gen.V13_of m outs c main_v2 (by decide)).trans <| (Cert.KernelIdeal.Gen.V12_of m outs c main_v2 (by decide)).trans <| (Cert.KernelIdeal.Gen.V11_of m outs c main_v2 (by decide)).trans <| (Cert.KernelIdeal.Gen.V10_of m outs c main_v2 (by decide)).trans <| (Cert.KernelIdeal.Gen.V9_of m outs c main_v2 (by decide)).trans <| (Cert.KernelIdeal.Gen.V8_of m outs c main_v2 (by decide)).trans <| (Cert.KernelIdeal.Gen.V7_of m outs c main_v2 (by decide)).trans <| (Cert.KernelIdeal.Gen.V6_of m outs c main_v2 (by decide)).trans <| (Cert.KernelIdeal.Gen.V5_of m outs c main_v2 (by decide)).trans <| (Cert.KernelIdeal.Gen.V4_of m outs c main_v2 (by decide)).trans <| (Cert.KernelIdeal.Gen.V3_of m outs c main_v2 (by decide)).trans <| by
    show Function.update (V1 m c) (Proc.devRef .tc main_v2) (outs 2 main_v2 c) (Proc.devRef .tc main_v2) = _
    rw [Function.update_self]

/-- Nor region 1's. -/
theorem V18_main_v11 (m : (ℓ : Loc Cert.KernelIdeal.nD Cert.KernelIdeal.τ Cert.KernelIdeal.sig) → Buf (Elt Ideal) ℓ) (outs : Outs (F := Ideal)) (c : Dev Cert.KernelIdeal.nD) :
    V18 m outs c main_v11 = outs 9 main_v11 c :=
  (Cert.KernelIdeal.Gen.V18_of m outs c main_v11 (by decide)).trans <| (Cert.KernelIdeal.Gen.V17_of m outs c main_v11 (by decide)).trans <| (Cert.KernelIdeal.Gen.V16_of m outs c main_v11 (by decide)).trans <| (Cert.KernelIdeal.Gen.V15_of m outs c main_v11 (by decide)).trans <| (Cert.KernelIdeal.Gen.V14_of m outs c main_v11 (by decide)).trans <| (Cert.KernelIdeal.Gen.V13_of m outs c main_v11 (by decide)).trans <| (Cert.KernelIdeal.Gen.V12_of m outs c main_v11 (by decide)).trans <| (Cert.KernelIdeal.Gen.V11_of m outs c main_v11 (by decide)).trans <| (Cert.KernelIdeal.Gen.V10_of m outs c main_v11 (by decide)).trans <| by
    show Function.update (V8 m outs c) (Proc.devRef .tc main_v11) (outs 9 main_v11 c) (Proc.devRef .tc main_v11) = _
    rw [Function.update_self]

/-- The two idealized programs, from memories agreeing on the arguments, both run and end with equal results: the
    kernel program's eight result buffers at its last valuation, the reference's at its fold; the motion queue and
    the re-laid embedding by the regions' arrays, the other six by the shared host term. -/
theorem algebraic : Cert.algebraic_KernelIdeal_ReferenceIdeal := by
  intro m ρ m' ρ' _ hagree
  refine ⟨fun c => V18 m (outs m) c main_v2, fun c => V18 m (outs m) c main_v5, fun c => V18 m (outs m) c main_v8, fun c => V18 m (outs m) c main_v10, fun c => V18 m (outs m) c main_v13, fun c => V18 m (outs m) c main_v11, fun c => V18 m (outs m) c main_v41, fun c => V18 m (outs m) c main_v42, ?_, ?_⟩
  · exact (θ_run Cert.KernelIdeal.defs _ _).mono (fun _ h c => ⟨h c _ (mem_uc main_v2 (by decide)), h c _ (mem_uc main_v5 (by decide)), h c _ (mem_uc main_v8 (by decide)), h c _ (mem_uc main_v10 (by decide)), h c _ (mem_uc main_v13 (by decide)), h c _ (mem_uc main_v11 (by decide)), h c _ (mem_uc main_v41 (by decide)), h c _ (mem_uc main_v42 (by decide)),
      (h c _ (mem_uc main_arg0 (by decide))).trans (V18_main_arg0 m _ c),
      (h c _ (mem_uc main_arg1 (by decide))).trans (V18_main_arg1 m _ c),
      (h c _ (mem_uc main_arg2 (by decide))).trans (V18_main_arg2 m _ c),
      (h c _ (mem_uc main_arg3 (by decide))).trans (V18_main_arg3 m _ c),
      (h c _ (mem_uc main_arg4 (by decide))).trans (V18_main_arg4 m _ c),
      (h c _ (mem_uc main_arg5 (by decide))).trans (V18_main_arg5 m _ c),
      (h c _ (mem_uc main_arg6 (by decide))).trans (V18_main_arg6 m _ c),
      (h c _ (mem_uc main_arg7 (by decide))).trans (V18_main_arg7 m _ c),
      (h c _ (mem_uc main_arg8 (by decide))).trans (V18_main_arg8 m _ c),
      (h c _ (mem_uc main_arg9 (by decide))).trans (V18_main_arg9 m _ c),
      (h c _ (mem_uc main_arg10 (by decide))).trans (V18_main_arg10 m _ c),
      (h c _ (mem_uc main_arg11 (by decide))).trans (V18_main_arg11 m _ c)⟩)
      (run_all m ρ)
  · refine (θ_run Cert.ReferenceIdeal.defs _ _).mono (fun _ h c => ?_) (Cert.ReferenceIdeal.Hand.run_main m' ρ')
    obtain ⟨a0, a1, a2, a3, a4, a5, a6, a7, a8, a9, a10, a11⟩ := hagree c
    exact ⟨(h c Cert.ReferenceIdeal.main_v3).trans ((Cert.KernelIdeal.Mq.mq_bridge m m' c a0 a3 a7).symm.trans ((outs_2 m c).symm.trans (V18_main_v2 m (outs m) c).symm)),
      (h c Cert.ReferenceIdeal.main_v6).trans (Cert.HostBridge.planQueue_bridge m (outs m) m' c a1 a4 a7).symm,
      (h c Cert.ReferenceIdeal.main_v9).trans (Cert.HostBridge.egoStatusQueue_bridge m (outs m) m' c a2 a5 a7).symm,
      (h c Cert.ReferenceIdeal.main_v11).trans (Cert.HostBridge.periodOut_bridge m (outs m) m' c a6 a7).symm,
      (h c Cert.ReferenceIdeal.main_v41).trans (Cert.HostBridge.maskT_bridge m (outs m) m' c a9).symm,
      (h c Cert.ReferenceIdeal.main_v42).trans ((Cert.KernelIdeal.Hand.me_bridge m m' c a8).symm.trans ((outs_9 m c).symm.trans (V18_main_v11 m (outs m) c).symm)),
      (h c Cert.ReferenceIdeal.main_v43).trans (Cert.HostBridge.egoMaskT_bridge m (outs m) m' c a11).symm,
      (h c Cert.ReferenceIdeal.main_v44).trans (Cert.HostBridge.egoEmbedT_bridge m (outs m) m' c a10 a11).symm,
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _),
      (h c Cert.ReferenceIdeal.main_arg8).trans (Cert.ReferenceIdeal.Hand.arg8_eq _),
      (h c Cert.ReferenceIdeal.main_arg9).trans (Cert.ReferenceIdeal.Hand.arg9_eq _),
      (h c Cert.ReferenceIdeal.main_arg10).trans (Cert.ReferenceIdeal.Hand.arg10_eq _),
      (h c Cert.ReferenceIdeal.main_arg11).trans (Cert.ReferenceIdeal.Hand.arg11_eq _)⟩

end Values

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame_ri, trivial, algebraic⟩

end Cert.Proof

end
